-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S16x64x1024 : Shape := ⟨3, ![16, 64, 1024]⟩
abbrev S16x1024x64 : Shape := ⟨3, ![16, 1024, 64]⟩
abbrev S16x1x64 : Shape := ⟨3, ![16, 1, 64]⟩
abbrev S2x16x2048x64 : Shape := ⟨4, ![2, 16, 2048, 64]⟩
abbrev S1x512x1024 : Shape := ⟨3, ![1, 512, 1024]⟩
abbrev S1x1024x64 : Shape := ⟨3, ![1, 1024, 64]⟩
abbrev S1x1x64 : Shape := ⟨3, ![1, 1, 64]⟩
abbrev S1x1x512x64 : Shape := ⟨4, ![1, 1, 512, 64]⟩
abbrev S512x1024 : Shape := ⟨2, ![512, 1024]⟩
abbrev S1024x64 : Shape := ⟨2, ![1024, 64]⟩
abbrev S512x64 : Shape := ⟨2, ![512, 64]⟩
abbrev S1x64 : Shape := ⟨2, ![1, 64]⟩
abbrev S2x16x2048x2048 : Shape := ⟨4, ![2, 16, 2048, 2048]⟩
abbrev S1x1x2048x64 : Shape := ⟨4, ![1, 1, 2048, 64]⟩
abbrev S1x1x512x2048 : Shape := ⟨4, ![1, 1, 512, 2048]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S1024x16x64 : Shape := ⟨3, ![1024, 16, 64]⟩
abbrev S1x1024 : Shape := ⟨2, ![1, 1024]⟩
abbrev S1x64x1024 : Shape := ⟨3, ![1, 64, 1024]⟩
abbrev S64x1024 : Shape := ⟨2, ![64, 1024]⟩

abbrev nBuf : Space → Nat
  | .hbm => 29
  | .vmem => 42
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S16x64x1024, .f32⟩
  | .hbm, ⟨12, _⟩ => ⟨S16x1024x64, .f32⟩
  | .hbm, ⟨13, _⟩ => ⟨S16x1x64, .f32⟩
  | .hbm, ⟨14, _⟩ => ⟨S16x64x1024, .f32⟩
  | .hbm, ⟨15, _⟩ => ⟨S16x1024x64, .f32⟩
  | .hbm, ⟨16, _⟩ => ⟨S16x1x64, .f32⟩
  | .hbm, ⟨17, _⟩ => ⟨S16x64x1024, .f32⟩
  | .hbm, ⟨18, _⟩ => ⟨S16x1024x64, .f32⟩
  | .hbm, ⟨19, _⟩ => ⟨S16x1x64, .f32⟩
  | .hbm, ⟨20, _⟩ => ⟨S2x16x2048x64, .bf16⟩
  | .hbm, ⟨21, _⟩ => ⟨S2x16x2048x64, .bf16⟩
  | .hbm, ⟨22, _⟩ => ⟨S2x16x2048x64, .bf16⟩
  | .hbm, ⟨23, _⟩ => ⟨S2x16x2048x64, .bf16⟩
  | .hbm, ⟨24, _⟩ => ⟨S2x16x2048x2048, .f32⟩
  | .hbm, ⟨25, _⟩ => ⟨S1024x16x64, .f32⟩
  | .hbm, ⟨26, _⟩ => ⟨S16x64x1024, .f32⟩
  | .hbm, ⟨27, _⟩ => ⟨S1x1024, .f32⟩
  | .hbm, ⟨28, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x64, .f32⟩
  | .local _ .vmem, ⟨3, _⟩ => ⟨S1x1024x64, .f32⟩
  | .local _ .vmem, ⟨4, _⟩ => ⟨S1x1x64, .f32⟩
  | .local _ .vmem, ⟨5, _⟩ => ⟨S1x1x64, .f32⟩
  | .local _ .vmem, ⟨6, _⟩ => ⟨S1x1x512x64, .bf16⟩
  | .local _ .vmem, ⟨7, _⟩ => ⟨S1x1x512x64, .bf16⟩
  | .local _ .vmem, ⟨8, _⟩ => ⟨S1x512x1024, .f32⟩
  | .local _ .vmem, ⟨9, _⟩ => ⟨S1x512x1024, .f32⟩
  | .local _ .vmem, ⟨10, _⟩ => ⟨S1x1024x64, .f32⟩
  | .local _ .vmem, ⟨11, _⟩ => ⟨S1x1024x64, .f32⟩
  | .local _ .vmem, ⟨12, _⟩ => ⟨S1x1x64, .f32⟩
  | .local _ .vmem, ⟨13, _⟩ => ⟨S1x1x64, .f32⟩
  | .local _ .vmem, ⟨14, _⟩ => ⟨S1x1x512x64, .bf16⟩
  | .local _ .vmem, ⟨15, _⟩ => ⟨S1x1x512x64, .bf16⟩
  | .local _ .vmem, ⟨16, _⟩ => ⟨S1x512x1024, .f32⟩
  | .local _ .vmem, ⟨17, _⟩ => ⟨S1x512x1024, .f32⟩
  | .local _ .vmem, ⟨18, _⟩ => ⟨S1x1024x64, .f32⟩
  | .local _ .vmem, ⟨19, _⟩ => ⟨S1x1024x64, .f32⟩
  | .local _ .vmem, ⟨20, _⟩ => ⟨S1x1x64, .f32⟩
  | .local _ .vmem, ⟨21, _⟩ => ⟨S1x1x64, .f32⟩
  | .local _ .vmem, ⟨22, _⟩ => ⟨S1x1x512x64, .bf16⟩
  | .local _ .vmem, ⟨23, _⟩ => ⟨S1x1x512x64, .bf16⟩
  | .local _ .vmem, ⟨24, _⟩ => ⟨S1x1x512x64, .bf16⟩
  | .local _ .vmem, ⟨25, _⟩ => ⟨S1x1x512x64, .bf16⟩
  | .local _ .vmem, ⟨26, _⟩ => ⟨S1x1x2048x64, .bf16⟩
  | .local _ .vmem, ⟨27, _⟩ => ⟨S1x1x2048x64, .bf16⟩
  | .local _ .vmem, ⟨28, _⟩ => ⟨S1x1x2048x64, .bf16⟩
  | .local _ .vmem, ⟨29, _⟩ => ⟨S1x1x2048x64, .bf16⟩
  | .local _ .vmem, ⟨30, _⟩ => ⟨S1x1x512x64, .bf16⟩
  | .local _ .vmem, ⟨31, _⟩ => ⟨S1x1x512x64, .bf16⟩
  | .local _ .vmem, ⟨32, _⟩ => ⟨S1x1x512x2048, .f32⟩
  | .local _ .vmem, ⟨33, _⟩ => ⟨S1x1x512x2048, .f32⟩
  | .local _ .vmem, ⟨34, _⟩ => ⟨S1x1x512x64, .bf16⟩
  | .local _ .vmem, ⟨35, _⟩ => ⟨S1x1x512x64, .bf16⟩
  | .local _ .vmem, ⟨36, _⟩ => ⟨S1x64x1024, .f32⟩
  | .local _ .vmem, ⟨37, _⟩ => ⟨S1x64x1024, .f32⟩
  | .local _ .vmem, ⟨38, _⟩ => ⟨S1x1024, .f32⟩
  | .local _ .vmem, ⟨39, _⟩ => ⟨S1x512x1024, .f32⟩
  | .local _ .vmem, ⟨40, _⟩ => ⟨S1x512x1024, .f32⟩
  | .local _ .vmem, ⟨41, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg3_1 : Ref sig .tc := ⟨.vmem, 40, rfl⟩
abbrev cc4_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem3_1 : DmaSem sig := 40

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev grid1 : Pipeline.Grid := ⟨3, ![2, 4, 16], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1x1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨3, ![2, 4, 16], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 2 → Memref sig .tc .vmem S1x1x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, false, true]

abbrev stage2_3 : Fin 2 → Memref sig .tc .vmem S1x1x512x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev grid3 : Pipeline.Grid := ⟨3, ![2, 16, 4], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage3_0 : Fin 2 → Memref sig .tc .vmem S1x1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x1x512x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x1x512x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev grid4 : Pipeline.Grid := ⟨3, ![2, 4, 16], ![false, false, false]⟩

def k4_cond2 (i : grid4.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_11 : BitVec 32 := 0#32
  let v16 : BitVec 1 := Scalar.cmpi .ne v15 c0_i32_11
  v16

def cc4_transform_0 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage4_0 : Fin 2 → Memref sig .tc .vmem S1x1x512x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, true]

abbrev stage4_1 : Fin 2 → Memref sig .tc .vmem S1x64x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, false, true]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false, false]

abbrev stage4_3 : Fin 2 → Memref sig .tc .vmem S1x512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

class Facts₀ : Prop where
  shapeCasts_S1024x1024_S16x64x1024 : S1024x1024.ShapeCasts S16x64x1024
  transposes_S16x64x1024_S16x1024x64_0_2_1 : S16x64x1024.Transposes [0, 2, 1] S16x1024x64
  shapeCasts_S1024_S16x1x64 : S1024.ShapeCasts S16x1x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S512x64 : S1x64.Broadcasts S512x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S1024x1024_S1024x16x64 : S1024x1024.ShapeCasts S1024x16x64
  transposes_S1024x16x64_S16x64x1024_1_2_0 : S1024x16x64.Transposes [1, 2, 0] S16x64x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S1024x64_S512x64_1_0_0_1_n_n_wf : DotDims.WF S512x1024 S1024x64 S512x64 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S16x1024x64.size a
  hwx0_1 : ∀ i : grid0.Coords, EltTy.bits .f32 = 32 ∨ (Rect.block (s := S16x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S16x1x64.size a
  hwx0_2 : ∀ i : grid0.Coords, EltTy.bits .f32 = 32 ∨ (Rect.block (s := S16x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S2x16x2048x64.size a
  hwx0_3 : ∀ i : grid0.Coords, EltTy.bits .bf16 = 32 ∨ (Rect.block (s := S2x16x2048x64) S1x1x512x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S2x2048x1024.size a
  hwx1_0 : ∀ i : grid1.Coords, EltTy.bits .f32 = 32 ∨ (Rect.block (s := S2x2048x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S16x1024x64.size a
  hwx1_1 : ∀ i : grid1.Coords, EltTy.bits .f32 = 32 ∨ (Rect.block (s := S16x1024x64) S1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S16x1x64.size a
  hwx1_2 : ∀ i : grid1.Coords, EltTy.bits .f32 = 32 ∨ (Rect.block (s := S16x1x64) S1x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x64.size a ≤ S2x16x2048x64.size a
  hwx1_3 : ∀ i : grid1.Coords, EltTy.bits .bf16 = 32 ∨ (Rect.block (s := S2x16x2048x64) S1x1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S2x2048x1024.size a
  hwx2_0 : ∀ i : grid2.Coords, EltTy.bits .f32 = 32 ∨ (Rect.block (s := S2x2048x1024) S1x512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x64.size a ≤ S16x1024x64.size a
  hwx2_1 : ∀ i : grid2.Coords, EltTy.bits .f32 = 32 ∨ (Rect.block (s := S16x1024x64) S1x1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x64.size a ≤ S16x1x64.size a
  hwx2_2 : ∀ i : grid2.Coords, EltTy.bits .f32 = 32 ∨ (Rect.block (s := S16x1x64) S1x1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x512x64.size a ≤ S2x16x2048x64.size a
  hwx2_3 : ∀ i : grid2.Coords, EltTy.bits .bf16 = 32 ∨ (Rect.block (s := S2x16x2048x64) S1x1x512x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x512x64.size a ≤ S2x16x2048x64.size a
  hwx3_0 : ∀ i : grid3.Coords, EltTy.bits .bf16 = 32 ∨ (Rect.block (s := S2x16x2048x64) S1x1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x64.size a ≤ S2x16x2048x64.size a
  hwx3_1 : ∀ i : grid3.Coords, EltTy.bits .bf16 = 32 ∨ (Rect.block (s := S2x16x2048x64) S1x1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x64.size a ≤ S2x16x2048x64.size a
  hwx3_2 : ∀ i : grid3.Coords, EltTy.bits .bf16 = 32 ∨ (Rect.block (s := S2x16x2048x64) S1x1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x512x64.size a ≤ S2x16x2048x64.size a
  hwx3_3 : ∀ i : grid3.Coords, EltTy.bits .bf16 = 32 ∨ (Rect.block (s := S2x16x2048x64) S1x1x512x64.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x512x2048.size a ≤ S2x16x2048x2048.size a
  hwx3_4 : ∀ i : grid3.Coords, EltTy.bits .f32 = 32 ∨ (Rect.block (s := S2x16x2048x2048) S1x1x512x2048.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x1x512x64.size a ≤ S2x16x2048x64.size a
  hwx4_0 : ∀ i : grid4.Coords, EltTy.bits .bf16 = 32 ∨ (Rect.block (s := S2x16x2048x64) S1x1x512x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x64x1024.size a ≤ S16x64x1024.size a
  hwx4_1 : ∀ i : grid4.Coords, EltTy.bits .f32 = 32 ∨ (Rect.block (s := S16x64x1024) S1x64x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x512x1024.size a ≤ S2x2048x1024.size a
  hwx4_3 : ∀ i : grid4.Coords, EltTy.bits .f32 = 32 ∨ (Rect.block (s := S2x2048x1024) S1x512x1024.size (cc4_transform_3 i) (hinb4_3 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x1x512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v9) S1x1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1x1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12_0) S1x1x512x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12_1) S1x1x512x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v12_0) S1x1x512x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S1x64x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v16) S1x512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S2x16x2048x2048, .f32⟩
  | .hbm, ⟨30, _⟩ => ⟨S_, .f32⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S_, .f32⟩
  | .hbm, ⟨36, _⟩ => ⟨S2x16x2048, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S_, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x64, .f32⟩
  | .hbm, ⟨48, _⟩ => ⟨S2x2048x16x64, .f32⟩
  | .hbm, ⟨49, _⟩ => ⟨S2x2048x1024, .f32⟩
  | .hbm, ⟨50, _⟩ => ⟨S2x2048x1024, .f32⟩
  | .hbm, ⟨51, _⟩ => ⟨S1x1x1024, .f32⟩
  | .hbm, ⟨52, _⟩ => ⟨S2x2048x1024, .f32⟩
  | .hbm, ⟨53, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KB.QkvDefs.lean ====
/- The definitions of the frame half of the three query/key/value projection regions (custom_calls 0, 1, 2):
   per region, at a parameter `V` (the TensorCore's buffer contents when the region is entered), each window's
   block at a point, the rectangles the body loads and stores through, what the body leaves in the output window's
   buffer, and the pipeline's proof data with its projections. -/
import proofs.«114834_j83013127897754_2_alg».proof.Proof.Gen.Kernel.Launch
import proofs.«114834_j83013127897754_2_alg».proof.Proof.Gen.Kernel.Skeleton
import proofs.«114834_j83013127897754_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 0: custom_call 0, `cc0__qkv_proj_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each the whole of its staging buffer -/

abbrev r0_0 : Rect S1x512x1024 := Rect.unit (s := S1x512x1024) ![0, 0, 0] S1x512x1024.size inb_S1x512x1024_S1x512x1024_0_0_0
abbrev r0_1 : Rect S1x1024x64 := Rect.unit (s := S1x1024x64) ![0, 0, 0] S1x1024x64.size inb_S1x1024x64_S1x1024x64_0_0_0
abbrev r0_2 : Rect S1x1x64 := Rect.unit (s := S1x1x64) ![0, 0, 0] S1x1x64.size inb_S1x1x64_S1x1x64_0_0_0
abbrev r0_3 : Rect S1x1x512x64 := Rect.unit (s := S1x1x512x64) ![0, 0, 0, 0] S1x1x512x64.size inb_S1x1x512x64_S1x1x512x64_0_0_0_0

/-! ## What the body leaves in the output window's buffer -/

/-- Window 3's staging buffer after the body, from the input windows' blocks: its one store as a piece, the
    payload the projection of the three loaded blocks. -/
def out0_3 (x0 : Vec F S1x512x1024 .f32) (x1 : Vec F S1x1024x64 .f32) (x2 : Vec F S1x1x64 .f32) : Vec F S1x1x512x64 .bf16 :=
  View.canon [⟨r0_3, k0_pay1 (View.ld x0 r0_0) (View.ld x1 r0_1) (View.ld x2 r0_2)⟩]

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! # REGION 1: custom_call 1, `cc1__qkv_proj_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each the whole of its staging buffer -/

abbrev r1_0 : Rect S1x512x1024 := Rect.unit (s := S1x512x1024) ![0, 0, 0] S1x512x1024.size inb_S1x512x1024_S1x512x1024_0_0_0
abbrev r1_1 : Rect S1x1024x64 := Rect.unit (s := S1x1024x64) ![0, 0, 0] S1x1024x64.size inb_S1x1024x64_S1x1024x64_0_0_0
abbrev r1_2 : Rect S1x1x64 := Rect.unit (s := S1x1x64) ![0, 0, 0] S1x1x64.size inb_S1x1x64_S1x1x64_0_0_0
abbrev r1_3 : Rect S1x1x512x64 := Rect.unit (s := S1x1x512x64) ![0, 0, 0, 0] S1x1x512x64.size inb_S1x1x512x64_S1x1x512x64_0_0_0_0

/-! ## What the body leaves in the output window's buffer -/

/-- Window 3's staging buffer after the body, from the input windows' blocks: its one store as a piece, the
    payload the projection of the three loaded blocks. -/
def out1_3 (x0 : Vec F S1x512x1024 .f32) (x1 : Vec F S1x1024x64 .f32) (x2 : Vec F S1x1x64 .f32) : Vec F S1x1x512x64 .bf16 :=
  View.canon [⟨r1_3, k1_pay1 (View.ld x0 r1_0) (View.ld x1 r1_1) (View.ld x2 r1_2)⟩]

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! # REGION 2: custom_call 2, `cc2__qkv_proj_kernel` (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each the whole of its staging buffer -/

abbrev r2_0 : Rect S1x512x1024 := Rect.unit (s := S1x512x1024) ![0, 0, 0] S1x512x1024.size inb_S1x512x1024_S1x512x1024_0_0_0
abbrev r2_1 : Rect S1x1024x64 := Rect.unit (s := S1x1024x64) ![0, 0, 0] S1x1024x64.size inb_S1x1024x64_S1x1024x64_0_0_0
abbrev r2_2 : Rect S1x1x64 := Rect.unit (s := S1x1x64) ![0, 0, 0] S1x1x64.size inb_S1x1x64_S1x1x64_0_0_0
abbrev r2_3 : Rect S1x1x512x64 := Rect.unit (s := S1x1x512x64) ![0, 0, 0, 0] S1x1x512x64.size inb_S1x1x512x64_S1x1x512x64_0_0_0_0

/-! ## What the body leaves in the output window's buffer -/

/-- Window 3's staging buffer after the body, from the input windows' blocks: its one store as a piece, the
    payload the projection of the three loaded blocks. -/
def out2_3 (x0 : Vec F S1x512x1024 .f32) (x1 : Vec F S1x1024x64 .f32) (x2 : Vec F S1x1x64 .f32) : Vec F S1x1x512x64 .bf16 :=
  View.canon [⟨r2_3, k2_pay1 (View.ld x0 r2_0) (View.ld x1 r2_1) (View.ld x2 r2_2)⟩]

/-! ## The pipeline's proof data -/

/-- The proof data of pipeline 2 on core `c`: the arrays as the region finds them (`V`); after the body at
    point `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.Kernel.Hand

end
-- ==== Proof.KB.Qkv.lean ====
/- The frame half of the three query/key/value projection regions (custom_calls 0, 1, 2), over the definitions
   of the sibling module: per region, at a parameter `V` (the TensorCore's buffer contents when the region is
   entered), that each input's staging buffer holds its block when the body is called, the body's triple, and the
   body obligation. Each region is one control case: three whole-rectangle loads of the inputs, a dead load of the
   output, and one whole-rectangle store. -/
import proofs.«114834_j83013127897754_2_alg».proof.Proof.Gen.Kernel.Launch
import proofs.«114834_j83013127897754_2_alg».proof.Proof.Gen.Kernel.Skeleton
import proofs.«114834_j83013127897754_2_alg».proof.Proof.Gen.Kernel.Points
import proofs.«114834_j83013127897754_2_alg».proof.Proof.KB.QkvDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 0: custom_call 0, `cc0__qkv_proj_kernel` (pipeline 0), at the entry contents `V` -/

/-! ## The input windows' staging buffers when the body is called -/

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The output's store covers its buffer -/

/-- The one store is the whole buffer, so it covers it. -/
theorem cover0_3 (p0 : Vec F S1x1x512x64 .bf16) (y : S1x1x512x64.Idx) :
    ∃ pc ∈ ([⟨r0_3, p0⟩] : List (View.Piece (Elt F) S1x1x512x64 .bf16)), y ∈ pc.1.set :=
  View.cover_of_tiled [⟨r0_3, p0⟩] S1x1x512x64.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords)
    (arg0 : Memref sig .tc .vmem S1x512x1024 .f32) (harg0 : arg0.IsWhole) (arg1 : Memref sig .tc .vmem S1x1024x64 .f32) (harg1 : arg1.IsWhole)
    (arg2 : Memref sig .tc .vmem S1x1x64 .f32) (harg2 : arg2.IsWhole) (arg3 : Memref sig .tc .vmem S1x1x512x64 .bf16) (harg3 : arg3.IsWhole)
    (x0 : Vec F S1x512x1024 .f32) (x1 : Vec F S1x1024x64 .f32) (x2 : Vec F S1x1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__qkv_proj_kernel i arg0 harg0 arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1: custom_call 1, `cc1__qkv_proj_kernel` (pipeline 1), at the entry contents `V` -/

/-! ## The input windows' staging buffers when the body is called -/

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The output's store covers its buffer -/

/-- The one store is the whole buffer, so it covers it. -/
theorem cover1_3 (p0 : Vec F S1x1x512x64 .bf16) (y : S1x1x512x64.Idx) :
    ∃ pc ∈ ([⟨r1_3, p0⟩] : List (View.Piece (Elt F) S1x1x512x64 .bf16)), y ∈ pc.1.set :=
  View.cover_of_tiled [⟨r1_3, p0⟩] S1x1x512x64.size (by rfl) y

/-! ## The body's triple -/

set_option maxHeartbeats 1000000 in
/-- The kernel body on whole staging memrefs, the inputs' at read contents `xW` and the output's at anything, runs to
    the continuation holding the inputs' as they were and the output's at `out1_3` of the inputs'. -/
theorem sound_kernel1 (c : Dev nD) (E : Set ℕ) (i : grid1.Coords)
    (arg0 : Memref sig .tc .vmem S1x512x1024 .f32) (harg0 : arg0.IsWhole) (arg1 : Memref sig .tc .vmem S1x1024x64 .f32) (harg1 : arg1.IsWhole)
    (arg2 : Memref sig .tc .vmem S1x1x64 .f32) (harg2 : arg2.IsWhole) (arg3 : Memref sig .tc .vmem S1x1x512x64 .bf16) (harg3 : arg3.IsWhole)
    (x0 : Vec F S1x512x1024 .f32) (x1 : Vec F S1x1024x64 .f32) (x2 : Vec F S1x1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__qkv_proj_kernel i arg0 harg0 arg1 harg1 arg2 harg2 arg3 harg3) K := by
  simp only [cc1__qkv_proj_kernel_eq_skeleton]; unfold cc1__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # REGION 2: custom_call 2, `cc2__qkv_proj_kernel` (pipeline 2), at the entry contents `V` -/

/-! ## The input windows' staging buffers when the body is called -/

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The output's store covers its buffer -/

/-- The one store is the whole buffer, so it covers it. -/
theorem cover2_3 (p0 : Vec F S1x1x512x64 .bf16) (y : S1x1x512x64.Idx) :
    ∃ pc ∈ ([⟨r2_3, p0⟩] : List (View.Piece (Elt F) S1x1x512x64 .bf16)), y ∈ pc.1.set :=
  View.cover_of_tiled [⟨r2_3, p0⟩] S1x1x512x64.size (by rfl) y

/-! ## The body's triple -/

set_option maxHeartbeats 1000000 in
/-- The kernel body on whole staging memrefs, the inputs' at read contents `xW` and the output's at anything, runs to
    the continuation holding the inputs' as they were and the output's at `out2_3` of the inputs'. -/
theorem sound_kernel2 (c : Dev nD) (E : Set ℕ) (i : grid2.Coords)
    (arg0 : Memref sig .tc .vmem S1x512x1024 .f32) (harg0 : arg0.IsWhole) (arg1 : Memref sig .tc .vmem S1x1024x64 .f32) (harg1 : arg1.IsWhole)
    (arg2 : Memref sig .tc .vmem S1x1x64 .f32) (harg2 : arg2.IsWhole) (arg3 : Memref sig .tc .vmem S1x1x512x64 .bf16) (harg3 : arg3.IsWhole)
    (x0 : Vec F S1x512x1024 .f32) (x1 : Vec F S1x1024x64 .f32) (x2 : Vec F S1x1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__qkv_proj_kernel i arg0 harg0 arg1 harg1 arg2 harg2 arg3 harg3) K := by
  simp only [cc2__qkv_proj_kernel_eq_skeleton]; unfold cc2__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.AttnDefs.lean ====
/- The attention region (pipeline 3: grid [2, 16, 4]; windows 0 = query tile, 1 = keys, 2 = values, 3 = attention
   output tile, 4 = attention-weights tile), at a PARAMETER `V` — the TensorCore's buffer contents when the region is
   entered: each window's block at a point, what the body leaves in each output window's buffer as a function of the
   input blocks, and the pipeline's proof data with its projections. -/
import proofs.«114834_j83013127897754_2_alg».proof.Proof.Gen.Kernel.Launch
import proofs.«114834_j83013127897754_2_alg».proof.Proof.Gen.Kernel.Skeleton
import proofs.«114834_j83013127897754_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each is the whole of its buffer -/

abbrev r3_q : Rect S1x1x512x64 := Rect.unit (s := S1x1x512x64) ![0, 0, 0, 0] S1x1x512x64.size inb_S1x1x512x64_S1x1x512x64_0_0_0_0
abbrev r3_kv : Rect S1x1x2048x64 := Rect.unit (s := S1x1x2048x64) ![0, 0, 0, 0] S1x1x2048x64.size inb_S1x1x2048x64_S1x1x2048x64_0_0_0_0
abbrev r3_w : Rect S1x1x512x2048 := Rect.unit (s := S1x1x512x2048) ![0, 0, 0, 0] S1x1x512x2048.size inb_S1x1x512x2048_S1x1x512x2048_0_0_0_0

/-! ## What the body leaves in each output window's buffer -/

/-- Window 3's staging buffer after the body, from the input windows' blocks: its one store as a piece, the payload
    the attention output of the query tile against the keys and values. -/
def out3_3 (x0 : Vec F S1x1x512x64 .bf16) (x1 x2 : Vec F S1x1x2048x64 .bf16) : Vec F S1x1x512x64 .bf16 :=
  View.canon [⟨r3_q, k3_pay3 (View.ld x0 r3_q) (View.ld x1 r3_kv) (View.ld x2 r3_kv)⟩]

/-- Window 4's staging buffer after the body: its one store as a piece, the payload the attention weights of the
    query tile against the keys. -/
def out3_4 (x0 : Vec F S1x1x512x64 .bf16) (x1 : Vec F S1x1x2048x64 .bf16) : Vec F S1x1x512x2048 .f32 :=
  View.canon [⟨r3_w, k3_pay2 (View.ld x0 r3_q) (View.ld x1 r3_kv)⟩]

/-! ## The pipeline's proof data -/

/-- The proof data of pipeline 3 on core `c`: the arrays as the region finds them (`V`); after the body at point `t`
    each input's buffer at its block and each output's at `out3_W` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
    | ⟨4, _⟩ => out3_4 (iblk3 V c 0 t) (iblk3 V c 1 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]
theorem after3_4 (c : Dev nD) (t : Fin cfg3.N) :
    (dat3 V c).after 4 t = out3_4 (iblk3 V c 0 t) (iblk3 V c 1 t) := by dsimp only [dat3]

end Cert.Kernel.Hand

end
-- ==== Proof.KB.Attn.lean ====
/- The attention region (pipeline 3), at a PARAMETER `V` — the TensorCore's buffer contents when the region is entered:
   each input window's current staging buffer holds its block at every point (fetched there or not); the body's triple
   on whole staging memrefs (the inputs' as they were, each output's at `out3_W` of the inputs'); the body obligation
   of the pipeline's proof data at every point. -/
import proofs.«114834_j83013127897754_2_alg».proof.Proof.KB.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The input windows' buffers before the body -/

/-- Input window 0's current staging buffer holds its block at every point, fetched there or not, for ANY proof data
    whose array is `V`'s (`hA`) and whose body leaves the block in place (`hafter`): unfetched, the index has not
    moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same of input window 1 (the keys: refetched only when the block index moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same of input window 2 (the values: refetched only when the block index moves). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## Each output's one store covers its buffer -/

/-- Window 3's one store is the whole buffer (checked by evaluation), so it covers it. -/
theorem cover3_3 (p0 : Vec F S1x1x512x64 .bf16) (y : S1x1x512x64.Idx) :
    ∃ pc ∈ ([⟨r3_q, p0⟩] : List (View.Piece (Elt F) S1x1x512x64 .bf16)), y ∈ pc.1.set :=
  View.cover_of_tiled [⟨r3_q, p0⟩] S1x1x512x64.size (by rfl) y

/-- Window 4's one store is the whole buffer (checked by evaluation), so it covers it. -/
theorem cover3_4 (p0 : Vec F S1x1x512x2048 .f32) (y : S1x1x512x2048.Idx) :
    ∃ pc ∈ ([⟨r3_w, p0⟩] : List (View.Piece (Elt F) S1x1x512x2048 .f32)), y ∈ pc.1.set :=
  View.cover_of_tiled [⟨r3_w, p0⟩] S1x1x512x2048.size (by rfl) y

/-! ## The body's triple -/

set_option maxHeartbeats 1000000 in
/-- The kernel body on whole staging memrefs, the inputs' at read contents `xW` and the outputs' at anything, runs to
    the continuation holding the inputs' as they were and each output's at `out3_W` of the inputs': the printed function
    is its skeleton of memory operations over payloads — three whole loads, and per output a whole load whose value is
    unused followed by a whole store (the attention weights first, then the attention output). -/
theorem sound_kernel3 (c : Dev nD) (E : Set ℕ) (i : grid3.Coords)
    (arg3 : Memref sig .tc .vmem S1x1x512x64 .bf16) (harg3 : arg3.IsWhole)
    (arg4 : Memref sig .tc .vmem S1x1x2048x64 .bf16) (harg4 : arg4.IsWhole)
    (arg5 : Memref sig .tc .vmem S1x1x2048x64 .bf16) (harg5 : arg5.IsWhole)
    (arg6 : Memref sig .tc .vmem S1x1x512x64 .bf16) (harg6 : arg6.IsWhole)
    (arg7 : Memref sig .tc .vmem S1x1x512x2048 .f32) (harg7 : arg7.IsWhole)
    (x0 : Vec F S1x1x512x64 .bf16) (x1 : Vec F S1x1x2048x64 .bf16) (x2 : Vec F S1x1x2048x64 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out3_3 x0 x1 x2) ∗ owns (c : Thread nD τ) arg7 fullShare (out3_4 x0 x1)) -∗ K ⟨⟩))
      ⊢ wp frame (wpE (defs₀ (F := F)) Variants.none c none) E (cc3__attn_kernel i arg3 harg3 arg4 harg4 arg5 harg5 arg6 harg6 arg7 harg7) K := by
  simp only [cc3__attn_kernel_eq_skeleton]; unfold cc3__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The input windows' buffers, of the region's proof data -/

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.OutProjRuns.lean ====
/- The head-accumulating output projection (custom_call 4, `cc4__out_proj_kernel`): what the three cases of its
   body's run share — each window's block at a point, the input windows' buffers at their blocks, the body's two
   branch conditions in closed form over the grid, where the output window is idle, the staging and scratch memrefs,
   and the class invariant with the carried scratch split off the scoped rest. -/
import proofs.«114834_j83013127897754_2_alg».proof.Proof.Gen.Kernel.Launch
import proofs.«114834_j83013127897754_2_alg».proof.Proof.Gen.Kernel.Skeleton
import proofs.«114834_j83013127897754_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): unfetched, the block
    index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1 (the head's weight). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same for input window 2 (the bias row, fetched once: its block index never moves). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first `scf.if` (the head index is 0), from the grid coordinates (the skeleton's
    scalar chain substituted). -/
abbrev cond4_0 (i : grid4.Coords) : Prop := (Scalar.cmpi .ne (Scalar.extui (Scalar.cmpi .eq (BitVec.ofNat 32 (i 2).val) 0#32)) 0#32) = 1#1
/-- It holds at the points ≡ 0 (mod 16) — decided over the grid. -/
theorem hcond4_0 : ∀ t : Fin cfg4.N, cond4_0 (grid4.coords t) ↔ t.val % 16 = 0 :=
  (by decide +kernel : ∀ t : Fin grid4.N, cond4_0 (grid4.coords t) ↔ t.val % 16 = 0)

/-- The condition of the body's second `scf.if` (the head index is 15), from the grid coordinates. -/
abbrev cond4_1 (i : grid4.Coords) : Prop := k4_cond2 i = 1#1
/-- It holds at the points ≡ 15 (mod 16) — decided over the grid. -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle (the printed configuration's table `Cfg.idle`) -/

/-- Windows 0, 1, 2 are never idle (inputs). -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- At the points of case A (head 0) the configuration calls output 3 idle: the case stores nothing into it. -/
theorem idleAt4_3_A : ∀ t : Fin cfg4.N, cond4_0 (grid4.coords t) → ¬cond4_1 (grid4.coords t) → cfg4.idle 3 (grid4.coords t) = true := by decide +kernel
/-- At the points of case A the pipeline does not write output 3's block back. -/
theorem noFlush4_3_A : ∀ t : Fin cfg4.N, cond4_0 (grid4.coords t) → ¬cond4_1 (grid4.coords t) → (cfg4.win 3).flush t = false := by decide +kernel
/-- At the points of case B (a middle head) the configuration calls output 3 idle: the case stores nothing into it. -/
theorem idleAt4_3_B : ∀ t : Fin cfg4.N, ¬cond4_0 (grid4.coords t) → ¬cond4_1 (grid4.coords t) → cfg4.idle 3 (grid4.coords t) = true := by decide +kernel
/-- At the points of case B the pipeline does not write output 3's block back. -/
theorem noFlush4_3_B : ∀ t : Fin cfg4.N, ¬cond4_0 (grid4.coords t) → ¬cond4_1 (grid4.coords t) → (cfg4.win 3).flush t = false := by decide +kernel
/-- At the points of case C (head 15) the configuration calls output 3 live: the case stores into it. -/
theorem liveAt4_3_C : ∀ t : Fin cfg4.N, ¬cond4_0 (grid4.coords t) → cond4_1 (grid4.coords t) → cfg4.idle 3 (grid4.coords t) = false := by decide +kernel

/-! ## The kernel body on any staging memrefs -/

/-- One staging buffer of output window 3, through which its contents are stated (the choice does not matter). -/
abbrev VO4_3 : View sig .tc .vmem S1x512x1024 .f32 := (Memref.whole cc4_stg3_0 : Memref sig .tc .vmem S1x512x1024 .f32).view
/-- Each window's current staging memref at point `t`, spelled as the pipeline passes it (`bodyAt4`), and its wholeness. -/
abbrev ms4_0 (t : Fin cfg4.N) : Memref sig .tc .vmem S1x1x512x64 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x512x1024 .f32 := win4_3.stage (cfg4.slots t 3)
abbrev hs4_3 (t : Fin cfg4.N) : (ms4_3 t).IsWhole := hstage4_3 ((cfg4.slots t 3).cast nbuf4_3)
/-- The scratch operand: a whole scoped buffer of the kernel's own, passed beside the windows. -/
abbrev scM4_0 : Memref sig .tc .vmem S512x1024 .f32 := Memref.whole cc4_scratch0
/-- The scratch the kernel carries between points (the accumulator over the heads), as a view: what it holds is
    stated through it. -/
abbrev VS4_0 : View sig .tc .vmem S512x1024 .f32 := scM4_0.view

/-- The class invariant with the scratch operand as a memref owned at some contents, split off the scoped rest (the
    other calls' staging buffers and scratch stay unopened): what the body obligation hands the run and takes back. -/
theorem PhiA4_eq (c : Dev nD) :
    (Pipeline.ΦA spec4 c : sProp 𝕄)
      = iprop(iprop((∃ d, owns (c : Thread nD τ) scM4_0 fullShare d)
            ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4_0, owns_whole]; try rfl

end Cert.Kernel.Hand

end
-- ==== Proof.KB.OutProjRunA.lean ====
/- The output projection's body run whole IN CASE A (head 0: the first `scf.if` taken, the second not): the body's
   triple over its skeleton, with the pieces each buffer ends with as the witness. -/
import proofs.«114834_j83013127897754_2_alg».proof.Proof.KB.OutProjRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the scratch, as pieces (last first), IN CASE A
    (head 0), WITH the proof that on whole memrefs — the three inputs' at their contents, the output's (no store in
    this case: the window is idle and not written back at the case's points) at contents `xi3` handed back
    untouched, the carried scratch at anything — the body runs to the continuation holding the inputs' as they
    were, the output's as it was, and the scratch with its pieces written (`LS0`: the zero fill, then the head's
    product added to it). Each `scf.if` is decided by the case's hypotheses. -/
noncomputable def kernelRun4_A (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x1x512x64 .bf16) (x1 : Vec F S1x64x1024 .f32) (x2 : Vec F S1x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__out_proj_kernel i arg3 harg3 arg4 harg4 arg5 harg5 arg6 harg6 arg7 harg7) K } := by
  refine ⟨[], ?_, fun xi3 E K => ?run⟩
  case run =>
    simp only [cc4__out_proj_kernel_eq_skeleton]; unfold cc4__out_proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KB.OutProjRunB.lean ====
/- The output projection's body run whole IN CASE B (a middle head: neither `scf.if` taken): the body's triple over
   its skeleton, with the pieces each buffer ends with as the witness. -/
import proofs.«114834_j83013127897754_2_alg».proof.Proof.KB.OutProjRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the scratch, as pieces (last first), IN CASE B
    (a middle head), WITH the proof that on whole memrefs — the three inputs' at their contents, the output's (no
    store in this case: the window is idle and not written back at the case's points) at contents `xi3` handed back
    untouched, the carried scratch at the contents the point before left (`xs0`) — the body runs to the continuation
    holding the inputs' as they were, the output's as it was, and the scratch with its pieces written (`LS0`: the
    head's product added to what it held). Each `scf.if` is decided by the case's hypotheses. -/
noncomputable def kernelRun4_B (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x1x512x64 .bf16) (x1 : Vec F S1x64x1024 .f32) (x2 : Vec F S1x1024 .f32) (xs0 : Vec F S512x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__out_proj_kernel i arg3 harg3 arg4 harg4 arg5 harg5 arg6 harg6 arg7 harg7) K } := by
  refine ⟨[], ?_, fun xi3 E K => ?run⟩
  case run =>
    simp only [cc4__out_proj_kernel_eq_skeleton]; unfold cc4__out_proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KB.OutProjRunC.lean ====
/- The output projection's body run whole IN CASE C (head 15: the first `scf.if` not taken, the second taken): the
   body's triple over its skeleton, with the pieces each buffer ends with as the witness. -/
import proofs.«114834_j83013127897754_2_alg».proof.Proof.KB.OutProjRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the scratch, as pieces (last first), IN CASE C
    (head 15), WITH the proof that on whole memrefs — the three inputs' at their contents, the output's at anything,
    the carried scratch at the contents the point before left (`xs0`) — the body runs to the continuation holding
    the inputs' as they were, the scratch with its pieces written (`LS0`: the head's product added to what it held)
    and the output's buffer with its pieces written (`L3`: the accumulated sum plus the bias row). Each `scf.if` is
    decided by the case's hypotheses. -/
noncomputable def kernelRun4_C (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x1x512x64 .bf16) (x1 : Vec F S1x64x1024 .f32) (x2 : Vec F S1x1024 .f32) (xs0 : Vec F S512x1024 .f32) :
    Σ' (L3 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__out_proj_kernel i arg3 harg3 arg4 harg4 arg5 harg5 arg6 harg6 arg7 harg7) K } := by
  refine ⟨?_, ?_, fun E K => ?run⟩
  case run =>
    simp only [cc4__out_proj_kernel_eq_skeleton]; unfold cc4__out_proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KB.OutProj.lean ====
/- The head-accumulating output projection (custom_call 4), the rest of its region's half at the entry contents `V`:
   what the output's staging buffer and the carried scratch hold per case (covers) and point by point (`outsAt4`),
   the region invariant with the scratch at what the point before left (`PhiS4`), the proof data (`dat4`), the body
   obligation, and the invariant's entry from and exit to the class's. -/
import proofs.«114834_j83013127897754_2_alg».proof.Proof.KB.OutProjRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- Case A stores nothing into output 3 (the window is idle at its points and not written back there): no pieces —
    a placeholder (junk read back) that nothing consults, since at these points the window is neither written back
    nor read at the next point. -/
def out4_A_3 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x1x512x64 .bf16) (x1 : Vec F S1x64x1024 .f32) (x2 : Vec F S1x1024 .f32) : Vec F S1x512x1024 .f32 :=
  VO4_3.read (Elt F) (VO4_3.writes (Elt F) VO4_3.junk (kernelRun4_A c i arg3 harg3 arg4 harg4 arg5 harg5 arg6 harg6 arg7 harg7 hc0 hc1 x0 x1 x2).1)

/-- Case A's pieces for the scratch, which the kernel carries between points, cover it: 2 pieces of `S512x1024` tiling it. -/
theorem scover4_A_0 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x1x512x64 .bf16) (x1 : Vec F S1x64x1024 .f32) (x2 : Vec F S1x1024 .f32) (y : S512x1024.Idx) :
    ∃ pc ∈ (kernelRun4_A c i arg3 harg3 arg4 harg4 arg5 harg5 arg6 harg6 arg7 harg7 hc0 hc1 x0 x1 x2).2.1, y ∈ pc.1.set :=
  View.cover_of_tiledL (kernelRun4_A c i arg3 harg3 arg4 harg4 arg5 harg5 arg6 harg6 arg7 harg7 hc0 hc1 x0 x1 x2).2.1 S512x1024.size (by sl_kernel_rfl) y

/-- What case A leaves in the scratch: its pieces read back over junk. -/
def sout4_A_0 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x1x512x64 .bf16) (x1 : Vec F S1x64x1024 .f32) (x2 : Vec F S1x1024 .f32) : Vec F S512x1024 .f32 :=
  VS4_0.read (Elt F) (VS4_0.writes (Elt F) VS4_0.junk (kernelRun4_A c i arg3 harg3 arg4 harg4 arg5 harg5 arg6 harg6 arg7 harg7 hc0 hc1 x0 x1 x2).2.1)

/-- Case B stores nothing into output 3 (the window is idle at its points and not written back there): no pieces —
    a placeholder (junk read back) that nothing consults, since at these points the window is neither written back
    nor read at the next point. -/
def out4_B_3 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x1x512x64 .bf16) (x1 : Vec F S1x64x1024 .f32) (x2 : Vec F S1x1024 .f32) (xs0 : Vec F S512x1024 .f32) : Vec F S1x512x1024 .f32 :=
  VO4_3.read (Elt F) (VO4_3.writes (Elt F) VO4_3.junk (kernelRun4_B c i arg3 harg3 arg4 harg4 arg5 harg5 arg6 harg6 arg7 harg7 hc0 hc1 x0 x1 x2 xs0).1)

/-- Case B's pieces for the scratch, which the kernel carries between points, cover it: 1 piece of `S512x1024` tiling it. -/
theorem scover4_B_0 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x1x512x64 .bf16) (x1 : Vec F S1x64x1024 .f32) (x2 : Vec F S1x1024 .f32) (xs0 : Vec F S512x1024 .f32) (y : S512x1024.Idx) :
    ∃ pc ∈ (kernelRun4_B c i arg3 harg3 arg4 harg4 arg5 harg5 arg6 harg6 arg7 harg7 hc0 hc1 x0 x1 x2 xs0).2.1, y ∈ pc.1.set :=
  View.cover_of_tiledL (kernelRun4_B c i arg3 harg3 arg4 harg4 arg5 harg5 arg6 harg6 arg7 harg7 hc0 hc1 x0 x1 x2 xs0).2.1 S512x1024.size (by sl_kernel_rfl) y

/-- What case B leaves in the scratch: its pieces read back over junk. -/
def sout4_B_0 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x1x512x64 .bf16) (x1 : Vec F S1x64x1024 .f32) (x2 : Vec F S1x1024 .f32) (xs0 : Vec F S512x1024 .f32) : Vec F S512x1024 .f32 :=
  VS4_0.read (Elt F) (VS4_0.writes (Elt F) VS4_0.junk (kernelRun4_B c i arg3 harg3 arg4 harg4 arg5 harg5 arg6 harg6 arg7 harg7 hc0 hc1 x0 x1 x2 xs0).2.1)

/-- Case C's pieces for output 3 tile its block (one store of the whole `S1x512x1024`), so they cover it. -/
theorem cover4_C_3 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x1x512x64 .bf16) (x1 : Vec F S1x64x1024 .f32) (x2 : Vec F S1x1024 .f32) (xs0 : Vec F S512x1024 .f32) (y : S1x512x1024.Idx) :
    ∃ pc ∈ (kernelRun4_C c i arg3 harg3 arg4 harg4 arg5 harg5 arg6 harg6 arg7 harg7 hc0 hc1 x0 x1 x2 xs0).1, y ∈ pc.1.set :=
  View.cover_of_tiledL (kernelRun4_C c i arg3 harg3 arg4 harg4 arg5 harg5 arg6 harg6 arg7 harg7 hc0 hc1 x0 x1 x2 xs0).1 S1x512x1024.size (by sl_kernel_rfl) y

/-- What case C leaves in output 3's staging buffer: its pieces read back over junk. -/
def out4_C_3 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x1x512x64 .bf16) (x1 : Vec F S1x64x1024 .f32) (x2 : Vec F S1x1024 .f32) (xs0 : Vec F S512x1024 .f32) : Vec F S1x512x1024 .f32 :=
  VO4_3.read (Elt F) (VO4_3.writes (Elt F) VO4_3.junk (kernelRun4_C c i arg3 harg3 arg4 harg4 arg5 harg5 arg6 harg6 arg7 harg7 hc0 hc1 x0 x1 x2 xs0).1)

/-- Case C's pieces for the scratch, which the kernel carries between points, cover it: 1 piece of `S512x1024` tiling it. -/
theorem scover4_C_0 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x1x512x64 .bf16) (x1 : Vec F S1x64x1024 .f32) (x2 : Vec F S1x1024 .f32) (xs0 : Vec F S512x1024 .f32) (y : S512x1024.Idx) :
    ∃ pc ∈ (kernelRun4_C c i arg3 harg3 arg4 harg4 arg5 harg5 arg6 harg6 arg7 harg7 hc0 hc1 x0 x1 x2 xs0).2.1, y ∈ pc.1.set :=
  View.cover_of_tiledL (kernelRun4_C c i arg3 harg3 arg4 harg4 arg5 harg5 arg6 harg6 arg7 harg7 hc0 hc1 x0 x1 x2 xs0).2.1 S512x1024.size (by sl_kernel_rfl) y

/-- What case C leaves in the scratch: its pieces read back over junk. -/
def sout4_C_0 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x1x512x64 .bf16) (x1 : Vec F S1x64x1024 .f32) (x2 : Vec F S1x1024 .f32) (xs0 : Vec F S512x1024 .f32) : Vec F S512x1024 .f32 :=
  VS4_0.read (Elt F) (VS4_0.writes (Elt F) VS4_0.junk (kernelRun4_C c i arg3 harg3 arg4 harg4 arg5 harg5 arg6 harg6 arg7 harg7 hc0 hc1 x0 x1 x2 xs0).2.1)

/-! ## What the output's buffer and the scratch hold after each point -/

/-- THE ACCUMULATION. What output 3's staging buffer and the scratch the kernel carries between points hold after
    the body at position `n` (a pair: the output's buffer, then the scratch): the case the closed forms select at
    `n`, run at the point's memrefs and input blocks, the scratch at what this leaves at `n - 1`. An assignment of
    the conditions no point meets is no case. -/
def outsAt4 (c : Dev nD) : (n : ℕ) → n < cfg4.N → Vec F S1x512x1024 .f32 × Vec F S512x1024 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 16 = 0 then
      if h1 : (n + 1) % 16 = 15 then
        False.elim (by have hN : n + 1 < 128 := lt_of_lt_of_eq hn (show cfg4.N = 128 from N_4); omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 16 = 15 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

/-- `outsAt4` at a point of case A: that case's contents. -/
theorem outsAt4_A (c : Dev nD) (t : Fin cfg4.N) (h0 : t.val % 16 = 0) (h1 : ¬t.val % 16 = 15) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 16 = 0) (h1 : ¬t.val % 16 = 15) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 16 = 0) (h1 : t.val % 16 = 15) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`, the kernel CARRYING its scratch between points: before the first point
    the class's (every scratch at anything); afterwards the carried scratch at what the point before left in it
    (`outsAt4`'s scratch component), the remainder of the scoped rest (the other calls' buffers) unopened, and the
    generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the carried scratch at that point's contents. -/
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

/-- Before a point that is not the first: the carried scratch at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the output's at `outsAt4`'s first component; the invariant `PhiS4` (the
    class's before the first point, then the carried scratch at `outsAt4`'s second component); nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks (`before4_W`); the closed forms say which case the
    point is in; so that case's run applies. The invariant hands the body the carried scratch at what the point before
    left (at anything at the first point), the remainder of the scoped rest and the generator register pass through
    untouched, and the invariant takes the scratch back at this point's contents (by the case's cover); in cases A and
    B the output's buffer is handed back as found (the window idle, not written back), in case C at the case's
    pieces; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 128 := lt_of_lt_of_eq t.isLt (show cfg4.N = 128 from N_4)
  by_cases h0 : t.val % 16 = 0
  · by_cases h1 : t.val % 16 = 15
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 16 = 15
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      unfold out4_C_3 sout4_C_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_C_3 c _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region (the class invariant) is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class invariant back: the carried scratch's named contents
    are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 128 := N_4; omega)

end Cert.Kernel.Hand

end
-- ==== Proof.KB.Run.lean ====
import proofs.«114834_j83013127897754_2_alg».proof.Proof.Gen.Kernel.Regions
import proofs.«114834_j83013127897754_2_alg».proof.Proof.KB.Qkv
import proofs.«114834_j83013127897754_2_alg».proof.Proof.KB.Attn
import proofs.«114834_j83013127897754_2_alg».proof.Proof.KB.OutProj
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of @main: a fold from the launch memory

`B j c` is what core `c`'s buffers hold after `j` items of @main (a stretch of host operations applies them; a kernel
region leaves each of its windows' arrays at what its write-backs make of it and every other buffer alone); `E j` is
the same read at the TensorCore's references. -/

abbrev B0 : Dev nD → Valuation τ sig (Elt F) := fun c b => (s₀ m ρ).mem ((c : Dev nD), b)
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b

/-- After region 0: its windows' arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After region 1: its windows' arrays at what the pipeline leaves, every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After region 2: its windows' arrays at what the pipeline leaves, every other buffer as entered. -/
def B4 (c : Dev nD) : Valuation τ sig (Elt F) :=
  Pipeline.withArrays spec2 c (B3 m ρ c) fun w => (dat2 (E3 m ρ) c).arrAt w cfg2.N
theorem B4_arr (c : Dev nD) (w : Fin cfg2.W) :
    B4 m ρ c (Proc.devRef .tc (Pipeline.arrRef spec2 w)) = (dat2 (E3 m ρ) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
abbrev E4 : (c : Dev nD) → (b : Ref sig .tc) → Buf (Elt F) ((c : Thread nD τ).loc b) := fun c b => B4 m ρ c b
theorem hF2 (c : Dev nD) (w : Fin cfg2.W) : (dat2 (E3 m ρ) c).arrAt w cfg2.N = E4 m ρ c (Pipeline.arrRef spec2 w) :=
  (B4_arr m ρ c w).symm
theorem hrest2 (c : Dev nD) : ∀ b, b ∉ Finset.univ.image (Pipeline.arrRef spec2) → E4 m ρ c b = E3 m ρ c b :=
  fun b hb => B4_of_ne m ρ c b fun w e => hb (Finset.mem_image.mpr ⟨w, Finset.mem_univ _, e⟩)

/-- After region 3: its windows' arrays at what the pipeline leaves, every other buffer as entered. -/
def B5 (c : Dev nD) : Valuation τ sig (Elt F) :=
  Pipeline.withArrays spec3 c (B4 m ρ c) fun w => (dat3 (E4 m ρ) c).arrAt w cfg3.N
theorem B5_arr (c : Dev nD) (w : Fin cfg3.W) :
    B5 m ρ c (Proc.devRef .tc (Pipeline.arrRef spec3 w)) = (dat3 (E4 m ρ) c).arrAt w cfg3.N := by
  unfold B5; exact Pipeline.withArrays_arr spec3 launch3.win.arr_inj c _ _ w
theorem B5_of_ne (c : Dev nD) (b : Ref sig .tc) (hb : ∀ w, Pipeline.arrRef spec3 w ≠ b) :
    B5 m ρ c (Proc.devRef .tc b) = B4 m ρ c (Proc.devRef .tc b) := by
  unfold B5; exact Pipeline.withArrays_of_ne spec3 c _ _ b hb
abbrev E5 : (c : Dev nD) → (b : Ref sig .tc) → Buf (Elt F) ((c : Thread nD τ).loc b) := fun c b => B5 m ρ c b
theorem hF3 (c : Dev nD) (w : Fin cfg3.W) : (dat3 (E4 m ρ) c).arrAt w cfg3.N = E5 m ρ c (Pipeline.arrRef spec3 w) :=
  (B5_arr m ρ c w).symm
theorem hrest3 (c : Dev nD) : ∀ b, b ∉ Finset.univ.image (Pipeline.arrRef spec3) → E5 m ρ c b = E4 m ρ c b :=
  fun b hb => B5_of_ne m ρ c b fun w e => hb (Finset.mem_image.mpr ⟨w, Finset.mem_univ _, e⟩)

abbrev B6 : Dev nD → Valuation τ sig (Elt F) := fun c => StableHlo.after hostOps4 (B5 m ρ c)
abbrev E6 : (c : Dev nD) → (b : Ref sig .tc) → Buf (Elt F) ((c : Thread nD τ).loc b) := fun c b => B6 m ρ c b

/-- After region 4: its windows' arrays at what the pipeline leaves, every other buffer as entered. -/
def B7 (c : Dev nD) : Valuation τ sig (Elt F) :=
  Pipeline.withArrays spec4 c (B6 m ρ c) fun w => (dat4 (E6 m ρ) c).arrAt w cfg4.N
theorem B7_arr (c : Dev nD) (w : Fin cfg4.W) :
    B7 m ρ c (Proc.devRef .tc (Pipeline.arrRef spec4 w)) = (dat4 (E6 m ρ) c).arrAt w cfg4.N := by
  unfold B7; exact Pipeline.withArrays_arr spec4 launch4.win.arr_inj c _ _ w
theorem B7_of_ne (c : Dev nD) (b : Ref sig .tc) (hb : ∀ w, Pipeline.arrRef spec4 w ≠ b) :
    B7 m ρ c (Proc.devRef .tc b) = B6 m ρ c (Proc.devRef .tc b) := by
  unfold B7; exact Pipeline.withArrays_of_ne spec4 c _ _ b hb
abbrev E7 : (c : Dev nD) → (b : Ref sig .tc) → Buf (Elt F) ((c : Thread nD τ).loc b) := fun c b => B7 m ρ c b
theorem hF4 (c : Dev nD) (w : Fin cfg4.W) : (dat4 (E6 m ρ) c).arrAt w cfg4.N = E7 m ρ c (Pipeline.arrRef spec4 w) :=
  (B7_arr m ρ c w).symm
theorem hrest4 (c : Dev nD) : ∀ b, b ∉ Finset.univ.image (Pipeline.arrRef spec4) → E7 m ρ c b = E6 m ρ c b :=
  fun b hb => B7_of_ne m ρ c b fun w e => hb (Finset.mem_image.mpr ⟨w, Finset.mem_univ _, e⟩)

/-- A host stretch changes only the buffers its operations write. -/
theorem B1_of (c : Dev nD) (r : Ref sig .tc) (h : r ∉ hostOps0_W) :
    B1 m ρ c (Proc.devRef .tc r) = B0 m ρ c (Proc.devRef .tc r) :=
  StableHlo.after_of_writes_sub hostOps0 _ hostOps0_writes h
theorem B6_of (c : Dev nD) (r : Ref sig .tc) (h : r ∉ hostOps4_W) :
    B6 m ρ c (Proc.devRef .tc r) = B5 m ρ c (Proc.devRef .tc r) :=
  StableHlo.after_of_writes_sub hostOps4 _ hostOps4_writes h

/-! ### The arguments end as launched -/
theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := B7_of_ne m ρ c main_arg0 (by decide)
    _ = B5 m ρ c (Proc.devRef .tc main_arg0) := B6_of m ρ c main_arg0 (by decide)
    _ = B4 m ρ c (Proc.devRef .tc main_arg0) := B5_of_ne m ρ c main_arg0 (by decide)
    _ = B3 m ρ c (Proc.devRef .tc main_arg0) := B4_of_ne m ρ c main_arg0 (by decide)
    _ = B2 m ρ c (Proc.devRef .tc main_arg0) := B3_of_ne m ρ c main_arg0 (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := B1_of m ρ c main_arg0 (by decide)
    _ = m ((c : Thread nD τ).loc main_arg0) := rfl
theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := B7_of_ne m ρ c main_arg1 (by decide)
    _ = B5 m ρ c (Proc.devRef .tc main_arg1) := B6_of m ρ c main_arg1 (by decide)
    _ = B4 m ρ c (Proc.devRef .tc main_arg1) := B5_of_ne m ρ c main_arg1 (by decide)
    _ = B3 m ρ c (Proc.devRef .tc main_arg1) := B4_of_ne m ρ c main_arg1 (by decide)
    _ = B2 m ρ c (Proc.devRef .tc main_arg1) := (B3_arr m ρ c 0).trans (((dat1 (E2 m ρ) c).arrAt_in 0 rfl _).trans (A_eq1 (E2 m ρ) c 0))
    _ = B1 m ρ c (Proc.devRef .tc main_arg1) := B2_of_ne m ρ c main_arg1 (by decide)
    _ = B0 m ρ c (Proc.devRef .tc main_arg1) := B1_of m ρ c main_arg1 (by decide)
    _ = m ((c : Thread nD τ).loc main_arg1) := rfl
theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := B7_of_ne m ρ c main_arg2 (by decide)
    _ = B5 m ρ c (Proc.devRef .tc main_arg2) := B6_of m ρ c main_arg2 (by decide)
    _ = B4 m ρ c (Proc.devRef .tc main_arg2) := B5_of_ne m ρ c main_arg2 (by decide)
    _ = B3 m ρ c (Proc.devRef .tc main_arg2) := (B4_arr m ρ c 0).trans (((dat2 (E3 m ρ) c).arrAt_in 0 rfl _).trans (A_eq2 (E3 m ρ) c 0))
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := B1_of m ρ c main_arg2 (by decide)
    _ = m ((c : Thread nD τ).loc main_arg2) := rfl
theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := B7_of_ne m ρ c main_arg3 (by decide)
    _ = B5 m ρ c (Proc.devRef .tc main_arg3) := B6_of m ρ c main_arg3 (by decide)
    _ = B4 m ρ c (Proc.devRef .tc main_arg3) := B5_of_ne m ρ c main_arg3 (by decide)
    _ = B3 m ρ c (Proc.devRef .tc main_arg3) := B4_of_ne m ρ c main_arg3 (by decide)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := B1_of m ρ c main_arg3 (by decide)
    _ = m ((c : Thread nD τ).loc main_arg3) := rfl
theorem B7_main_arg4 (c : Dev nD) : B7 m ρ c (Proc.devRef .tc main_arg4) = m ((c : Thread nD τ).loc main_arg4) :=
  calc B7 m ρ c (Proc.devRef .tc main_arg4)
    _ = B6 m ρ c (Proc.devRef .tc main_arg4) := B7_of_ne m ρ c main_arg4 (by decide)
    _ = B5 m ρ c (Proc.devRef .tc main_arg4) := B6_of m ρ c main_arg4 (by decide)
    _ = B4 m ρ c (Proc.devRef .tc main_arg4) := B5_of_ne m ρ c main_arg4 (by decide)
    _ = B3 m ρ c (Proc.devRef .tc main_arg4) := B4_of_ne m ρ c main_arg4 (by decide)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := B1_of m ρ c main_arg4 (by decide)
    _ = m ((c : Thread nD τ).loc main_arg4) := rfl
theorem B7_main_arg5 (c : Dev nD) : B7 m ρ c (Proc.devRef .tc main_arg5) = m ((c : Thread nD τ).loc main_arg5) :=
  calc B7 m ρ c (Proc.devRef .tc main_arg5)
    _ = B6 m ρ c (Proc.devRef .tc main_arg5) := B7_of_ne m ρ c main_arg5 (by decide)
    _ = B5 m ρ c (Proc.devRef .tc main_arg5) := B6_of m ρ c main_arg5 (by decide)
    _ = B4 m ρ c (Proc.devRef .tc main_arg5) := B5_of_ne m ρ c main_arg5 (by decide)
    _ = B3 m ρ c (Proc.devRef .tc main_arg5) := B4_of_ne m ρ c main_arg5 (by decide)
    _ = B2 m ρ c (Proc.devRef .tc main_arg5) := B3_of_ne m ρ c main_arg5 (by decide)
    _ = B1 m ρ c (Proc.devRef .tc main_arg5) := B2_of_ne m ρ c main_arg5 (by decide)
    _ = B0 m ρ c (Proc.devRef .tc main_arg5) := B1_of m ρ c main_arg5 (by decide)
    _ = m ((c : Thread nD τ).loc main_arg5) := rfl
theorem B7_main_arg6 (c : Dev nD) : B7 m ρ c (Proc.devRef .tc main_arg6) = m ((c : Thread nD τ).loc main_arg6) :=
  calc B7 m ρ c (Proc.devRef .tc main_arg6)
    _ = B6 m ρ c (Proc.devRef .tc main_arg6) := B7_of_ne m ρ c main_arg6 (by decide)
    _ = B5 m ρ c (Proc.devRef .tc main_arg6) := B6_of m ρ c main_arg6 (by decide)
    _ = B4 m ρ c (Proc.devRef .tc main_arg6) := B5_of_ne m ρ c main_arg6 (by decide)
    _ = B3 m ρ c (Proc.devRef .tc main_arg6) := B4_of_ne m ρ c main_arg6 (by decide)
    _ = B2 m ρ c (Proc.devRef .tc main_arg6) := B3_of_ne m ρ c main_arg6 (by decide)
    _ = B1 m ρ c (Proc.devRef .tc main_arg6) := B2_of_ne m ρ c main_arg6 (by decide)
    _ = B0 m ρ c (Proc.devRef .tc main_arg6) := B1_of m ρ c main_arg6 (by decide)
    _ = m ((c : Thread nD τ).loc main_arg6) := rfl
theorem B7_main_arg7 (c : Dev nD) : B7 m ρ c (Proc.devRef .tc main_arg7) = m ((c : Thread nD τ).loc main_arg7) :=
  calc B7 m ρ c (Proc.devRef .tc main_arg7)
    _ = B6 m ρ c (Proc.devRef .tc main_arg7) := B7_of_ne m ρ c main_arg7 (by decide)
    _ = B5 m ρ c (Proc.devRef .tc main_arg7) := B6_of m ρ c main_arg7 (by decide)
    _ = B4 m ρ c (Proc.devRef .tc main_arg7) := B5_of_ne m ρ c main_arg7 (by decide)
    _ = B3 m ρ c (Proc.devRef .tc main_arg7) := B4_of_ne m ρ c main_arg7 (by decide)
    _ = B2 m ρ c (Proc.devRef .tc main_arg7) := B3_of_ne m ρ c main_arg7 (by decide)
    _ = B1 m ρ c (Proc.devRef .tc main_arg7) := B2_of_ne m ρ c main_arg7 (by decide)
    _ = B0 m ρ c (Proc.devRef .tc main_arg7) := B1_of m ρ c main_arg7 (by decide)
    _ = m ((c : Thread nD τ).loc main_arg7) := rfl
theorem B7_main_arg8 (c : Dev nD) : B7 m ρ c (Proc.devRef .tc main_arg8) = m ((c : Thread nD τ).loc main_arg8) :=
  calc B7 m ρ c (Proc.devRef .tc main_arg8)
    _ = B6 m ρ c (Proc.devRef .tc main_arg8) := B7_of_ne m ρ c main_arg8 (by decide)
    _ = B5 m ρ c (Proc.devRef .tc main_arg8) := B6_of m ρ c main_arg8 (by decide)
    _ = B4 m ρ c (Proc.devRef .tc main_arg8) := B5_of_ne m ρ c main_arg8 (by decide)
    _ = B3 m ρ c (Proc.devRef .tc main_arg8) := B4_of_ne m ρ c main_arg8 (by decide)
    _ = B2 m ρ c (Proc.devRef .tc main_arg8) := B3_of_ne m ρ c main_arg8 (by decide)
    _ = B1 m ρ c (Proc.devRef .tc main_arg8) := B2_of_ne m ρ c main_arg8 (by decide)
    _ = B0 m ρ c (Proc.devRef .tc main_arg8) := B1_of m ρ c main_arg8 (by decide)
    _ = m ((c : Thread nD τ).loc main_arg8) := rfl
theorem B7_main_arg9 (c : Dev nD) : B7 m ρ c (Proc.devRef .tc main_arg9) = m ((c : Thread nD τ).loc main_arg9) :=
  calc B7 m ρ c (Proc.devRef .tc main_arg9)
    _ = B6 m ρ c (Proc.devRef .tc main_arg9) := B7_of_ne m ρ c main_arg9 (by decide)
    _ = B5 m ρ c (Proc.devRef .tc main_arg9) := B6_of m ρ c main_arg9 (by decide)
    _ = B4 m ρ c (Proc.devRef .tc main_arg9) := B5_of_ne m ρ c main_arg9 (by decide)
    _ = B3 m ρ c (Proc.devRef .tc main_arg9) := B4_of_ne m ρ c main_arg9 (by decide)
    _ = B2 m ρ c (Proc.devRef .tc main_arg9) := B3_of_ne m ρ c main_arg9 (by decide)
    _ = B1 m ρ c (Proc.devRef .tc main_arg9) := B2_of_ne m ρ c main_arg9 (by decide)
    _ = B0 m ρ c (Proc.devRef .tc main_arg9) := B1_of m ρ c main_arg9 (by decide)
    _ = m ((c : Thread nD τ).loc main_arg9) := rfl
theorem B7_main_arg10 (c : Dev nD) : B7 m ρ c (Proc.devRef .tc main_arg10) = m ((c : Thread nD τ).loc main_arg10) :=
  calc B7 m ρ c (Proc.devRef .tc main_arg10)
    _ = B6 m ρ c (Proc.devRef .tc main_arg10) := B7_of_ne m ρ c main_arg10 (by decide)
    _ = B5 m ρ c (Proc.devRef .tc main_arg10) := B6_of m ρ c main_arg10 (by decide)
    _ = B4 m ρ c (Proc.devRef .tc main_arg10) := B5_of_ne m ρ c main_arg10 (by decide)
    _ = B3 m ρ c (Proc.devRef .tc main_arg10) := B4_of_ne m ρ c main_arg10 (by decide)
    _ = B2 m ρ c (Proc.devRef .tc main_arg10) := B3_of_ne m ρ c main_arg10 (by decide)
    _ = B1 m ρ c (Proc.devRef .tc main_arg10) := B2_of_ne m ρ c main_arg10 (by decide)
    _ = B0 m ρ c (Proc.devRef .tc main_arg10) := B1_of m ρ c main_arg10 (by decide)
    _ = m ((c : Thread nD τ).loc main_arg10) := rfl

/-! # The proof data family and the thread state -/

/-- The prefetched tables' admissible contents: no pipeline has a table. -/
abbrev admH : (p : Fin 5) → (pcfgs (F := F) p).Adm := fun p => (cfgs p).toPCfg_adm
/-- Every pipeline's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E2 m ρ) c
  | ⟨2, _⟩ => fun c => dat2 (E3 m ρ) c
  | ⟨3, _⟩ => fun c => dat3 (E4 m ρ) c
  | ⟨4, _⟩ => fun c => dat4 (E6 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the core's generator register at some state and its `owes`, at nothing. -/
abbrev RH (c : Dev nD) : sProp 𝕄 := iprop((∃ r, prngReg c r) ∗ ∃ W, owes (c : Thread nD τ) (0 : CellTallies nD τ sig Unit) W)
/-- A host stretch as a segment over the unscoped references from the contents `W`, `RH` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev TH (c : Dev nD) : sProp 𝕄 := iprop(StableHlo.held (c : Thread nD τ) (Pipeline.ucRefs τ sig) (B7 m ρ c) ∗ ∃ r, prngReg c r)

/-! # The regions as segments -/

set_option backward.isDefEq.respectTransparency.types false in
/-- Region 0 over the thread state: entered from every unscoped buffer at `B1`, left at `B2`. Its arrays are split
    out of the unscoped buffers and put back at the exit contents; the generator register goes into the region's invariant
    and comes out; nothing is owed; the kernel has no semaphore of its own. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LH lvH 0 fun _ _ => rfl
  pre c := iprop(StableHlo.held (c : Thread nD τ) (Pipeline.ucRefs τ sig) (B1 m ρ c) ∗ RH c)
  post c := iprop(StableHlo.held (c : Thread nD τ) (Pipeline.ucRefs τ sig) (B2 m ρ c) ∗ RH c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (E1 m ρ c) (E2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B2`, left at `B3`. Its arrays are split
    out of the unscoped buffers and put back at the exit contents; the generator register goes into the region's invariant
    and comes out; nothing is owed; the kernel has no semaphore of its own. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ LH lvH 1 fun _ _ => rfl
  pre c := iprop(StableHlo.held (c : Thread nD τ) (Pipeline.ucRefs τ sig) (B2 m ρ c) ∗ RH c)
  post c := iprop(StableHlo.held (c : Thread nD τ) (Pipeline.ucRefs τ sig) (B3 m ρ c) ∗ RH c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (E2 m ρ c) (E3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B3`, left at `B4`. Its arrays are split
    out of the unscoped buffers and put back at the exit contents; the generator register goes into the region's invariant
    and comes out; nothing is owed; the kernel has no semaphore of its own. -/
def regH2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E3 m ρ) c).loose
  hwaits := Pipeline.hwaits_of_owed_zero _ _ _ _ LH lvH 2 fun _ _ => rfl
  pre c := iprop(StableHlo.held (c : Thread nD τ) (Pipeline.ucRefs τ sig) (B3 m ρ c) ∗ RH c)
  post c := iprop(StableHlo.held (c : Thread nD τ) (Pipeline.ucRefs τ sig) (B4 m ρ c) ∗ RH c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (E3 m ρ c) (E4 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B4`, left at `B5`. Its arrays are split
    out of the unscoped buffers and put back at the exit contents; the generator register goes into the region's invariant
    and comes out; nothing is owed; the kernel has no semaphore of its own. -/
def regH3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (E4 m ρ) c).loose
  hwaits := Pipeline.hwaits_of_owed_zero _ _ _ _ LH lvH 3 fun _ _ => rfl
  pre c := iprop(StableHlo.held (c : Thread nD τ) (Pipeline.ucRefs τ sig) (B4 m ρ c) ∗ RH c)
  post c := iprop(StableHlo.held (c : Thread nD τ) (Pipeline.ucRefs τ sig) (B5 m ρ c) ∗ RH c)
  X c := iprop(∃ r, prngReg c r)
  Y c := iprop(∃ r, prngReg c r)
  Z c := Pipeline.unscopedRest (Ix := Unit) (Name := ℕ) (U := UR sig nD τ) (Lvl := ℕ) spec3 c (E4 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (E4 m ρ c) (E5 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `B6`, left at `B7`. Its arrays are split
    out of the unscoped buffers and put back at the exit contents; the generator register goes into the region's invariant
    and comes out; nothing is owed; the kernel has no semaphore of its own. -/
def regH4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (E6 m ρ) c).loose
  hwaits := Pipeline.hwaits_of_owed_zero _ _ _ _ LH lvH 4 fun _ _ => rfl
  pre c := iprop(StableHlo.held (c : Thread nD τ) (Pipeline.ucRefs τ sig) (B6 m ρ c) ∗ RH c)
  post c := iprop(TH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E6 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h4 := hin4 (E6 m ρ) c
    unfold Pipeline.ΦA at h4
    rw [show (pdatsH m ρ 4 c).Φ 0 = (dat4 (E6 m ρ) c).Φ 0 from rfl]
    iintro ⟨Hp, -, Hr⟩
    iapply h4
    isplitl [Hr]; · iexact Hr
    iexact Hp
  hout c := by
    have h4 := hout4 (E6 m ρ) c
    unfold Pipeline.ΦA at h4
    rw [Pipeline.ownSems0_none, show (pdatsH m ρ 4 c).Φ (Fin.last _) = (dat4 (E6 m ρ) c).Φ (Fin.last cfg4.N) from rfl]
    iintro HX
    ihave HZ := h4 $$ HX
    icases HZ with ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (E6 m ρ c) (E7 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the run -/

/-- @main's seven segments in order. -/
abbrev segsH : List (Pipeline.Seg (pcfgs (F := F)) admH (pdatsH m ρ) () defs₀ 𝒱H LH lvH) :=
  [ .host (hsegH hostOps0 hostOps0_sub hostOps0_fresh (B0 m ρ)),
    .region (regH0 m ρ), .region (regH1 m ρ), .region (regH2 m ρ), .region (regH3 m ρ),
    .host (hsegH hostOps4 hostOps4_sub hostOps4_fresh (B5 m ρ)),
    .region (regH4 m ρ) ]
/-- @main IS the run of the segments. -/
theorem main_runH (c : Dev nD) : main (F := F) c = Pipeline.Seg.run (segsH m ρ) := (main_chain c).trans (by chain_rfl)

set_option backward.isDefEq.respectTransparency.types false in
/-- THE RUN: from any memory with zero counters every weakly fair execution of @main on the TensorCores terminates, nothing
    faulting, and every final state holds every unscoped buffer at the last boundary's contents `B7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TH m ρ)
    (hch := ⟨fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucH main_arg0 (by decide))).trans (B7_main_arg0 m ρ c),
     (h c _ (mem_ucH main_arg1 (by decide))).trans (B7_main_arg1 m ρ c),
     (h c _ (mem_ucH main_arg2 (by decide))).trans (B7_main_arg2 m ρ c),
     (h c _ (mem_ucH main_arg3 (by decide))).trans (B7_main_arg3 m ρ c),
     (h c _ (mem_ucH main_arg4 (by decide))).trans (B7_main_arg4 m ρ c),
     (h c _ (mem_ucH main_arg5 (by decide))).trans (B7_main_arg5 m ρ c),
     (h c _ (mem_ucH main_arg6 (by decide))).trans (B7_main_arg6 m ρ c),
     (h c _ (mem_ucH main_arg7 (by decide))).trans (B7_main_arg7 m ρ c),
     (h c _ (mem_ucH main_arg8 (by decide))).trans (B7_main_arg8 m ρ c),
     (h c _ (mem_ucH main_arg9 (by decide))).trans (B7_main_arg9 m ρ c),
     (h c _ (mem_ucH main_arg10 (by decide))).trans (B7_main_arg10 m ρ c)⟩)
    (run_all m ρ)

end Cert.Kernel.Hand

end
-- ==== Proof.KI.QkvDefs.lean ====
/- The definitions of the frame half of the three query/key/value projection regions (custom_calls 0, 1, 2):
   per region, at a parameter `V` (the TensorCore's buffer contents when the region is entered), each window's
   block at a point, the rectangles the body loads and stores through, what the body leaves in the output window's
   buffer, and the pipeline's proof data with its projections. -/
import proofs.«114834_j83013127897754_2_alg».proof.Proof.Gen.KernelIdeal.Launch
import proofs.«114834_j83013127897754_2_alg».proof.Proof.Gen.KernelIdeal.Skeleton
import proofs.«114834_j83013127897754_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 0: custom_call 0, `cc0__qkv_proj_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each the whole of its staging buffer -/

abbrev r0_0 : Rect S1x512x1024 := Rect.unit (s := S1x512x1024) ![0, 0, 0] S1x512x1024.size inb_S1x512x1024_S1x512x1024_0_0_0
abbrev r0_1 : Rect S1x1024x64 := Rect.unit (s := S1x1024x64) ![0, 0, 0] S1x1024x64.size inb_S1x1024x64_S1x1024x64_0_0_0
abbrev r0_2 : Rect S1x1x64 := Rect.unit (s := S1x1x64) ![0, 0, 0] S1x1x64.size inb_S1x1x64_S1x1x64_0_0_0
abbrev r0_3 : Rect S1x1x512x64 := Rect.unit (s := S1x1x512x64) ![0, 0, 0, 0] S1x1x512x64.size inb_S1x1x512x64_S1x1x512x64_0_0_0_0

/-! ## What the body leaves in the output window's buffer -/

/-- Window 3's staging buffer after the body, from the input windows' blocks: its one store as a piece, the
    payload the projection of the three loaded blocks. -/
def out0_3 (x0 : Vec F S1x512x1024 .f32) (x1 : Vec F S1x1024x64 .f32) (x2 : Vec F S1x1x64 .f32) : Vec F S1x1x512x64 .bf16 :=
  View.canon [⟨r0_3, k0_pay1 (View.ld x0 r0_0) (View.ld x1 r0_1) (View.ld x2 r0_2)⟩]

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! # REGION 1: custom_call 1, `cc1__qkv_proj_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each the whole of its staging buffer -/

abbrev r1_0 : Rect S1x512x1024 := Rect.unit (s := S1x512x1024) ![0, 0, 0] S1x512x1024.size inb_S1x512x1024_S1x512x1024_0_0_0
abbrev r1_1 : Rect S1x1024x64 := Rect.unit (s := S1x1024x64) ![0, 0, 0] S1x1024x64.size inb_S1x1024x64_S1x1024x64_0_0_0
abbrev r1_2 : Rect S1x1x64 := Rect.unit (s := S1x1x64) ![0, 0, 0] S1x1x64.size inb_S1x1x64_S1x1x64_0_0_0
abbrev r1_3 : Rect S1x1x512x64 := Rect.unit (s := S1x1x512x64) ![0, 0, 0, 0] S1x1x512x64.size inb_S1x1x512x64_S1x1x512x64_0_0_0_0

/-! ## What the body leaves in the output window's buffer -/

/-- Window 3's staging buffer after the body, from the input windows' blocks: its one store as a piece, the
    payload the projection of the three loaded blocks. -/
def out1_3 (x0 : Vec F S1x512x1024 .f32) (x1 : Vec F S1x1024x64 .f32) (x2 : Vec F S1x1x64 .f32) : Vec F S1x1x512x64 .bf16 :=
  View.canon [⟨r1_3, k1_pay1 (View.ld x0 r1_0) (View.ld x1 r1_1) (View.ld x2 r1_2)⟩]

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! # REGION 2: custom_call 2, `cc2__qkv_proj_kernel` (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each the whole of its staging buffer -/

abbrev r2_0 : Rect S1x512x1024 := Rect.unit (s := S1x512x1024) ![0, 0, 0] S1x512x1024.size inb_S1x512x1024_S1x512x1024_0_0_0
abbrev r2_1 : Rect S1x1024x64 := Rect.unit (s := S1x1024x64) ![0, 0, 0] S1x1024x64.size inb_S1x1024x64_S1x1024x64_0_0_0
abbrev r2_2 : Rect S1x1x64 := Rect.unit (s := S1x1x64) ![0, 0, 0] S1x1x64.size inb_S1x1x64_S1x1x64_0_0_0
abbrev r2_3 : Rect S1x1x512x64 := Rect.unit (s := S1x1x512x64) ![0, 0, 0, 0] S1x1x512x64.size inb_S1x1x512x64_S1x1x512x64_0_0_0_0

/-! ## What the body leaves in the output window's buffer -/

/-- Window 3's staging buffer after the body, from the input windows' blocks: its one store as a piece, the
    payload the projection of the three loaded blocks. -/
def out2_3 (x0 : Vec F S1x512x1024 .f32) (x1 : Vec F S1x1024x64 .f32) (x2 : Vec F S1x1x64 .f32) : Vec F S1x1x512x64 .bf16 :=
  View.canon [⟨r2_3, k2_pay1 (View.ld x0 r2_0) (View.ld x1 r2_1) (View.ld x2 r2_2)⟩]

/-! ## The pipeline's proof data -/

/-- The proof data of pipeline 2 on core `c`: the arrays as the region finds them (`V`); after the body at
    point `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.KernelIdeal.Hand

end
-- ==== Proof.KI.Qkv.lean ====
/- The frame half of the three query/key/value projection regions (custom_calls 0, 1, 2), over the definitions
   of the sibling module: per region, at a parameter `V` (the TensorCore's buffer contents when the region is
   entered), that each input's staging buffer holds its block when the body is called, the body's triple, and the
   body obligation. Each region is one control case: three whole-rectangle loads of the inputs, a dead load of the
   output, and one whole-rectangle store. -/
import proofs.«114834_j83013127897754_2_alg».proof.Proof.Gen.KernelIdeal.Launch
import proofs.«114834_j83013127897754_2_alg».proof.Proof.Gen.KernelIdeal.Skeleton
import proofs.«114834_j83013127897754_2_alg».proof.Proof.Gen.KernelIdeal.Points
import proofs.«114834_j83013127897754_2_alg».proof.Proof.KI.QkvDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 0: custom_call 0, `cc0__qkv_proj_kernel` (pipeline 0), at the entry contents `V` -/

/-! ## The input windows' staging buffers when the body is called -/

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The output's store covers its buffer -/

/-- The one store is the whole buffer, so it covers it. -/
theorem cover0_3 (p0 : Vec F S1x1x512x64 .bf16) (y : S1x1x512x64.Idx) :
    ∃ pc ∈ ([⟨r0_3, p0⟩] : List (View.Piece (Elt F) S1x1x512x64 .bf16)), y ∈ pc.1.set :=
  View.cover_of_tiled [⟨r0_3, p0⟩] S1x1x512x64.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords)
    (arg0 : Memref sig .tc .vmem S1x512x1024 .f32) (harg0 : arg0.IsWhole) (arg1 : Memref sig .tc .vmem S1x1024x64 .f32) (harg1 : arg1.IsWhole)
    (arg2 : Memref sig .tc .vmem S1x1x64 .f32) (harg2 : arg2.IsWhole) (arg3 : Memref sig .tc .vmem S1x1x512x64 .bf16) (harg3 : arg3.IsWhole)
    (x0 : Vec F S1x512x1024 .f32) (x1 : Vec F S1x1024x64 .f32) (x2 : Vec F S1x1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__qkv_proj_kernel i arg0 harg0 arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1: custom_call 1, `cc1__qkv_proj_kernel` (pipeline 1), at the entry contents `V` -/

/-! ## The input windows' staging buffers when the body is called -/

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The output's store covers its buffer -/

/-- The one store is the whole buffer, so it covers it. -/
theorem cover1_3 (p0 : Vec F S1x1x512x64 .bf16) (y : S1x1x512x64.Idx) :
    ∃ pc ∈ ([⟨r1_3, p0⟩] : List (View.Piece (Elt F) S1x1x512x64 .bf16)), y ∈ pc.1.set :=
  View.cover_of_tiled [⟨r1_3, p0⟩] S1x1x512x64.size (by rfl) y

/-! ## The body's triple -/

set_option maxHeartbeats 1000000 in
/-- The kernel body on whole staging memrefs, the inputs' at read contents `xW` and the output's at anything, runs to
    the continuation holding the inputs' as they were and the output's at `out1_3` of the inputs'. -/
theorem sound_kernel1 (c : Dev nD) (E : Set ℕ) (i : grid1.Coords)
    (arg0 : Memref sig .tc .vmem S1x512x1024 .f32) (harg0 : arg0.IsWhole) (arg1 : Memref sig .tc .vmem S1x1024x64 .f32) (harg1 : arg1.IsWhole)
    (arg2 : Memref sig .tc .vmem S1x1x64 .f32) (harg2 : arg2.IsWhole) (arg3 : Memref sig .tc .vmem S1x1x512x64 .bf16) (harg3 : arg3.IsWhole)
    (x0 : Vec F S1x512x1024 .f32) (x1 : Vec F S1x1024x64 .f32) (x2 : Vec F S1x1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__qkv_proj_kernel i arg0 harg0 arg1 harg1 arg2 harg2 arg3 harg3) K := by
  simp only [cc1__qkv_proj_kernel_eq_skeleton]; unfold cc1__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # REGION 2: custom_call 2, `cc2__qkv_proj_kernel` (pipeline 2), at the entry contents `V` -/

/-! ## The input windows' staging buffers when the body is called -/

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The output's store covers its buffer -/

/-- The one store is the whole buffer, so it covers it. -/
theorem cover2_3 (p0 : Vec F S1x1x512x64 .bf16) (y : S1x1x512x64.Idx) :
    ∃ pc ∈ ([⟨r2_3, p0⟩] : List (View.Piece (Elt F) S1x1x512x64 .bf16)), y ∈ pc.1.set :=
  View.cover_of_tiled [⟨r2_3, p0⟩] S1x1x512x64.size (by rfl) y

/-! ## The body's triple -/

set_option maxHeartbeats 1000000 in
/-- The kernel body on whole staging memrefs, the inputs' at read contents `xW` and the output's at anything, runs to
    the continuation holding the inputs' as they were and the output's at `out2_3` of the inputs'. -/
theorem sound_kernel2 (c : Dev nD) (E : Set ℕ) (i : grid2.Coords)
    (arg0 : Memref sig .tc .vmem S1x512x1024 .f32) (harg0 : arg0.IsWhole) (arg1 : Memref sig .tc .vmem S1x1024x64 .f32) (harg1 : arg1.IsWhole)
    (arg2 : Memref sig .tc .vmem S1x1x64 .f32) (harg2 : arg2.IsWhole) (arg3 : Memref sig .tc .vmem S1x1x512x64 .bf16) (harg3 : arg3.IsWhole)
    (x0 : Vec F S1x512x1024 .f32) (x1 : Vec F S1x1024x64 .f32) (x2 : Vec F S1x1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__qkv_proj_kernel i arg0 harg0 arg1 harg1 arg2 harg2 arg3 harg3) K := by
  simp only [cc2__qkv_proj_kernel_eq_skeleton]; unfold cc2__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.AttnDefs.lean ====
/- The attention region (pipeline 3: grid [2, 16, 4]; windows 0 = query tile, 1 = keys, 2 = values, 3 = attention
   output tile, 4 = attention-weights tile), at a PARAMETER `V` — the TensorCore's buffer contents when the region is
   entered: each window's block at a point, what the body leaves in each output window's buffer as a function of the
   input blocks, and the pipeline's proof data with its projections. -/
import proofs.«114834_j83013127897754_2_alg».proof.Proof.Gen.KernelIdeal.Launch
import proofs.«114834_j83013127897754_2_alg».proof.Proof.Gen.KernelIdeal.Skeleton
import proofs.«114834_j83013127897754_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each is the whole of its buffer -/

abbrev r3_q : Rect S1x1x512x64 := Rect.unit (s := S1x1x512x64) ![0, 0, 0, 0] S1x1x512x64.size inb_S1x1x512x64_S1x1x512x64_0_0_0_0
abbrev r3_kv : Rect S1x1x2048x64 := Rect.unit (s := S1x1x2048x64) ![0, 0, 0, 0] S1x1x2048x64.size inb_S1x1x2048x64_S1x1x2048x64_0_0_0_0
abbrev r3_w : Rect S1x1x512x2048 := Rect.unit (s := S1x1x512x2048) ![0, 0, 0, 0] S1x1x512x2048.size inb_S1x1x512x2048_S1x1x512x2048_0_0_0_0

/-! ## What the body leaves in each output window's buffer -/

/-- Window 3's staging buffer after the body, from the input windows' blocks: its one store as a piece, the payload
    the attention output of the query tile against the keys and values. -/
def out3_3 (x0 : Vec F S1x1x512x64 .bf16) (x1 x2 : Vec F S1x1x2048x64 .bf16) : Vec F S1x1x512x64 .bf16 :=
  View.canon [⟨r3_q, k3_pay3 (View.ld x0 r3_q) (View.ld x1 r3_kv) (View.ld x2 r3_kv)⟩]

/-- Window 4's staging buffer after the body: its one store as a piece, the payload the attention weights of the
    query tile against the keys. -/
def out3_4 (x0 : Vec F S1x1x512x64 .bf16) (x1 : Vec F S1x1x2048x64 .bf16) : Vec F S1x1x512x2048 .f32 :=
  View.canon [⟨r3_w, k3_pay2 (View.ld x0 r3_q) (View.ld x1 r3_kv)⟩]

/-! ## The pipeline's proof data -/

/-- The proof data of pipeline 3 on core `c`: the arrays as the region finds them (`V`); after the body at point `t`
    each input's buffer at its block and each output's at `out3_W` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
    | ⟨4, _⟩ => out3_4 (iblk3 V c 0 t) (iblk3 V c 1 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]
theorem after3_4 (c : Dev nD) (t : Fin cfg3.N) :
    (dat3 V c).after 4 t = out3_4 (iblk3 V c 0 t) (iblk3 V c 1 t) := by dsimp only [dat3]

end Cert.KernelIdeal.Hand

end
-- ==== Proof.KI.Attn.lean ====
/- The attention region (pipeline 3), at a PARAMETER `V` — the TensorCore's buffer contents when the region is entered:
   each input window's current staging buffer holds its block at every point (fetched there or not); the body's triple
   on whole staging memrefs (the inputs' as they were, each output's at `out3_W` of the inputs'); the body obligation
   of the pipeline's proof data at every point. -/
import proofs.«114834_j83013127897754_2_alg».proof.Proof.KI.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The input windows' buffers before the body -/

/-- Input window 0's current staging buffer holds its block at every point, fetched there or not, for ANY proof data
    whose array is `V`'s (`hA`) and whose body leaves the block in place (`hafter`): unfetched, the index has not
    moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same of input window 1 (the keys: refetched only when the block index moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same of input window 2 (the values: refetched only when the block index moves). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## Each output's one store covers its buffer -/

/-- Window 3's one store is the whole buffer (checked by evaluation), so it covers it. -/
theorem cover3_3 (p0 : Vec F S1x1x512x64 .bf16) (y : S1x1x512x64.Idx) :
    ∃ pc ∈ ([⟨r3_q, p0⟩] : List (View.Piece (Elt F) S1x1x512x64 .bf16)), y ∈ pc.1.set :=
  View.cover_of_tiled [⟨r3_q, p0⟩] S1x1x512x64.size (by rfl) y

/-- Window 4's one store is the whole buffer (checked by evaluation), so it covers it. -/
theorem cover3_4 (p0 : Vec F S1x1x512x2048 .f32) (y : S1x1x512x2048.Idx) :
    ∃ pc ∈ ([⟨r3_w, p0⟩] : List (View.Piece (Elt F) S1x1x512x2048 .f32)), y ∈ pc.1.set :=
  View.cover_of_tiled [⟨r3_w, p0⟩] S1x1x512x2048.size (by rfl) y

/-! ## The body's triple -/

set_option maxHeartbeats 1000000 in
/-- The kernel body on whole staging memrefs, the inputs' at read contents `xW` and the outputs' at anything, runs to
    the continuation holding the inputs' as they were and each output's at `out3_W` of the inputs': the printed function
    is its skeleton of memory operations over payloads — three whole loads, and per output a whole load whose value is
    unused followed by a whole store (the attention weights first, then the attention output). -/
theorem sound_kernel3 (c : Dev nD) (E : Set ℕ) (i : grid3.Coords)
    (arg3 : Memref sig .tc .vmem S1x1x512x64 .bf16) (harg3 : arg3.IsWhole)
    (arg4 : Memref sig .tc .vmem S1x1x2048x64 .bf16) (harg4 : arg4.IsWhole)
    (arg5 : Memref sig .tc .vmem S1x1x2048x64 .bf16) (harg5 : arg5.IsWhole)
    (arg6 : Memref sig .tc .vmem S1x1x512x64 .bf16) (harg6 : arg6.IsWhole)
    (arg7 : Memref sig .tc .vmem S1x1x512x2048 .f32) (harg7 : arg7.IsWhole)
    (x0 : Vec F S1x1x512x64 .bf16) (x1 : Vec F S1x1x2048x64 .bf16) (x2 : Vec F S1x1x2048x64 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out3_3 x0 x1 x2) ∗ owns (c : Thread nD τ) arg7 fullShare (out3_4 x0 x1)) -∗ K ⟨⟩))
      ⊢ wp frame (wpE (defs₀ (F := F)) Variants.none c none) E (cc3__attn_kernel i arg3 harg3 arg4 harg4 arg5 harg5 arg6 harg6 arg7 harg7) K := by
  simp only [cc3__attn_kernel_eq_skeleton]; unfold cc3__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The input windows' buffers, of the region's proof data -/

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.OutProjRuns.lean ====
/- The head-accumulating output projection (custom_call 4, `cc4__out_proj_kernel`): what the three cases of its
   body's run share — each window's block at a point, the input windows' buffers at their blocks, the body's two
   branch conditions in closed form over the grid, where the output window is idle, the staging and scratch memrefs,
   and the class invariant with the carried scratch split off the scoped rest. -/
import proofs.«114834_j83013127897754_2_alg».proof.Proof.Gen.KernelIdeal.Launch
import proofs.«114834_j83013127897754_2_alg».proof.Proof.Gen.KernelIdeal.Skeleton
import proofs.«114834_j83013127897754_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): unfetched, the block
    index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1 (the head's weight). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same for input window 2 (the bias row, fetched once: its block index never moves). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first `scf.if` (the head index is 0), from the grid coordinates (the skeleton's
    scalar chain substituted). -/
abbrev cond4_0 (i : grid4.Coords) : Prop := (Scalar.cmpi .ne (Scalar.extui (Scalar.cmpi .eq (BitVec.ofNat 32 (i 2).val) 0#32)) 0#32) = 1#1
/-- It holds at the points ≡ 0 (mod 16) — decided over the grid. -/
theorem hcond4_0 : ∀ t : Fin cfg4.N, cond4_0 (grid4.coords t) ↔ t.val % 16 = 0 :=
  (by decide +kernel : ∀ t : Fin grid4.N, cond4_0 (grid4.coords t) ↔ t.val % 16 = 0)

/-- The condition of the body's second `scf.if` (the head index is 15), from the grid coordinates. -/
abbrev cond4_1 (i : grid4.Coords) : Prop := k4_cond2 i = 1#1
/-- It holds at the points ≡ 15 (mod 16) — decided over the grid. -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle (the printed configuration's table `Cfg.idle`) -/

/-- Windows 0, 1, 2 are never idle (inputs). -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- At the points of case A (head 0) the configuration calls output 3 idle: the case stores nothing into it. -/
theorem idleAt4_3_A : ∀ t : Fin cfg4.N, cond4_0 (grid4.coords t) → ¬cond4_1 (grid4.coords t) → cfg4.idle 3 (grid4.coords t) = true := by decide +kernel
/-- At the points of case A the pipeline does not write output 3's block back. -/
theorem noFlush4_3_A : ∀ t : Fin cfg4.N, cond4_0 (grid4.coords t) → ¬cond4_1 (grid4.coords t) → (cfg4.win 3).flush t = false := by decide +kernel
/-- At the points of case B (a middle head) the configuration calls output 3 idle: the case stores nothing into it. -/
theorem idleAt4_3_B : ∀ t : Fin cfg4.N, ¬cond4_0 (grid4.coords t) → ¬cond4_1 (grid4.coords t) → cfg4.idle 3 (grid4.coords t) = true := by decide +kernel
/-- At the points of case B the pipeline does not write output 3's block back. -/
theorem noFlush4_3_B : ∀ t : Fin cfg4.N, ¬cond4_0 (grid4.coords t) → ¬cond4_1 (grid4.coords t) → (cfg4.win 3).flush t = false := by decide +kernel
/-- At the points of case C (head 15) the configuration calls output 3 live: the case stores into it. -/
theorem liveAt4_3_C : ∀ t : Fin cfg4.N, ¬cond4_0 (grid4.coords t) → cond4_1 (grid4.coords t) → cfg4.idle 3 (grid4.coords t) = false := by decide +kernel

/-! ## The kernel body on any staging memrefs -/

/-- One staging buffer of output window 3, through which its contents are stated (the choice does not matter). -/
abbrev VO4_3 : View sig .tc .vmem S1x512x1024 .f32 := (Memref.whole cc4_stg3_0 : Memref sig .tc .vmem S1x512x1024 .f32).view
/-- Each window's current staging memref at point `t`, spelled as the pipeline passes it (`bodyAt4`), and its wholeness. -/
abbrev ms4_0 (t : Fin cfg4.N) : Memref sig .tc .vmem S1x1x512x64 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x512x1024 .f32 := win4_3.stage (cfg4.slots t 3)
abbrev hs4_3 (t : Fin cfg4.N) : (ms4_3 t).IsWhole := hstage4_3 ((cfg4.slots t 3).cast nbuf4_3)
/-- The scratch operand: a whole scoped buffer of the kernel's own, passed beside the windows. -/
abbrev scM4_0 : Memref sig .tc .vmem S512x1024 .f32 := Memref.whole cc4_scratch0
/-- The scratch the kernel carries between points (the accumulator over the heads), as a view: what it holds is
    stated through it. -/
abbrev VS4_0 : View sig .tc .vmem S512x1024 .f32 := scM4_0.view

/-- The class invariant with the scratch operand as a memref owned at some contents, split off the scoped rest (the
    other calls' staging buffers and scratch stay unopened): what the body obligation hands the run and takes back. -/
theorem PhiA4_eq (c : Dev nD) :
    (Pipeline.ΦA spec4 c : sProp 𝕄)
      = iprop(iprop((∃ d, owns (c : Thread nD τ) scM4_0 fullShare d)
            ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4_0, owns_whole]; try rfl

end Cert.KernelIdeal.Hand

end
-- ==== Proof.KI.OutProjRunA.lean ====
/- The output projection's body run whole IN CASE A (head 0: the first `scf.if` taken, the second not): the body's
   triple over its skeleton, with the pieces each buffer ends with as the witness. -/
import proofs.«114834_j83013127897754_2_alg».proof.Proof.KI.OutProjRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the scratch, as pieces (last first), IN CASE A
    (head 0), WITH the proof that on whole memrefs — the three inputs' at their contents, the output's (no store in
    this case: the window is idle and not written back at the case's points) at contents `xi3` handed back
    untouched, the carried scratch at anything — the body runs to the continuation holding the inputs' as they
    were, the output's as it was, and the scratch with its pieces written (`LS0`: the zero fill, then the head's
    product added to it). Each `scf.if` is decided by the case's hypotheses. -/
noncomputable def kernelRun4_A (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x1x512x64 .bf16) (x1 : Vec F S1x64x1024 .f32) (x2 : Vec F S1x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__out_proj_kernel i arg3 harg3 arg4 harg4 arg5 harg5 arg6 harg6 arg7 harg7) K } := by
  refine ⟨[], ?_, fun xi3 E K => ?run⟩
  case run =>
    simp only [cc4__out_proj_kernel_eq_skeleton]; unfold cc4__out_proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.OutProjRunB.lean ====
/- The output projection's body run whole IN CASE B (a middle head: neither `scf.if` taken): the body's triple over
   its skeleton, with the pieces each buffer ends with as the witness. -/
import proofs.«114834_j83013127897754_2_alg».proof.Proof.KI.OutProjRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the scratch, as pieces (last first), IN CASE B
    (a middle head), WITH the proof that on whole memrefs — the three inputs' at their contents, the output's (no
    store in this case: the window is idle and not written back at the case's points) at contents `xi3` handed back
    untouched, the carried scratch at the contents the point before left (`xs0`) — the body runs to the continuation
    holding the inputs' as they were, the output's as it was, and the scratch with its pieces written (`LS0`: the
    head's product added to what it held). Each `scf.if` is decided by the case's hypotheses. -/
noncomputable def kernelRun4_B (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x1x512x64 .bf16) (x1 : Vec F S1x64x1024 .f32) (x2 : Vec F S1x1024 .f32) (xs0 : Vec F S512x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__out_proj_kernel i arg3 harg3 arg4 harg4 arg5 harg5 arg6 harg6 arg7 harg7) K } := by
  refine ⟨[], ?_, fun xi3 E K => ?run⟩
  case run =>
    simp only [cc4__out_proj_kernel_eq_skeleton]; unfold cc4__out_proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.OutProjRunC.lean ====
/- The output projection's body run whole IN CASE C (head 15: the first `scf.if` not taken, the second taken): the
   body's triple over its skeleton, with the pieces each buffer ends with as the witness. -/
import proofs.«114834_j83013127897754_2_alg».proof.Proof.KI.OutProjRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the scratch, as pieces (last first), IN CASE C
    (head 15), WITH the proof that on whole memrefs — the three inputs' at their contents, the output's at anything,
    the carried scratch at the contents the point before left (`xs0`) — the body runs to the continuation holding
    the inputs' as they were, the scratch with its pieces written (`LS0`: the head's product added to what it held)
    and the output's buffer with its pieces written (`L3`: the accumulated sum plus the bias row). Each `scf.if` is
    decided by the case's hypotheses. -/
noncomputable def kernelRun4_C (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x1x512x64 .bf16) (x1 : Vec F S1x64x1024 .f32) (x2 : Vec F S1x1024 .f32) (xs0 : Vec F S512x1024 .f32) :
    Σ' (L3 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__out_proj_kernel i arg3 harg3 arg4 harg4 arg5 harg5 arg6 harg6 arg7 harg7) K } := by
  refine ⟨?_, ?_, fun E K => ?run⟩
  case run =>
    simp only [cc4__out_proj_kernel_eq_skeleton]; unfold cc4__out_proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.OutProj.lean ====
/- The head-accumulating output projection (custom_call 4), the rest of its region's half at the entry contents `V`:
   what the output's staging buffer and the carried scratch hold per case (covers) and point by point (`outsAt4`),
   the region invariant with the scratch at what the point before left (`PhiS4`), the proof data (`dat4`), the body
   obligation, and the invariant's entry from and exit to the class's. -/
import proofs.«114834_j83013127897754_2_alg».proof.Proof.KI.OutProjRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- Case A stores nothing into output 3 (the window is idle at its points and not written back there): no pieces —
    a placeholder (junk read back) that nothing consults, since at these points the window is neither written back
    nor read at the next point. -/
def out4_A_3 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x1x512x64 .bf16) (x1 : Vec F S1x64x1024 .f32) (x2 : Vec F S1x1024 .f32) : Vec F S1x512x1024 .f32 :=
  VO4_3.read (Elt F) (VO4_3.writes (Elt F) VO4_3.junk (kernelRun4_A c i arg3 harg3 arg4 harg4 arg5 harg5 arg6 harg6 arg7 harg7 hc0 hc1 x0 x1 x2).1)

/-- Case A's pieces for the scratch, which the kernel carries between points, cover it: 2 pieces of `S512x1024` tiling it. -/
theorem scover4_A_0 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x1x512x64 .bf16) (x1 : Vec F S1x64x1024 .f32) (x2 : Vec F S1x1024 .f32) (y : S512x1024.Idx) :
    ∃ pc ∈ (kernelRun4_A c i arg3 harg3 arg4 harg4 arg5 harg5 arg6 harg6 arg7 harg7 hc0 hc1 x0 x1 x2).2.1, y ∈ pc.1.set :=
  View.cover_of_tiledL (kernelRun4_A c i arg3 harg3 arg4 harg4 arg5 harg5 arg6 harg6 arg7 harg7 hc0 hc1 x0 x1 x2).2.1 S512x1024.size (by sl_kernel_rfl) y

/-- What case A leaves in the scratch: its pieces read back over junk. -/
def sout4_A_0 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x1x512x64 .bf16) (x1 : Vec F S1x64x1024 .f32) (x2 : Vec F S1x1024 .f32) : Vec F S512x1024 .f32 :=
  VS4_0.read (Elt F) (VS4_0.writes (Elt F) VS4_0.junk (kernelRun4_A c i arg3 harg3 arg4 harg4 arg5 harg5 arg6 harg6 arg7 harg7 hc0 hc1 x0 x1 x2).2.1)

/-- Case B stores nothing into output 3 (the window is idle at its points and not written back there): no pieces —
    a placeholder (junk read back) that nothing consults, since at these points the window is neither written back
    nor read at the next point. -/
def out4_B_3 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x1x512x64 .bf16) (x1 : Vec F S1x64x1024 .f32) (x2 : Vec F S1x1024 .f32) (xs0 : Vec F S512x1024 .f32) : Vec F S1x512x1024 .f32 :=
  VO4_3.read (Elt F) (VO4_3.writes (Elt F) VO4_3.junk (kernelRun4_B c i arg3 harg3 arg4 harg4 arg5 harg5 arg6 harg6 arg7 harg7 hc0 hc1 x0 x1 x2 xs0).1)

/-- Case B's pieces for the scratch, which the kernel carries between points, cover it: 1 piece of `S512x1024` tiling it. -/
theorem scover4_B_0 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x1x512x64 .bf16) (x1 : Vec F S1x64x1024 .f32) (x2 : Vec F S1x1024 .f32) (xs0 : Vec F S512x1024 .f32) (y : S512x1024.Idx) :
    ∃ pc ∈ (kernelRun4_B c i arg3 harg3 arg4 harg4 arg5 harg5 arg6 harg6 arg7 harg7 hc0 hc1 x0 x1 x2 xs0).2.1, y ∈ pc.1.set :=
  View.cover_of_tiledL (kernelRun4_B c i arg3 harg3 arg4 harg4 arg5 harg5 arg6 harg6 arg7 harg7 hc0 hc1 x0 x1 x2 xs0).2.1 S512x1024.size (by sl_kernel_rfl) y

/-- What case B leaves in the scratch: its pieces read back over junk. -/
def sout4_B_0 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x1x512x64 .bf16) (x1 : Vec F S1x64x1024 .f32) (x2 : Vec F S1x1024 .f32) (xs0 : Vec F S512x1024 .f32) : Vec F S512x1024 .f32 :=
  VS4_0.read (Elt F) (VS4_0.writes (Elt F) VS4_0.junk (kernelRun4_B c i arg3 harg3 arg4 harg4 arg5 harg5 arg6 harg6 arg7 harg7 hc0 hc1 x0 x1 x2 xs0).2.1)

/-- Case C's pieces for output 3 tile its block (one store of the whole `S1x512x1024`), so they cover it. -/
theorem cover4_C_3 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x1x512x64 .bf16) (x1 : Vec F S1x64x1024 .f32) (x2 : Vec F S1x1024 .f32) (xs0 : Vec F S512x1024 .f32) (y : S1x512x1024.Idx) :
    ∃ pc ∈ (kernelRun4_C c i arg3 harg3 arg4 harg4 arg5 harg5 arg6 harg6 arg7 harg7 hc0 hc1 x0 x1 x2 xs0).1, y ∈ pc.1.set :=
  View.cover_of_tiledL (kernelRun4_C c i arg3 harg3 arg4 harg4 arg5 harg5 arg6 harg6 arg7 harg7 hc0 hc1 x0 x1 x2 xs0).1 S1x512x1024.size (by sl_kernel_rfl) y

/-- What case C leaves in output 3's staging buffer: its pieces read back over junk. -/
def out4_C_3 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x1x512x64 .bf16) (x1 : Vec F S1x64x1024 .f32) (x2 : Vec F S1x1024 .f32) (xs0 : Vec F S512x1024 .f32) : Vec F S1x512x1024 .f32 :=
  VO4_3.read (Elt F) (VO4_3.writes (Elt F) VO4_3.junk (kernelRun4_C c i arg3 harg3 arg4 harg4 arg5 harg5 arg6 harg6 arg7 harg7 hc0 hc1 x0 x1 x2 xs0).1)

/-- Case C's pieces for the scratch, which the kernel carries between points, cover it: 1 piece of `S512x1024` tiling it. -/
theorem scover4_C_0 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x1x512x64 .bf16) (x1 : Vec F S1x64x1024 .f32) (x2 : Vec F S1x1024 .f32) (xs0 : Vec F S512x1024 .f32) (y : S512x1024.Idx) :
    ∃ pc ∈ (kernelRun4_C c i arg3 harg3 arg4 harg4 arg5 harg5 arg6 harg6 arg7 harg7 hc0 hc1 x0 x1 x2 xs0).2.1, y ∈ pc.1.set :=
  View.cover_of_tiledL (kernelRun4_C c i arg3 harg3 arg4 harg4 arg5 harg5 arg6 harg6 arg7 harg7 hc0 hc1 x0 x1 x2 xs0).2.1 S512x1024.size (by sl_kernel_rfl) y

/-- What case C leaves in the scratch: its pieces read back over junk. -/
def sout4_C_0 (c : Dev nD) (i : grid4.Coords) (arg3 : Memref sig .tc .vmem S1x1x512x64 .bf16) (harg3 : arg3.IsWhole) (arg4 : Memref sig .tc .vmem S1x64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x1x512x64 .bf16) (x1 : Vec F S1x64x1024 .f32) (x2 : Vec F S1x1024 .f32) (xs0 : Vec F S512x1024 .f32) : Vec F S512x1024 .f32 :=
  VS4_0.read (Elt F) (VS4_0.writes (Elt F) VS4_0.junk (kernelRun4_C c i arg3 harg3 arg4 harg4 arg5 harg5 arg6 harg6 arg7 harg7 hc0 hc1 x0 x1 x2 xs0).2.1)

/-! ## What the output's buffer and the scratch hold after each point -/

/-- THE ACCUMULATION. What output 3's staging buffer and the scratch the kernel carries between points hold after
    the body at position `n` (a pair: the output's buffer, then the scratch): the case the closed forms select at
    `n`, run at the point's memrefs and input blocks, the scratch at what this leaves at `n - 1`. An assignment of
    the conditions no point meets is no case. -/
def outsAt4 (c : Dev nD) : (n : ℕ) → n < cfg4.N → Vec F S1x512x1024 .f32 × Vec F S512x1024 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 16 = 0 then
      if h1 : (n + 1) % 16 = 15 then
        False.elim (by have hN : n + 1 < 128 := lt_of_lt_of_eq hn (show cfg4.N = 128 from N_4); omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 16 = 15 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

/-- `outsAt4` at a point of case A: that case's contents. -/
theorem outsAt4_A (c : Dev nD) (t : Fin cfg4.N) (h0 : t.val % 16 = 0) (h1 : ¬t.val % 16 = 15) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 16 = 0) (h1 : ¬t.val % 16 = 15) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 16 = 0) (h1 : t.val % 16 = 15) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`, the kernel CARRYING its scratch between points: before the first point
    the class's (every scratch at anything); afterwards the carried scratch at what the point before left in it
    (`outsAt4`'s scratch component), the remainder of the scoped rest (the other calls' buffers) unopened, and the
    generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the carried scratch at that point's contents. -/
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

/-- Before a point that is not the first: the carried scratch at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the output's at `outsAt4`'s first component; the invariant `PhiS4` (the
    class's before the first point, then the carried scratch at `outsAt4`'s second component); nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks (`before4_W`); the closed forms say which case the
    point is in; so that case's run applies. The invariant hands the body the carried scratch at what the point before
    left (at anything at the first point), the remainder of the scoped rest and the generator register pass through
    untouched, and the invariant takes the scratch back at this point's contents (by the case's cover); in cases A and
    B the output's buffer is handed back as found (the window idle, not written back), in case C at the case's
    pieces; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 128 := lt_of_lt_of_eq t.isLt (show cfg4.N = 128 from N_4)
  by_cases h0 : t.val % 16 = 0
  · by_cases h1 : t.val % 16 = 15
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 16 = 15
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      unfold out4_C_3 sout4_C_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_C_3 c _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region (the class invariant) is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class invariant back: the carried scratch's named contents
    are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 128 := N_4; omega)

end Cert.KernelIdeal.Hand

end
-- ==== Proof.KI.Run.lean ====
import proofs.«114834_j83013127897754_2_alg».proof.Proof.Gen.KernelIdeal.Regions
import proofs.«114834_j83013127897754_2_alg».proof.Proof.KI.Qkv
import proofs.«114834_j83013127897754_2_alg».proof.Proof.KI.Attn
import proofs.«114834_j83013127897754_2_alg».proof.Proof.KI.OutProj
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of @main: a fold from the launch memory

`B j c` is what core `c`'s buffers hold after `j` items of @main (a stretch of host operations applies them; a kernel
region leaves each of its windows' arrays at what its write-backs make of it and every other buffer alone); `E j` is
the same read at the TensorCore's references. -/

abbrev B0 : Dev nD → Valuation τ sig (Elt F) := fun c b => (s₀ m ρ).mem ((c : Dev nD), b)
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b

/-- After region 0: its windows' arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After region 1: its windows' arrays at what the pipeline leaves, every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After region 2: its windows' arrays at what the pipeline leaves, every other buffer as entered. -/
def B4 (c : Dev nD) : Valuation τ sig (Elt F) :=
  Pipeline.withArrays spec2 c (B3 m ρ c) fun w => (dat2 (E3 m ρ) c).arrAt w cfg2.N
theorem B4_arr (c : Dev nD) (w : Fin cfg2.W) :
    B4 m ρ c (Proc.devRef .tc (Pipeline.arrRef spec2 w)) = (dat2 (E3 m ρ) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
abbrev E4 : (c : Dev nD) → (b : Ref sig .tc) → Buf (Elt F) ((c : Thread nD τ).loc b) := fun c b => B4 m ρ c b
theorem hF2 (c : Dev nD) (w : Fin cfg2.W) : (dat2 (E3 m ρ) c).arrAt w cfg2.N = E4 m ρ c (Pipeline.arrRef spec2 w) :=
  (B4_arr m ρ c w).symm
theorem hrest2 (c : Dev nD) : ∀ b, b ∉ Finset.univ.image (Pipeline.arrRef spec2) → E4 m ρ c b = E3 m ρ c b :=
  fun b hb => B4_of_ne m ρ c b fun w e => hb (Finset.mem_image.mpr ⟨w, Finset.mem_univ _, e⟩)

/-- After region 3: its windows' arrays at what the pipeline leaves, every other buffer as entered. -/
def B5 (c : Dev nD) : Valuation τ sig (Elt F) :=
  Pipeline.withArrays spec3 c (B4 m ρ c) fun w => (dat3 (E4 m ρ) c).arrAt w cfg3.N
theorem B5_arr (c : Dev nD) (w : Fin cfg3.W) :
    B5 m ρ c (Proc.devRef .tc (Pipeline.arrRef spec3 w)) = (dat3 (E4 m ρ) c).arrAt w cfg3.N := by
  unfold B5; exact Pipeline.withArrays_arr spec3 launch3.win.arr_inj c _ _ w
theorem B5_of_ne (c : Dev nD) (b : Ref sig .tc) (hb : ∀ w, Pipeline.arrRef spec3 w ≠ b) :
    B5 m ρ c (Proc.devRef .tc b) = B4 m ρ c (Proc.devRef .tc b) := by
  unfold B5; exact Pipeline.withArrays_of_ne spec3 c _ _ b hb
abbrev E5 : (c : Dev nD) → (b : Ref sig .tc) → Buf (Elt F) ((c : Thread nD τ).loc b) := fun c b => B5 m ρ c b
theorem hF3 (c : Dev nD) (w : Fin cfg3.W) : (dat3 (E4 m ρ) c).arrAt w cfg3.N = E5 m ρ c (Pipeline.arrRef spec3 w) :=
  (B5_arr m ρ c w).symm
theorem hrest3 (c : Dev nD) : ∀ b, b ∉ Finset.univ.image (Pipeline.arrRef spec3) → E5 m ρ c b = E4 m ρ c b :=
  fun b hb => B5_of_ne m ρ c b fun w e => hb (Finset.mem_image.mpr ⟨w, Finset.mem_univ _, e⟩)

abbrev B6 : Dev nD → Valuation τ sig (Elt F) := fun c => StableHlo.after hostOps4 (B5 m ρ c)
abbrev E6 : (c : Dev nD) → (b : Ref sig .tc) → Buf (Elt F) ((c : Thread nD τ).loc b) := fun c b => B6 m ρ c b

/-- After region 4: its windows' arrays at what the pipeline leaves, every other buffer as entered. -/
def B7 (c : Dev nD) : Valuation τ sig (Elt F) :=
  Pipeline.withArrays spec4 c (B6 m ρ c) fun w => (dat4 (E6 m ρ) c).arrAt w cfg4.N
theorem B7_arr (c : Dev nD) (w : Fin cfg4.W) :
    B7 m ρ c (Proc.devRef .tc (Pipeline.arrRef spec4 w)) = (dat4 (E6 m ρ) c).arrAt w cfg4.N := by
  unfold B7; exact Pipeline.withArrays_arr spec4 launch4.win.arr_inj c _ _ w
theorem B7_of_ne (c : Dev nD) (b : Ref sig .tc) (hb : ∀ w, Pipeline.arrRef spec4 w ≠ b) :
    B7 m ρ c (Proc.devRef .tc b) = B6 m ρ c (Proc.devRef .tc b) := by
  unfold B7; exact Pipeline.withArrays_of_ne spec4 c _ _ b hb
abbrev E7 : (c : Dev nD) → (b : Ref sig .tc) → Buf (Elt F) ((c : Thread nD τ).loc b) := fun c b => B7 m ρ c b
theorem hF4 (c : Dev nD) (w : Fin cfg4.W) : (dat4 (E6 m ρ) c).arrAt w cfg4.N = E7 m ρ c (Pipeline.arrRef spec4 w) :=
  (B7_arr m ρ c w).symm
theorem hrest4 (c : Dev nD) : ∀ b, b ∉ Finset.univ.image (Pipeline.arrRef spec4) → E7 m ρ c b = E6 m ρ c b :=
  fun b hb => B7_of_ne m ρ c b fun w e => hb (Finset.mem_image.mpr ⟨w, Finset.mem_univ _, e⟩)

/-- A host stretch changes only the buffers its operations write. -/
theorem B1_of (c : Dev nD) (r : Ref sig .tc) (h : r ∉ hostOps0_W) :
    B1 m ρ c (Proc.devRef .tc r) = B0 m ρ c (Proc.devRef .tc r) :=
  StableHlo.after_of_writes_sub hostOps0 _ hostOps0_writes h
theorem B6_of (c : Dev nD) (r : Ref sig .tc) (h : r ∉ hostOps4_W) :
    B6 m ρ c (Proc.devRef .tc r) = B5 m ρ c (Proc.devRef .tc r) :=
  StableHlo.after_of_writes_sub hostOps4 _ hostOps4_writes h

/-! ### The arguments end as launched -/
theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := B7_of_ne m ρ c main_arg0 (by decide)
    _ = B5 m ρ c (Proc.devRef .tc main_arg0) := B6_of m ρ c main_arg0 (by decide)
    _ = B4 m ρ c (Proc.devRef .tc main_arg0) := B5_of_ne m ρ c main_arg0 (by decide)
    _ = B3 m ρ c (Proc.devRef .tc main_arg0) := B4_of_ne m ρ c main_arg0 (by decide)
    _ = B2 m ρ c (Proc.devRef .tc main_arg0) := B3_of_ne m ρ c main_arg0 (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := B1_of m ρ c main_arg0 (by decide)
    _ = m ((c : Thread nD τ).loc main_arg0) := rfl
theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := B7_of_ne m ρ c main_arg1 (by decide)
    _ = B5 m ρ c (Proc.devRef .tc main_arg1) := B6_of m ρ c main_arg1 (by decide)
    _ = B4 m ρ c (Proc.devRef .tc main_arg1) := B5_of_ne m ρ c main_arg1 (by decide)
    _ = B3 m ρ c (Proc.devRef .tc main_arg1) := B4_of_ne m ρ c main_arg1 (by decide)
    _ = B2 m ρ c (Proc.devRef .tc main_arg1) := (B3_arr m ρ c 0).trans (((dat1 (E2 m ρ) c).arrAt_in 0 rfl _).trans (A_eq1 (E2 m ρ) c 0))
    _ = B1 m ρ c (Proc.devRef .tc main_arg1) := B2_of_ne m ρ c main_arg1 (by decide)
    _ = B0 m ρ c (Proc.devRef .tc main_arg1) := B1_of m ρ c main_arg1 (by decide)
    _ = m ((c : Thread nD τ).loc main_arg1) := rfl
theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := B7_of_ne m ρ c main_arg2 (by decide)
    _ = B5 m ρ c (Proc.devRef .tc main_arg2) := B6_of m ρ c main_arg2 (by decide)
    _ = B4 m ρ c (Proc.devRef .tc main_arg2) := B5_of_ne m ρ c main_arg2 (by decide)
    _ = B3 m ρ c (Proc.devRef .tc main_arg2) := (B4_arr m ρ c 0).trans (((dat2 (E3 m ρ) c).arrAt_in 0 rfl _).trans (A_eq2 (E3 m ρ) c 0))
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := B1_of m ρ c main_arg2 (by decide)
    _ = m ((c : Thread nD τ).loc main_arg2) := rfl
theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := B7_of_ne m ρ c main_arg3 (by decide)
    _ = B5 m ρ c (Proc.devRef .tc main_arg3) := B6_of m ρ c main_arg3 (by decide)
    _ = B4 m ρ c (Proc.devRef .tc main_arg3) := B5_of_ne m ρ c main_arg3 (by decide)
    _ = B3 m ρ c (Proc.devRef .tc main_arg3) := B4_of_ne m ρ c main_arg3 (by decide)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := B1_of m ρ c main_arg3 (by decide)
    _ = m ((c : Thread nD τ).loc main_arg3) := rfl
theorem B7_main_arg4 (c : Dev nD) : B7 m ρ c (Proc.devRef .tc main_arg4) = m ((c : Thread nD τ).loc main_arg4) :=
  calc B7 m ρ c (Proc.devRef .tc main_arg4)
    _ = B6 m ρ c (Proc.devRef .tc main_arg4) := B7_of_ne m ρ c main_arg4 (by decide)
    _ = B5 m ρ c (Proc.devRef .tc main_arg4) := B6_of m ρ c main_arg4 (by decide)
    _ = B4 m ρ c (Proc.devRef .tc main_arg4) := B5_of_ne m ρ c main_arg4 (by decide)
    _ = B3 m ρ c (Proc.devRef .tc main_arg4) := B4_of_ne m ρ c main_arg4 (by decide)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := B1_of m ρ c main_arg4 (by decide)
    _ = m ((c : Thread nD τ).loc main_arg4) := rfl
theorem B7_main_arg5 (c : Dev nD) : B7 m ρ c (Proc.devRef .tc main_arg5) = m ((c : Thread nD τ).loc main_arg5) :=
  calc B7 m ρ c (Proc.devRef .tc main_arg5)
    _ = B6 m ρ c (Proc.devRef .tc main_arg5) := B7_of_ne m ρ c main_arg5 (by decide)
    _ = B5 m ρ c (Proc.devRef .tc main_arg5) := B6_of m ρ c main_arg5 (by decide)
    _ = B4 m ρ c (Proc.devRef .tc main_arg5) := B5_of_ne m ρ c main_arg5 (by decide)
    _ = B3 m ρ c (Proc.devRef .tc main_arg5) := B4_of_ne m ρ c main_arg5 (by decide)
    _ = B2 m ρ c (Proc.devRef .tc main_arg5) := B3_of_ne m ρ c main_arg5 (by decide)
    _ = B1 m ρ c (Proc.devRef .tc main_arg5) := B2_of_ne m ρ c main_arg5 (by decide)
    _ = B0 m ρ c (Proc.devRef .tc main_arg5) := B1_of m ρ c main_arg5 (by decide)
    _ = m ((c : Thread nD τ).loc main_arg5) := rfl
theorem B7_main_arg6 (c : Dev nD) : B7 m ρ c (Proc.devRef .tc main_arg6) = m ((c : Thread nD τ).loc main_arg6) :=
  calc B7 m ρ c (Proc.devRef .tc main_arg6)
    _ = B6 m ρ c (Proc.devRef .tc main_arg6) := B7_of_ne m ρ c main_arg6 (by decide)
    _ = B5 m ρ c (Proc.devRef .tc main_arg6) := B6_of m ρ c main_arg6 (by decide)
    _ = B4 m ρ c (Proc.devRef .tc main_arg6) := B5_of_ne m ρ c main_arg6 (by decide)
    _ = B3 m ρ c (Proc.devRef .tc main_arg6) := B4_of_ne m ρ c main_arg6 (by decide)
    _ = B2 m ρ c (Proc.devRef .tc main_arg6) := B3_of_ne m ρ c main_arg6 (by decide)
    _ = B1 m ρ c (Proc.devRef .tc main_arg6) := B2_of_ne m ρ c main_arg6 (by decide)
    _ = B0 m ρ c (Proc.devRef .tc main_arg6) := B1_of m ρ c main_arg6 (by decide)
    _ = m ((c : Thread nD τ).loc main_arg6) := rfl
theorem B7_main_arg7 (c : Dev nD) : B7 m ρ c (Proc.devRef .tc main_arg7) = m ((c : Thread nD τ).loc main_arg7) :=
  calc B7 m ρ c (Proc.devRef .tc main_arg7)
    _ = B6 m ρ c (Proc.devRef .tc main_arg7) := B7_of_ne m ρ c main_arg7 (by decide)
    _ = B5 m ρ c (Proc.devRef .tc main_arg7) := B6_of m ρ c main_arg7 (by decide)
    _ = B4 m ρ c (Proc.devRef .tc main_arg7) := B5_of_ne m ρ c main_arg7 (by decide)
    _ = B3 m ρ c (Proc.devRef .tc main_arg7) := B4_of_ne m ρ c main_arg7 (by decide)
    _ = B2 m ρ c (Proc.devRef .tc main_arg7) := B3_of_ne m ρ c main_arg7 (by decide)
    _ = B1 m ρ c (Proc.devRef .tc main_arg7) := B2_of_ne m ρ c main_arg7 (by decide)
    _ = B0 m ρ c (Proc.devRef .tc main_arg7) := B1_of m ρ c main_arg7 (by decide)
    _ = m ((c : Thread nD τ).loc main_arg7) := rfl
theorem B7_main_arg8 (c : Dev nD) : B7 m ρ c (Proc.devRef .tc main_arg8) = m ((c : Thread nD τ).loc main_arg8) :=
  calc B7 m ρ c (Proc.devRef .tc main_arg8)
    _ = B6 m ρ c (Proc.devRef .tc main_arg8) := B7_of_ne m ρ c main_arg8 (by decide)
    _ = B5 m ρ c (Proc.devRef .tc main_arg8) := B6_of m ρ c main_arg8 (by decide)
    _ = B4 m ρ c (Proc.devRef .tc main_arg8) := B5_of_ne m ρ c main_arg8 (by decide)
    _ = B3 m ρ c (Proc.devRef .tc main_arg8) := B4_of_ne m ρ c main_arg8 (by decide)
    _ = B2 m ρ c (Proc.devRef .tc main_arg8) := B3_of_ne m ρ c main_arg8 (by decide)
    _ = B1 m ρ c (Proc.devRef .tc main_arg8) := B2_of_ne m ρ c main_arg8 (by decide)
    _ = B0 m ρ c (Proc.devRef .tc main_arg8) := B1_of m ρ c main_arg8 (by decide)
    _ = m ((c : Thread nD τ).loc main_arg8) := rfl
theorem B7_main_arg9 (c : Dev nD) : B7 m ρ c (Proc.devRef .tc main_arg9) = m ((c : Thread nD τ).loc main_arg9) :=
  calc B7 m ρ c (Proc.devRef .tc main_arg9)
    _ = B6 m ρ c (Proc.devRef .tc main_arg9) := B7_of_ne m ρ c main_arg9 (by decide)
    _ = B5 m ρ c (Proc.devRef .tc main_arg9) := B6_of m ρ c main_arg9 (by decide)
    _ = B4 m ρ c (Proc.devRef .tc main_arg9) := B5_of_ne m ρ c main_arg9 (by decide)
    _ = B3 m ρ c (Proc.devRef .tc main_arg9) := B4_of_ne m ρ c main_arg9 (by decide)
    _ = B2 m ρ c (Proc.devRef .tc main_arg9) := B3_of_ne m ρ c main_arg9 (by decide)
    _ = B1 m ρ c (Proc.devRef .tc main_arg9) := B2_of_ne m ρ c main_arg9 (by decide)
    _ = B0 m ρ c (Proc.devRef .tc main_arg9) := B1_of m ρ c main_arg9 (by decide)
    _ = m ((c : Thread nD τ).loc main_arg9) := rfl
theorem B7_main_arg10 (c : Dev nD) : B7 m ρ c (Proc.devRef .tc main_arg10) = m ((c : Thread nD τ).loc main_arg10) :=
  calc B7 m ρ c (Proc.devRef .tc main_arg10)
    _ = B6 m ρ c (Proc.devRef .tc main_arg10) := B7_of_ne m ρ c main_arg10 (by decide)
    _ = B5 m ρ c (Proc.devRef .tc main_arg10) := B6_of m ρ c main_arg10 (by decide)
    _ = B4 m ρ c (Proc.devRef .tc main_arg10) := B5_of_ne m ρ c main_arg10 (by decide)
    _ = B3 m ρ c (Proc.devRef .tc main_arg10) := B4_of_ne m ρ c main_arg10 (by decide)
    _ = B2 m ρ c (Proc.devRef .tc main_arg10) := B3_of_ne m ρ c main_arg10 (by decide)
    _ = B1 m ρ c (Proc.devRef .tc main_arg10) := B2_of_ne m ρ c main_arg10 (by decide)
    _ = B0 m ρ c (Proc.devRef .tc main_arg10) := B1_of m ρ c main_arg10 (by decide)
    _ = m ((c : Thread nD τ).loc main_arg10) := rfl

/-! # The proof data family and the thread state -/

/-- The prefetched tables' admissible contents: no pipeline has a table. -/
abbrev admH : (p : Fin 5) → (pcfgs (F := F) p).Adm := fun p => (cfgs p).toPCfg_adm
/-- Every pipeline's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E2 m ρ) c
  | ⟨2, _⟩ => fun c => dat2 (E3 m ρ) c
  | ⟨3, _⟩ => fun c => dat3 (E4 m ρ) c
  | ⟨4, _⟩ => fun c => dat4 (E6 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the core's generator register at some state and its `owes`, at nothing. -/
abbrev RH (c : Dev nD) : sProp 𝕄 := iprop((∃ r, prngReg c r) ∗ ∃ W, owes (c : Thread nD τ) (0 : CellTallies nD τ sig Unit) W)
/-- A host stretch as a segment over the unscoped references from the contents `W`, `RH` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev TH (c : Dev nD) : sProp 𝕄 := iprop(StableHlo.held (c : Thread nD τ) (Pipeline.ucRefs τ sig) (B7 m ρ c) ∗ ∃ r, prngReg c r)

/-! # The regions as segments -/

set_option backward.isDefEq.respectTransparency.types false in
/-- Region 0 over the thread state: entered from every unscoped buffer at `B1`, left at `B2`. Its arrays are split
    out of the unscoped buffers and put back at the exit contents; the generator register goes into the region's invariant
    and comes out; nothing is owed; the kernel has no semaphore of its own. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LH lvH 0 fun _ _ => rfl
  pre c := iprop(StableHlo.held (c : Thread nD τ) (Pipeline.ucRefs τ sig) (B1 m ρ c) ∗ RH c)
  post c := iprop(StableHlo.held (c : Thread nD τ) (Pipeline.ucRefs τ sig) (B2 m ρ c) ∗ RH c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (E1 m ρ c) (E2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B2`, left at `B3`. Its arrays are split
    out of the unscoped buffers and put back at the exit contents; the generator register goes into the region's invariant
    and comes out; nothing is owed; the kernel has no semaphore of its own. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ LH lvH 1 fun _ _ => rfl
  pre c := iprop(StableHlo.held (c : Thread nD τ) (Pipeline.ucRefs τ sig) (B2 m ρ c) ∗ RH c)
  post c := iprop(StableHlo.held (c : Thread nD τ) (Pipeline.ucRefs τ sig) (B3 m ρ c) ∗ RH c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (E2 m ρ c) (E3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B3`, left at `B4`. Its arrays are split
    out of the unscoped buffers and put back at the exit contents; the generator register goes into the region's invariant
    and comes out; nothing is owed; the kernel has no semaphore of its own. -/
def regH2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E3 m ρ) c).loose
  hwaits := Pipeline.hwaits_of_owed_zero _ _ _ _ LH lvH 2 fun _ _ => rfl
  pre c := iprop(StableHlo.held (c : Thread nD τ) (Pipeline.ucRefs τ sig) (B3 m ρ c) ∗ RH c)
  post c := iprop(StableHlo.held (c : Thread nD τ) (Pipeline.ucRefs τ sig) (B4 m ρ c) ∗ RH c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (E3 m ρ c) (E4 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B4`, left at `B5`. Its arrays are split
    out of the unscoped buffers and put back at the exit contents; the generator register goes into the region's invariant
    and comes out; nothing is owed; the kernel has no semaphore of its own. -/
def regH3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (E4 m ρ) c).loose
  hwaits := Pipeline.hwaits_of_owed_zero _ _ _ _ LH lvH 3 fun _ _ => rfl
  pre c := iprop(StableHlo.held (c : Thread nD τ) (Pipeline.ucRefs τ sig) (B4 m ρ c) ∗ RH c)
  post c := iprop(StableHlo.held (c : Thread nD τ) (Pipeline.ucRefs τ sig) (B5 m ρ c) ∗ RH c)
  X c := iprop(∃ r, prngReg c r)
  Y c := iprop(∃ r, prngReg c r)
  Z c := Pipeline.unscopedRest (Ix := Unit) (Name := ℕ) (U := UR sig nD τ) (Lvl := ℕ) spec3 c (E4 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (E4 m ρ c) (E5 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `B6`, left at `B7`. Its arrays are split
    out of the unscoped buffers and put back at the exit contents; the generator register goes into the region's invariant
    and comes out; nothing is owed; the kernel has no semaphore of its own. -/
def regH4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (E6 m ρ) c).loose
  hwaits := Pipeline.hwaits_of_owed_zero _ _ _ _ LH lvH 4 fun _ _ => rfl
  pre c := iprop(StableHlo.held (c : Thread nD τ) (Pipeline.ucRefs τ sig) (B6 m ρ c) ∗ RH c)
  post c := iprop(TH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E6 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h4 := hin4 (E6 m ρ) c
    unfold Pipeline.ΦA at h4
    rw [show (pdatsH m ρ 4 c).Φ 0 = (dat4 (E6 m ρ) c).Φ 0 from rfl]
    iintro ⟨Hp, -, Hr⟩
    iapply h4
    isplitl [Hr]; · iexact Hr
    iexact Hp
  hout c := by
    have h4 := hout4 (E6 m ρ) c
    unfold Pipeline.ΦA at h4
    rw [Pipeline.ownSems0_none, show (pdatsH m ρ 4 c).Φ (Fin.last _) = (dat4 (E6 m ρ) c).Φ (Fin.last cfg4.N) from rfl]
    iintro HX
    ihave HZ := h4 $$ HX
    icases HZ with ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (E6 m ρ c) (E7 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the run -/

/-- @main's seven segments in order. -/
abbrev segsH : List (Pipeline.Seg (pcfgs (F := F)) admH (pdatsH m ρ) () defs₀ 𝒱H LH lvH) :=
  [ .host (hsegH hostOps0 hostOps0_sub hostOps0_fresh (B0 m ρ)),
    .region (regH0 m ρ), .region (regH1 m ρ), .region (regH2 m ρ), .region (regH3 m ρ),
    .host (hsegH hostOps4 hostOps4_sub hostOps4_fresh (B5 m ρ)),
    .region (regH4 m ρ) ]
/-- @main IS the run of the segments. -/
theorem main_runH (c : Dev nD) : main (F := F) c = Pipeline.Seg.run (segsH m ρ) := (main_chain c).trans (by chain_rfl)

set_option backward.isDefEq.respectTransparency.types false in
/-- THE RUN: from any memory with zero counters every weakly fair execution of @main on the TensorCores terminates, nothing
    faulting, and every final state holds every unscoped buffer at the last boundary's contents `B7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TH m ρ)
    (hch := ⟨fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucH main_arg0 (by decide))).trans (B7_main_arg0 m ρ c),
     (h c _ (mem_ucH main_arg1 (by decide))).trans (B7_main_arg1 m ρ c),
     (h c _ (mem_ucH main_arg2 (by decide))).trans (B7_main_arg2 m ρ c),
     (h c _ (mem_ucH main_arg3 (by decide))).trans (B7_main_arg3 m ρ c),
     (h c _ (mem_ucH main_arg4 (by decide))).trans (B7_main_arg4 m ρ c),
     (h c _ (mem_ucH main_arg5 (by decide))).trans (B7_main_arg5 m ρ c),
     (h c _ (mem_ucH main_arg6 (by decide))).trans (B7_main_arg6 m ρ c),
     (h c _ (mem_ucH main_arg7 (by decide))).trans (B7_main_arg7 m ρ c),
     (h c _ (mem_ucH main_arg8 (by decide))).trans (B7_main_arg8 m ρ c),
     (h c _ (mem_ucH main_arg9 (by decide))).trans (B7_main_arg9 m ρ c),
     (h c _ (mem_ucH main_arg10 (by decide))).trans (B7_main_arg10 m ρ c)⟩)
    (run_all m ρ)

end Cert.KernelIdeal.Hand

end
-- ==== Proof.KI.HostReads.lean ====
import proofs.«114834_j83013127897754_2_alg».proof.Proof.Gen.KernelIdeal.Launch
import Idealize.ShloMosaic.Lib.StableHlo.Run
import Idealize.ShloMosaic.PureOps.Ideal

/-! The host operations of the kernel's program that lay the four linear layers' parameters out per head, read off the
buffers they leave: each per-head weight is a transposed regrouping of the layer's weight, each per-head bias a
regrouping of the layer's bias. -/

noncomputable section

namespace Cert.KernelIdeal.Val

open Idealize.ShloMosaic Idealize.ShloMosaic.TcCoe Idealize.SL.Sem Idealize.ShloMosaic.StableHlo
open Cert.KernelIdeal Cert.KernelIdeal.Gen

theorem host_v1 (W : Valuation τ sig (Elt Ideal)) :
    StableHlo.after (hostOps0 (F := Ideal)) W (Proc.devRef .tc main_v1) = transpose S16x1024x64 [0, 2, 1] (shapeCast S16x64x1024 (W (Proc.devRef .tc main_arg3)) shapeCasts_S1024x1024_S16x64x1024) transposes_S16x64x1024_S16x1024x64_0_2_1 := by
  after_results; rfl

theorem host_v2 (W : Valuation τ sig (Elt Ideal)) :
    StableHlo.after (hostOps0 (F := Ideal)) W (Proc.devRef .tc main_v2) = shapeCast S16x1x64 (W (Proc.devRef .tc main_arg4)) shapeCasts_S1024_S16x1x64 := by
  after_results; rfl

theorem host_v4 (W : Valuation τ sig (Elt Ideal)) :
    StableHlo.after (hostOps0 (F := Ideal)) W (Proc.devRef .tc main_v4) = transpose S16x1024x64 [0, 2, 1] (shapeCast S16x64x1024 (W (Proc.devRef .tc main_arg5)) shapeCasts_S1024x1024_S16x64x1024) transposes_S16x64x1024_S16x1024x64_0_2_1 := by
  after_results; rfl

theorem host_v5 (W : Valuation τ sig (Elt Ideal)) :
    StableHlo.after (hostOps0 (F := Ideal)) W (Proc.devRef .tc main_v5) = shapeCast S16x1x64 (W (Proc.devRef .tc main_arg6)) shapeCasts_S1024_S16x1x64 := by
  after_results; rfl

theorem host_v7 (W : Valuation τ sig (Elt Ideal)) :
    StableHlo.after (hostOps0 (F := Ideal)) W (Proc.devRef .tc main_v7) = transpose S16x1024x64 [0, 2, 1] (shapeCast S16x64x1024 (W (Proc.devRef .tc main_arg7)) shapeCasts_S1024x1024_S16x64x1024) transposes_S16x64x1024_S16x1024x64_0_2_1 := by
  after_results; rfl

theorem host_v8 (W : Valuation τ sig (Elt Ideal)) :
    StableHlo.after (hostOps0 (F := Ideal)) W (Proc.devRef .tc main_v8) = shapeCast S16x1x64 (W (Proc.devRef .tc main_arg8)) shapeCasts_S1024_S16x1x64 := by
  after_results; rfl

theorem host_v14 (W : Valuation τ sig (Elt Ideal)) :
    StableHlo.after (hostOps4 (F := Ideal)) W (Proc.devRef .tc main_v14) = transpose S16x64x1024 [1, 2, 0] (shapeCast S1024x16x64 (W (Proc.devRef .tc main_arg9)) shapeCasts_S1024x1024_S1024x16x64) transposes_S1024x16x64_S16x64x1024_1_2_0 := by
  after_results; rfl

theorem host_v15 (W : Valuation τ sig (Elt Ideal)) :
    StableHlo.after (hostOps4 (F := Ideal)) W (Proc.devRef .tc main_v15) = shapeCast S1x1024 (W (Proc.devRef .tc main_arg10)) shapeCasts_S1024_S1x1024 := by
  after_results; rfl

end Cert.KernelIdeal.Val

end
-- ==== Proof.Spec.lean ====
import Idealize.ShloMosaic.PureOps.Ideal
import Idealize.ShloMosaic.Lib.ValueIdx

/-!
# Multi-head attention over the extended reals: the function both programs compute

Activations are `[2, 2048, 1024]` (batch, position, feature), the four linear layers `[1024, 1024]` (output feature,
input feature) with biases `[1024]`; the 1024 features are 16 heads of 64 lanes, feature `h * 64 + d` being lane `d`
of head `h`. Per head: `q k v = x Wᵀ + b` split by head; scores `(q kᵀ) / 8` (written as the product with the
dyadic `1/8`); a row softmax `exp (s - max) / Σ exp (s - max)`; the weighted sum of `v`; the heads merged back into
1024 features and projected once more. Every operation is the exact one on `EReal`.
-/

noncomputable section

open scoped BigOperators

namespace Cert.Mha

open Idealize.ShloMosaic Idealize.ShloMosaic.ValueIdx

/-- Activations `[batch, position, feature]`. -/
abbrev Act : Type := (⟨3, ![2, 2048, 1024]⟩ : Shape).Idx → EReal
/-- A linear layer's weight `[output feature, input feature]`. -/
abbrev Wgt : Type := (⟨2, ![1024, 1024]⟩ : Shape).Idx → EReal
/-- A linear layer's bias `[feature]`. -/
abbrev Bia : Type := (⟨1, ![1024]⟩ : Shape).Idx → EReal
/-- Per-head vectors `[batch, head, position, lane]`. -/
abbrev Hds : Type := (⟨4, ![2, 16, 2048, 64]⟩ : Shape).Idx → EReal
/-- Per-head square tables `[batch, head, query position, key position]`. -/
abbrev Tbl : Type := (⟨4, ![2, 16, 2048, 2048]⟩ : Shape).Idx → EReal

/-- Lane `d` of head `h` is feature `h * 64 + d`. -/
def feat (h : Fin 16) (d : Fin 64) : Fin 1024 := ⟨h.val * 64 + d.val, by omega⟩

/-- The head of a feature and its lane. -/
def headOf (e : Fin 1024) : Fin 16 := ⟨e.val / 64, by omega⟩
def laneOf (e : Fin 1024) : Fin 64 := ⟨e.val % 64, by omega⟩

theorem feat_headOf_laneOf (e : Fin 1024) : feat (headOf e) (laneOf e) = e := by
  apply Fin.ext; simp only [feat, headOf, laneOf]; omega

/-- A linear layer split by head: `(x Wᵀ + b)` at batch `n`, head `h`, position `s`, lane `d`. -/
def projAt (x : Act) (w : Wgt) (b : Bia) (n : Fin 2) (h : Fin 16) (s : Fin 2048) (d : Fin 64) : EReal :=
  (∑ k : Fin 1024, x (ix3 n s k) * w (ix2 (feat h d) k)) + b (ix1 (feat h d))
def proj (x : Act) (w : Wgt) (b : Bia) : Hds := fun i => projAt x w b (i 0) (i 1) (i 2) (i 3)

/-- The scaled score of query position `i` against key position `j`: `(Σ_d q k) · 1/8`. -/
def scoreAt (q k : Hds) (n : Fin 2) (h : Fin 16) (i j : Fin 2048) : EReal :=
  (∑ d : Fin 64, q (ix4 n h i d) * k (ix4 n h j d)) * Ideal.ofBits .f32 0x3E000000#32
/-- The largest score of a row, folded from `-∞`. -/
def rowMaxAt (q k : Hds) (n : Fin 2) (h : Fin 16) (i : Fin 2048) : EReal :=
  Finset.univ.fold max (Ideal.ofBits .f32 0xFF800000#32) (fun j : Fin 2048 => scoreAt q k n h i j)
/-- The shifted exponential of a score. -/
def expAt (q k : Hds) (n : Fin 2) (h : Fin 16) (i j : Fin 2048) : EReal :=
  Ideal.exp (scoreAt q k n h i j - rowMaxAt q k n h i)
/-- The row's normaliser. -/
def denAt (q k : Hds) (n : Fin 2) (h : Fin 16) (i : Fin 2048) : EReal := ∑ j : Fin 2048, expAt q k n h i j
/-- The attention weight: the row softmax of the scaled scores. -/
def weightAt (q k : Hds) (n : Fin 2) (h : Fin 16) (i j : Fin 2048) : EReal :=
  Ideal.div (expAt q k n h i j) (denAt q k n h i)
def weights (q k : Hds) : Tbl := fun i => weightAt q k (i 0) (i 1) (i 2) (i 3)

/-- The attended values: `Σ_j weight(i, j) · v(j, d)`. -/
def attendAt (w : Tbl) (v : Hds) (n : Fin 2) (h : Fin 16) (i : Fin 2048) (d : Fin 64) : EReal :=
  ∑ j : Fin 2048, w (ix4 n h i j) * v (ix4 n h j d)
def attend (w : Tbl) (v : Hds) : Hds := fun i => attendAt w v (i 0) (i 1) (i 2) (i 3)

/-- The output layer on the merged heads: `Σ_e' a(n, head e', s, lane e') · W(e, e') + b(e)`. -/
def mergeAt (a : Hds) (w : Wgt) (b : Bia) (n : Fin 2) (s : Fin 2048) (e : Fin 1024) : EReal :=
  (∑ e' : Fin 1024, a (ix4 n (headOf e') s (laneOf e')) * w (ix2 e e')) + b (ix1 e)
def merge (a : Hds) (w : Wgt) (b : Bia) : Act := fun i => mergeAt a w b (i 0) (i 1) (i 2)

/-- The attention weights of the whole layer, from its arguments. -/
def layerWeights (xq xk : Act) (wq : Wgt) (bq : Bia) (wk : Wgt) (bk : Bia) : Tbl :=
  weights (proj xq wq bq) (proj xk wk bk)
/-- The layer's output, from its arguments. -/
def layerOut (xq xk xv : Act) (wq : Wgt) (bq : Bia) (wk : Wgt) (bk : Bia) (wv : Wgt) (bv : Bia) (wo : Wgt) (bo : Bia) : Act :=
  merge (attend (layerWeights xq xk wq bq wk bk) (proj xv wv bv)) wo bo

end Cert.Mha

end
-- ==== Proof.KI.ValProjDef.lean ====
import proofs.«114834_j83013127897754_2_alg».proof.Proof.Spec
import Idealize.ShloMosaic.Lib.ValueIdx

/-!
# The per-head projection in the kernel's operand layout

The three projection kernels read an activation [2, 2048, 1024], a per-head transposed weight [16, 1024, 64] and a
per-head bias [16, 1, 64], and leave at (batch n, head h, position s, lane d) the sum over the 1024 input features k
of x(n, s, k) · wT(h, k, d), plus b(h, 0, d).
-/

noncomputable section

open scoped BigOperators

namespace Cert.KernelIdeal.Val

open Idealize.ShloMosaic Idealize.ShloMosaic.ValueIdx

/-- the projection in the kernel's operand layout: x [2,2048,1024], the per-head transposed weight [16,1024,64],
    the per-head bias [16,1,64] -/
def projK (x : (⟨3, ![2, 2048, 1024]⟩ : Shape).Idx → EReal) (wT : (⟨3, ![16, 1024, 64]⟩ : Shape).Idx → EReal)
    (b : (⟨3, ![16, 1, 64]⟩ : Shape).Idx → EReal) : Cert.Mha.Hds :=
  fun i => (∑ k : Fin 1024, x (ix3 (i 0) (i 2) k) * wT (ix3 (i 1) k (i 3))) + b (ix3 (i 1) 0 (i 3))

/-- The zero offsets of a rank-3 block, as the constant function. -/
theorem hz3 : (![0, 0, 0] : Fin 3 → Nat) = fun _ => 0 := funext fun a => by fin_cases a <;> rfl
/-- The zero offsets of a rank-4 block, as the constant function. -/
theorem hz4 : (![0, 0, 0, 0] : Fin 4 → Nat) = fun _ => 0 := funext fun a => by fin_cases a <;> rfl

end Cert.KernelIdeal.Val

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibTileCast.lean ====
/-
  A matrix under two leading unit axes, read at an entry.

  The row-major position of entry (0, 0, i, j) of a [1, 1, a, b] array is ((0 · 1 + 0) · a + i) · b + j = i · b + j,
  the position of entry (i, j) of the [a, b] matrix with the same elements; so a cast between the two shapes reads
  the same element at (0, 0, i, j) and at (i, j). (The companions for ONE leading unit axis are the library's
  `shapeCast_1ab_ab_apply` and `shapeCast_ab_1ab_apply`.)
-/
import Idealize.ShloMosaic.Lib.ValueLayout

namespace Idealize.ShloMosaic.ValueIdx

open Idealize.ShloMosaic

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

end Idealize.ShloMosaic.ValueIdx
-- ==== Proof.KI.PayProj.lean ====
/-
  The arithmetic of the projection kernels' and the output-projection kernel's bodies, over the extended reals.

  Each value a body stores is a pure term over the values it loaded. A projection body drops the leading unit axes of
  its activation block `[1, 512, 1024]`, weight block `[1, 1024, 64]` and bias block `[1, 1, 64]`, multiplies the
  first two into an accumulator of zeros, adds the bias row to every row of the product and puts two unit axes back:
  at `(0, 0, r, d)` it stores `Σ_k x(0, r, k) · w(0, k, d) + b(0, 0, d)`. The output-projection body stores the zero
  matrix on its first step, on every step the accumulator plus the product of its `[512, 64]` block of attended
  values with its `[64, 1024]` block of weights, and on its last step the accumulator plus the bias row. A change of
  format is the identity on the extended reals.
-/
import proofs.«114834_j83013127897754_2_alg».proof.Proof.Gen.KernelIdeal.Skeleton
import proofs.«114834_j83013127897754_2_alg».proof.Proof.LibPlainMatmul
import proofs.«114834_j83013127897754_2_alg».proof.Proof.LibTileCast
import Idealize.ShloMosaic.Lib.ValueIdx
import Idealize.ShloMosaic.Lib.ValueLayout
import Idealize.ShloMosaic.Lib.Pipeline.Value
import Idealize.ShloMosaic.PureOps.Ideal.Laws

open scoped BigOperators

namespace Cert.KernelIdeal.Pay

open Cert.KernelIdeal Cert.KernelIdeal.Gen Idealize.ShloMosaic Idealize.ShloMosaic.ValueIdx

/-- The first projection body's stored value at `(0, 0, r, d)`: row `r` of the activations against column `d` of the
weights, plus the bias at `d`. -/
theorem k0_pay1_apply (x : Vec Ideal S1x512x1024 .f32) (w : Vec Ideal S1x1024x64 .f32) (b : Vec Ideal S1x1x64 .f32)
    (r : Fin 512) (d : Fin 64) :
    k0_pay1 (F := Ideal) x w b (ix4 0 0 r d) = (∑ k : Fin 1024, x (ix3 0 r k) * w (ix3 0 k d)) + b (ix3 0 0 d) := by
  unfold k0_pay1
  refine (shapeCast_ab_11ab_apply _ _ 0 0 r d).trans ?_
  refine (truncf_apply (φ := .f32) (ψ := .bf16) _ bitsLt_bf16_f32 (ix2 r d)).trans ?_
  refine (addf_apply (φ := .f32) _ _ _).trans ?_
  refine congrArg₂ (· + ·) ?_ ?_
  · refine (matmul_plain_zero_apply _ none _ _ r d).trans ?_
    refine Finset.sum_congr rfl fun k _ => ?_
    refine congrArg₂ (· * ·) ?_ ?_
    · exact (truncf_apply (φ := .f32) (ψ := .bf16) _ bitsLt_bf16_f32 (ix2 r k)).trans (shapeCast_1ab_ab_apply _ _ r k)
    · exact (truncf_apply (φ := .f32) (ψ := .bf16) _ bitsLt_bf16_f32 (ix2 k d)).trans (shapeCast_1ab_ab_apply _ _ k d)
  · refine (broadcastTo_1b_ab_apply _ _ r d).trans ?_
    exact shapeCast_1ab_ab_apply _ _ 0 d

/-- The second projection body's stored value at `(0, 0, r, d)`: the same sum plus bias. -/
theorem k1_pay1_apply (x : Vec Ideal S1x512x1024 .f32) (w : Vec Ideal S1x1024x64 .f32) (b : Vec Ideal S1x1x64 .f32)
    (r : Fin 512) (d : Fin 64) :
    k1_pay1 (F := Ideal) x w b (ix4 0 0 r d) = (∑ k : Fin 1024, x (ix3 0 r k) * w (ix3 0 k d)) + b (ix3 0 0 d) := by
  unfold k1_pay1
  refine (shapeCast_ab_11ab_apply _ _ 0 0 r d).trans ?_
  refine (truncf_apply (φ := .f32) (ψ := .bf16) _ bitsLt_bf16_f32 (ix2 r d)).trans ?_
  refine (addf_apply (φ := .f32) _ _ _).trans ?_
  refine congrArg₂ (· + ·) ?_ ?_
  · refine (matmul_plain_zero_apply _ none _ _ r d).trans ?_
    refine Finset.sum_congr rfl fun k _ => ?_
    refine congrArg₂ (· * ·) ?_ ?_
    · exact (truncf_apply (φ := .f32) (ψ := .bf16) _ bitsLt_bf16_f32 (ix2 r k)).trans (shapeCast_1ab_ab_apply _ _ r k)
    · exact (truncf_apply (φ := .f32) (ψ := .bf16) _ bitsLt_bf16_f32 (ix2 k d)).trans (shapeCast_1ab_ab_apply _ _ k d)
  · refine (broadcastTo_1b_ab_apply _ _ r d).trans ?_
    exact shapeCast_1ab_ab_apply _ _ 0 d

/-- The third projection body's stored value at `(0, 0, r, d)`: the same sum plus bias. -/
theorem k2_pay1_apply (x : Vec Ideal S1x512x1024 .f32) (w : Vec Ideal S1x1024x64 .f32) (b : Vec Ideal S1x1x64 .f32)
    (r : Fin 512) (d : Fin 64) :
    k2_pay1 (F := Ideal) x w b (ix4 0 0 r d) = (∑ k : Fin 1024, x (ix3 0 r k) * w (ix3 0 k d)) + b (ix3 0 0 d) := by
  unfold k2_pay1
  refine (shapeCast_ab_11ab_apply _ _ 0 0 r d).trans ?_
  refine (truncf_apply (φ := .f32) (ψ := .bf16) _ bitsLt_bf16_f32 (ix2 r d)).trans ?_
  refine (addf_apply (φ := .f32) _ _ _).trans ?_
  refine congrArg₂ (· + ·) ?_ ?_
  · refine (matmul_plain_zero_apply _ none _ _ r d).trans ?_
    refine Finset.sum_congr rfl fun k _ => ?_
    refine congrArg₂ (· * ·) ?_ ?_
    · exact (truncf_apply (φ := .f32) (ψ := .bf16) _ bitsLt_bf16_f32 (ix2 r k)).trans (shapeCast_1ab_ab_apply _ _ r k)
    · exact (truncf_apply (φ := .f32) (ψ := .bf16) _ bitsLt_bf16_f32 (ix2 k d)).trans (shapeCast_1ab_ab_apply _ _ k d)
  · refine (broadcastTo_1b_ab_apply _ _ r d).trans ?_
    exact shapeCast_1ab_ab_apply _ _ 0 d

/-- The output-projection body's first store is the zero matrix. -/
theorem k4_pay1_apply (r : Fin 512) (e : Fin 1024) : k4_pay1 (F := Ideal) (ix2 r e) = 0 := by
  unfold k4_pay1
  refine (congrFun (shapeCast_self _ _) (ix2 r e)).trans ?_
  refine (broadcast_apply _ _).trans ?_
  exact Ideal.ofBits_zero_f32

/-- The output-projection body's accumulating store at `(r, e)`: the accumulator there plus row `r` of the attended
values against column `e` of the weights. -/
theorem k4_pay2_apply (a : Vec Ideal S1x1x512x64 .bf16) (w : Vec Ideal S1x64x1024 .f32) (acc : Vec Ideal S512x1024 .f32)
    (r : Fin 512) (e : Fin 1024) :
    k4_pay2 (F := Ideal) a w acc (ix2 r e) = acc (ix2 r e) + ∑ d : Fin 64, a (ix4 0 0 r d) * w (ix3 0 d e) := by
  unfold k4_pay2
  refine (congrFun (shapeCast_self _ _) (ix2 r e)).trans ?_
  refine (addf_apply (φ := .f32) _ _ _).trans ?_
  refine congrArg (acc (ix2 r e) + ·) ?_
  refine (matmul_plain_zero_apply _ none _ _ r e).trans ?_
  refine Finset.sum_congr rfl fun d _ => ?_
  refine congrArg₂ (· * ·) ?_ ?_
  · exact shapeCast_11ab_ab_apply _ _ r d
  · exact (truncf_apply (φ := .f32) (ψ := .bf16) _ bitsLt_bf16_f32 (ix2 d e)).trans (shapeCast_1ab_ab_apply _ _ d e)

/-- The output-projection body's last store at `(0, r, e)`: the accumulator at `(r, e)` plus the bias at `e`. -/
theorem k4_pay3_apply (acc : Vec Ideal S512x1024 .f32) (b : Vec Ideal S1x1024 .f32) (r : Fin 512) (e : Fin 1024) :
    k4_pay3 (F := Ideal) acc b (ix3 0 r e) = acc (ix2 r e) + b (ix2 0 e) := by
  unfold k4_pay3
  refine (shapeCast_ab_1ab_apply _ _ 0 r e).trans ?_
  refine (addf_apply (φ := .f32) _ _ _).trans ?_
  refine congrArg (acc (ix2 r e) + ·) ?_
  refine (broadcastTo_1b_ab_apply _ _ r e).trans ?_
  exact congrFun (shapeCast_self _ _) (ix2 0 e)

end Cert.KernelIdeal.Pay
-- ==== Proof.KI.ValProj0.lean ====
import proofs.«114834_j83013127897754_2_alg».proof.Proof.KI.QkvDefs
import proofs.«114834_j83013127897754_2_alg».proof.Proof.KI.PayProj
import proofs.«114834_j83013127897754_2_alg».proof.Proof.KI.ValProjDef
import Idealize.ShloMosaic.Lib.Pipeline.Value
import Idealize.ShloMosaic.Lib.ValueIdx

/-!
# Projection region 0: from the tiles to the array

The region runs over the grid (batch n, position tile si, head h). At a point it reads the x tile (n, si), the
head's weight and bias, and writes the tile (n, h, si) of the output. Each input tile is the array it was cut from at
the tile's offset; the payload at an index of the output tile is the projection's sum; the 128 output tiles cover the
output array. So the array the region leaves is the projection of the arrays it found.
-/

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The payload at any index of the output block. -/
theorem pay0_at (x : Vec Ideal S1x512x1024 .f32) (w : Vec Ideal S1x1024x64 .f32) (b : Vec Ideal S1x1x64 .f32) (y : S1x1x512x64.Idx) :
    k0_pay1 (F := Ideal) x w b y = (∑ k : Fin 1024, x (ix3 0 (y 2) k) * w (ix3 0 k (y 3))) + b (ix3 0 0 (y 3)) := by
  obtain ⟨r, d, rfl⟩ : ∃ (r : Fin 512) (d : Fin 64), y = ix4 0 0 r d :=
    ⟨y 2, y 3, by
      funext a
      match a with
      | ⟨0, _⟩ => exact Fin.ext (by have h : (y 0).val < 1 := (y 0).isLt; show (y 0).val = 0; omega)
      | ⟨1, _⟩ => exact Fin.ext (by have h : (y 1).val < 1 := (y 1).isLt; show (y 1).val = 0; omega)
      | ⟨2, _⟩ => rfl
      | ⟨3, _⟩ => rfl⟩
  exact Pay.k0_pay1_apply x w b r d

theorem idx_facts0 : ∀ t : Fin cfg0.N,
    win0_0.index t (0 : Fin 3) = win0_3.index t (0 : Fin 4)
    ∧ win0_0.index t (1 : Fin 3) = win0_3.index t (2 : Fin 4)
    ∧ win0_0.index t (2 : Fin 3) = 0
    ∧ win0_1.index t (0 : Fin 3) = win0_3.index t (1 : Fin 4)
    ∧ win0_1.index t (1 : Fin 3) = 0
    ∧ win0_1.index t (2 : Fin 3) = 0
    ∧ win0_2.index t (0 : Fin 3) = win0_3.index t (1 : Fin 4)
    ∧ win0_2.index t (1 : Fin 3) = 0
    ∧ win0_2.index t (2 : Fin 3) = 0
    ∧ win0_3.index t (0 : Fin 4) ≤ 1
    ∧ win0_3.index t (1 : Fin 4) ≤ 15
    ∧ win0_3.index t (2 : Fin 4) ≤ 3
    ∧ win0_3.index t (3 : Fin 4) = 0 :=
  (by decide +kernel : ∀ t : Fin grid0.N, _)

theorem idx_onto0 : ∀ (q0 : Fin 2) (q1 : Fin 16) (q2 : Fin 4), ∃ t : Fin cfg0.N, win0_3.index t = ![q0.val, q1.val, q2.val, 0] :=
  (by decide +kernel : ∀ (q0 : Fin 2) (q1 : Fin 16) (q2 : Fin 4), ∃ t : Fin grid0.N, win0_3.index t = ![q0.val, q1.val, q2.val, 0])

/-- The x tile at a point, read at an index of the tile, is the array at the tile's offset plus that index. -/
theorem iblk0_0_apply (c : Dev nD) (t : Fin cfg0.N) (y : S1x512x1024.Idx) (k : S2x2048x1024.Idx)
    (h0 : (k 0).val = win0_0.index t (0 : Fin 3) * 1 + (y 0).val)
    (h1 : (k 1).val = win0_0.index t (1 : Fin 3) * 512 + (y 1).val)
    (h2 : (k 2).val = win0_0.index t (2 : Fin 3) * 1024 + (y 2).val) :
    (Hand.iblk0 V c 0 t : Vec Ideal S1x512x1024 .f32) y = (V c main_arg0 : S2x2048x1024.Idx → EReal) k := by
  unfold Hand.iblk0
  rw [View.read_apply]
  show V c main_arg0 _ = V c main_arg0 _
  congr 1
  funext a
  apply Fin.ext
  match a with
  | ⟨0, _⟩ => show win0_0.index t (0 : Fin 3) * 1 + 1 * (y 0).val = (k 0).val; omega
  | ⟨1, _⟩ => show win0_0.index t (1 : Fin 3) * 512 + 1 * (y 1).val = (k 1).val; omega
  | ⟨2, _⟩ => show win0_0.index t (2 : Fin 3) * 1024 + 1 * (y 2).val = (k 2).val; omega

/-- The head's weight block at a point. -/
theorem iblk0_1_apply (c : Dev nD) (t : Fin cfg0.N) (y : S1x1024x64.Idx) (k : S16x1024x64.Idx)
    (h0 : (k 0).val = win0_1.index t (0 : Fin 3) * 1 + (y 0).val)
    (h1 : (k 1).val = win0_1.index t (1 : Fin 3) * 1024 + (y 1).val)
    (h2 : (k 2).val = win0_1.index t (2 : Fin 3) * 64 + (y 2).val) :
    (Hand.iblk0 V c 1 t : Vec Ideal S1x1024x64 .f32) y = (V c main_v1 : S16x1024x64.Idx → EReal) k := by
  unfold Hand.iblk0
  rw [View.read_apply]
  show V c main_v1 _ = V c main_v1 _
  congr 1
  funext a
  apply Fin.ext
  match a with
  | ⟨0, _⟩ => show win0_1.index t (0 : Fin 3) * 1 + 1 * (y 0).val = (k 0).val; omega
  | ⟨1, _⟩ => show win0_1.index t (1 : Fin 3) * 1024 + 1 * (y 1).val = (k 1).val; omega
  | ⟨2, _⟩ => show win0_1.index t (2 : Fin 3) * 64 + 1 * (y 2).val = (k 2).val; omega

/-- The head's bias block at a point. -/
theorem iblk0_2_apply (c : Dev nD) (t : Fin cfg0.N) (y : S1x1x64.Idx) (k : S16x1x64.Idx)
    (h0 : (k 0).val = win0_2.index t (0 : Fin 3) * 1 + (y 0).val)
    (h1 : (k 1).val = win0_2.index t (1 : Fin 3) * 1 + (y 1).val)
    (h2 : (k 2).val = win0_2.index t (2 : Fin 3) * 64 + (y 2).val) :
    (Hand.iblk0 V c 2 t : Vec Ideal S1x1x64 .f32) y = (V c main_v2 : S16x1x64.Idx → EReal) k := by
  unfold Hand.iblk0
  rw [View.read_apply]
  show V c main_v2 _ = V c main_v2 _
  congr 1
  funext a
  apply Fin.ext
  match a with
  | ⟨0, _⟩ => show win0_2.index t (0 : Fin 3) * 1 + 1 * (y 0).val = (k 0).val; omega
  | ⟨1, _⟩ => show win0_2.index t (1 : Fin 3) * 1 + 1 * (y 1).val = (k 1).val; omega
  | ⟨2, _⟩ => show win0_2.index t (2 : Fin 3) * 64 + 1 * (y 2).val = (k 2).val; omega

/-- What the body leaves at a point, at an index of the output tile, is the projection at the array index under it. -/
theorem point0 (c : Dev nD) (t : Fin cfg0.N) (y : S1x1x512x64.Idx) (i : S2x16x2048x64.Idx)
    (i0 : (i 0).val = win0_3.index t (0 : Fin 4) * 1 + (y 0).val)
    (i1 : (i 1).val = win0_3.index t (1 : Fin 4) * 1 + (y 1).val)
    (i2 : (i 2).val = win0_3.index t (2 : Fin 4) * 512 + (y 2).val)
    (i3 : (i 3).val = win0_3.index t (3 : Fin 4) * 64 + (y 3).val) :
    k0_pay1 (F := Ideal) (Hand.iblk0 V c 0 t) (Hand.iblk0 V c 1 t) (Hand.iblk0 V c 2 t) y
      = projK (V c main_arg0) (V c main_v1) (V c main_v2) i := by
  obtain ⟨e00, e01, e02, e10, e11, e12, e20, e21, e22, b0, b1, b2, b3⟩ := idx_facts0 t
  have y0 : (y 0).val < 1 := (y 0).isLt
  have y1 : (y 1).val < 1 := (y 1).isLt
  have y2 : (y 2).val < 512 := (y 2).isLt
  have y3 : (y 3).val < 64 := (y 3).isLt
  refine (pay0_at (Hand.iblk0 V c 0 t) (Hand.iblk0 V c 1 t) (Hand.iblk0 V c 2 t) y).trans ?_
  unfold projK
  refine congrArg₂ (· + ·) (Finset.sum_congr rfl fun k _ => congrArg₂ (· * ·) ?_ ?_) ?_
  · exact iblk0_0_apply V c t (ix3 0 (y 2) k) (ix3 (i 0) (i 2) k)
      (by show (i 0).val = _ * 1 + 0; omega) (by show (i 2).val = _ * 512 + (y 2).val; omega) (by show k.val = _ * 1024 + k.val; omega)
  · exact iblk0_1_apply V c t (ix3 0 k (y 3)) (ix3 (i 1) k (i 3))
      (by show (i 1).val = _ * 1 + 0; omega) (by show k.val = _ * 1024 + k.val; omega) (by show (i 3).val = _ * 64 + (y 3).val; omega)
  · exact iblk0_2_apply V c t (ix3 0 0 (y 3)) (ix3 (i 1) 0 (i 3))
      (by show (i 1).val = _ * 1 + 0; omega) (by show 0 = _ * 1 + 0; omega) (by show (i 3).val = _ * 64 + (y 3).val; omega)

theorem flushed0_eq (c : Dev nD) (t : Fin cfg0.N) :
    (Hand.dat0 (F := Ideal) V c).flushed 3 t
      = ((cfg0.win 3).blk t).view.read (Elt Ideal) (projK (V c main_arg0) (V c main_v1) (V c main_v2)) := by
  show (cfg0.win 3).cut (grid0.coords t) ((Hand.dat0 V c).after 3 t) = _
  rw [Hand.after0_3]
  unfold Hand.out0_3
  rw [View.canon_unit_zero hz4]
  simp only [View.ld_unit_zero (S := S1x512x1024) hz3, View.ld_unit_zero (S := S1x1024x64) hz3, View.ld_unit_zero (S := S1x1x64) hz3]
  funext j
  refine point0 V c t j (((cfg0.win 3).blk t).view.emb j) ?_ ?_ ?_ ?_
  · show win0_3.index t (0 : Fin 4) * 1 + 1 * (j 0).val = _; omega
  · show win0_3.index t (1 : Fin 4) * 1 + 1 * (j 1).val = _; omega
  · show win0_3.index t (2 : Fin 4) * 512 + 1 * (j 2).val = _; omega
  · show win0_3.index t (3 : Fin 4) * 64 + 1 * (j 3).val = _; omega

/-- An index of the array is in a point's tile iff each coordinate is in the tile's range on its axis. -/
theorem mem_blk0 (t : Fin cfg0.N) (i : S2x16x2048x64.Idx) :
    i ∈ ((cfg0.win 3).blk t).view.set ↔ ∀ a : Fin 4, win0_3.index t a * S1x1x512x64.size a ≤ (i a).val ∧ (i a).val < win0_3.index t a * S1x1x512x64.size a + S1x1x512x64.size a := by
  show i ∈ ((View.whole main_v9).slice (win0_3.rect t)).set ↔ _
  rw [View.set_slice_whole, Rect.mem_set_unit]
  exact Iff.rfl

/-- Every index of the array is in the tile of the point (batch, position / 512, head). -/
theorem cover0 (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto0 ⟨(i 0).val, hi0⟩ ⟨(i 1).val, hi1⟩ ⟨(i 2).val / 512, by omega⟩
  have q0 : win0_3.index t (0 : Fin 4) = (i 0).val := congrFun ht 0
  have q1 : win0_3.index t (1 : Fin 4) = (i 1).val := congrFun ht 1
  have q2 : win0_3.index t (2 : Fin 4) = (i 2).val / 512 := congrFun ht 2
  have q3 : win0_3.index t (3 : Fin 4) = 0 := congrFun ht 3
  refine ⟨t, flush0_3 t, ?_⟩
  rw [mem_blk0]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- The array the region leaves in its output: the projection of the arrays the region found. -/
theorem final0 (c : Dev nD) :
    (Hand.dat0 (F := Ideal) V c).arrAt 3 cfg0.N = projK (V c main_arg0) (V c main_v1) (V c main_v2) :=
  (Hand.dat0 (F := Ideal) V c).arrAt_eq_of_cover 3 (projK (V c main_arg0) (V c main_v1) (V c main_v2))
    (fun t _ => flushed0_eq V c t) cover0

end Cert.KernelIdeal.Val

end
-- ==== Proof.KI.ValProj1.lean ====
import proofs.«114834_j83013127897754_2_alg».proof.Proof.KI.QkvDefs
import proofs.«114834_j83013127897754_2_alg».proof.Proof.KI.PayProj
import proofs.«114834_j83013127897754_2_alg».proof.Proof.KI.ValProjDef
import Idealize.ShloMosaic.Lib.Pipeline.Value
import Idealize.ShloMosaic.Lib.ValueIdx

/-!
# Projection region 1: from the tiles to the array

The region runs over the grid (batch n, position tile si, head h). At a point it reads the x tile (n, si), the
head's weight and bias, and writes the tile (n, h, si) of the output. Each input tile is the array it was cut from at
the tile's offset; the payload at an index of the output tile is the projection's sum; the 128 output tiles cover the
output array. So the array the region leaves is the projection of the arrays it found.
-/

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The payload at any index of the output block. -/
theorem pay1_at (x : Vec Ideal S1x512x1024 .f32) (w : Vec Ideal S1x1024x64 .f32) (b : Vec Ideal S1x1x64 .f32) (y : S1x1x512x64.Idx) :
    k1_pay1 (F := Ideal) x w b y = (∑ k : Fin 1024, x (ix3 0 (y 2) k) * w (ix3 0 k (y 3))) + b (ix3 0 0 (y 3)) := by
  obtain ⟨r, d, rfl⟩ : ∃ (r : Fin 512) (d : Fin 64), y = ix4 0 0 r d :=
    ⟨y 2, y 3, by
      funext a
      match a with
      | ⟨0, _⟩ => exact Fin.ext (by have h : (y 0).val < 1 := (y 0).isLt; show (y 0).val = 0; omega)
      | ⟨1, _⟩ => exact Fin.ext (by have h : (y 1).val < 1 := (y 1).isLt; show (y 1).val = 0; omega)
      | ⟨2, _⟩ => rfl
      | ⟨3, _⟩ => rfl⟩
  exact Pay.k1_pay1_apply x w b r d

theorem idx_facts1 : ∀ t : Fin cfg1.N,
    win1_0.index t (0 : Fin 3) = win1_3.index t (0 : Fin 4)
    ∧ win1_0.index t (1 : Fin 3) = win1_3.index t (2 : Fin 4)
    ∧ win1_0.index t (2 : Fin 3) = 0
    ∧ win1_1.index t (0 : Fin 3) = win1_3.index t (1 : Fin 4)
    ∧ win1_1.index t (1 : Fin 3) = 0
    ∧ win1_1.index t (2 : Fin 3) = 0
    ∧ win1_2.index t (0 : Fin 3) = win1_3.index t (1 : Fin 4)
    ∧ win1_2.index t (1 : Fin 3) = 0
    ∧ win1_2.index t (2 : Fin 3) = 0
    ∧ win1_3.index t (0 : Fin 4) ≤ 1
    ∧ win1_3.index t (1 : Fin 4) ≤ 15
    ∧ win1_3.index t (2 : Fin 4) ≤ 3
    ∧ win1_3.index t (3 : Fin 4) = 0 :=
  (by decide +kernel : ∀ t : Fin grid1.N, _)

theorem idx_onto1 : ∀ (q0 : Fin 2) (q1 : Fin 16) (q2 : Fin 4), ∃ t : Fin cfg1.N, win1_3.index t = ![q0.val, q1.val, q2.val, 0] :=
  (by decide +kernel : ∀ (q0 : Fin 2) (q1 : Fin 16) (q2 : Fin 4), ∃ t : Fin grid1.N, win1_3.index t = ![q0.val, q1.val, q2.val, 0])

/-- The x tile at a point, read at an index of the tile, is the array at the tile's offset plus that index. -/
theorem iblk1_0_apply (c : Dev nD) (t : Fin cfg1.N) (y : S1x512x1024.Idx) (k : S2x2048x1024.Idx)
    (h0 : (k 0).val = win1_0.index t (0 : Fin 3) * 1 + (y 0).val)
    (h1 : (k 1).val = win1_0.index t (1 : Fin 3) * 512 + (y 1).val)
    (h2 : (k 2).val = win1_0.index t (2 : Fin 3) * 1024 + (y 2).val) :
    (Hand.iblk1 V c 0 t : Vec Ideal S1x512x1024 .f32) y = (V c main_arg1 : S2x2048x1024.Idx → EReal) k := by
  unfold Hand.iblk1
  rw [View.read_apply]
  show V c main_arg1 _ = V c main_arg1 _
  congr 1
  funext a
  apply Fin.ext
  match a with
  | ⟨0, _⟩ => show win1_0.index t (0 : Fin 3) * 1 + 1 * (y 0).val = (k 0).val; omega
  | ⟨1, _⟩ => show win1_0.index t (1 : Fin 3) * 512 + 1 * (y 1).val = (k 1).val; omega
  | ⟨2, _⟩ => show win1_0.index t (2 : Fin 3) * 1024 + 1 * (y 2).val = (k 2).val; omega

/-- The head's weight block at a point. -/
theorem iblk1_1_apply (c : Dev nD) (t : Fin cfg1.N) (y : S1x1024x64.Idx) (k : S16x1024x64.Idx)
    (h0 : (k 0).val = win1_1.index t (0 : Fin 3) * 1 + (y 0).val)
    (h1 : (k 1).val = win1_1.index t (1 : Fin 3) * 1024 + (y 1).val)
    (h2 : (k 2).val = win1_1.index t (2 : Fin 3) * 64 + (y 2).val) :
    (Hand.iblk1 V c 1 t : Vec Ideal S1x1024x64 .f32) y = (V c main_v4 : S16x1024x64.Idx → EReal) k := by
  unfold Hand.iblk1
  rw [View.read_apply]
  show V c main_v4 _ = V c main_v4 _
  congr 1
  funext a
  apply Fin.ext
  match a with
  | ⟨0, _⟩ => show win1_1.index t (0 : Fin 3) * 1 + 1 * (y 0).val = (k 0).val; omega
  | ⟨1, _⟩ => show win1_1.index t (1 : Fin 3) * 1024 + 1 * (y 1).val = (k 1).val; omega
  | ⟨2, _⟩ => show win1_1.index t (2 : Fin 3) * 64 + 1 * (y 2).val = (k 2).val; omega

/-- The head's bias block at a point. -/
theorem iblk1_2_apply (c : Dev nD) (t : Fin cfg1.N) (y : S1x1x64.Idx) (k : S16x1x64.Idx)
    (h0 : (k 0).val = win1_2.index t (0 : Fin 3) * 1 + (y 0).val)
    (h1 : (k 1).val = win1_2.index t (1 : Fin 3) * 1 + (y 1).val)
    (h2 : (k 2).val = win1_2.index t (2 : Fin 3) * 64 + (y 2).val) :
    (Hand.iblk1 V c 2 t : Vec Ideal S1x1x64 .f32) y = (V c main_v5 : S16x1x64.Idx → EReal) k := by
  unfold Hand.iblk1
  rw [View.read_apply]
  show V c main_v5 _ = V c main_v5 _
  congr 1
  funext a
  apply Fin.ext
  match a with
  | ⟨0, _⟩ => show win1_2.index t (0 : Fin 3) * 1 + 1 * (y 0).val = (k 0).val; omega
  | ⟨1, _⟩ => show win1_2.index t (1 : Fin 3) * 1 + 1 * (y 1).val = (k 1).val; omega
  | ⟨2, _⟩ => show win1_2.index t (2 : Fin 3) * 64 + 1 * (y 2).val = (k 2).val; omega

/-- What the body leaves at a point, at an index of the output tile, is the projection at the array index under it. -/
theorem point1 (c : Dev nD) (t : Fin cfg1.N) (y : S1x1x512x64.Idx) (i : S2x16x2048x64.Idx)
    (i0 : (i 0).val = win1_3.index t (0 : Fin 4) * 1 + (y 0).val)
    (i1 : (i 1).val = win1_3.index t (1 : Fin 4) * 1 + (y 1).val)
    (i2 : (i 2).val = win1_3.index t (2 : Fin 4) * 512 + (y 2).val)
    (i3 : (i 3).val = win1_3.index t (3 : Fin 4) * 64 + (y 3).val) :
    k1_pay1 (F := Ideal) (Hand.iblk1 V c 0 t) (Hand.iblk1 V c 1 t) (Hand.iblk1 V c 2 t) y
      = projK (V c main_arg1) (V c main_v4) (V c main_v5) i := by
  obtain ⟨e00, e01, e02, e10, e11, e12, e20, e21, e22, b0, b1, b2, b3⟩ := idx_facts1 t
  have y0 : (y 0).val < 1 := (y 0).isLt
  have y1 : (y 1).val < 1 := (y 1).isLt
  have y2 : (y 2).val < 512 := (y 2).isLt
  have y3 : (y 3).val < 64 := (y 3).isLt
  refine (pay1_at (Hand.iblk1 V c 0 t) (Hand.iblk1 V c 1 t) (Hand.iblk1 V c 2 t) y).trans ?_
  unfold projK
  refine congrArg₂ (· + ·) (Finset.sum_congr rfl fun k _ => congrArg₂ (· * ·) ?_ ?_) ?_
  · exact iblk1_0_apply V c t (ix3 0 (y 2) k) (ix3 (i 0) (i 2) k)
      (by show (i 0).val = _ * 1 + 0; omega) (by show (i 2).val = _ * 512 + (y 2).val; omega) (by show k.val = _ * 1024 + k.val; omega)
  · exact iblk1_1_apply V c t (ix3 0 k (y 3)) (ix3 (i 1) k (i 3))
      (by show (i 1).val = _ * 1 + 0; omega) (by show k.val = _ * 1024 + k.val; omega) (by show (i 3).val = _ * 64 + (y 3).val; omega)
  · exact iblk1_2_apply V c t (ix3 0 0 (y 3)) (ix3 (i 1) 0 (i 3))
      (by show (i 1).val = _ * 1 + 0; omega) (by show 0 = _ * 1 + 0; omega) (by show (i 3).val = _ * 64 + (y 3).val; omega)

theorem flushed1_eq (c : Dev nD) (t : Fin cfg1.N) :
    (Hand.dat1 (F := Ideal) V c).flushed 3 t
      = ((cfg1.win 3).blk t).view.read (Elt Ideal) (projK (V c main_arg1) (V c main_v4) (V c main_v5)) := by
  show (cfg1.win 3).cut (grid1.coords t) ((Hand.dat1 V c).after 3 t) = _
  rw [Hand.after1_3]
  unfold Hand.out1_3
  rw [View.canon_unit_zero hz4]
  simp only [View.ld_unit_zero (S := S1x512x1024) hz3, View.ld_unit_zero (S := S1x1024x64) hz3, View.ld_unit_zero (S := S1x1x64) hz3]
  funext j
  refine point1 V c t j (((cfg1.win 3).blk t).view.emb j) ?_ ?_ ?_ ?_
  · show win1_3.index t (0 : Fin 4) * 1 + 1 * (j 0).val = _; omega
  · show win1_3.index t (1 : Fin 4) * 1 + 1 * (j 1).val = _; omega
  · show win1_3.index t (2 : Fin 4) * 512 + 1 * (j 2).val = _; omega
  · show win1_3.index t (3 : Fin 4) * 64 + 1 * (j 3).val = _; omega

/-- An index of the array is in a point's tile iff each coordinate is in the tile's range on its axis. -/
theorem mem_blk1 (t : Fin cfg1.N) (i : S2x16x2048x64.Idx) :
    i ∈ ((cfg1.win 3).blk t).view.set ↔ ∀ a : Fin 4, win1_3.index t a * S1x1x512x64.size a ≤ (i a).val ∧ (i a).val < win1_3.index t a * S1x1x512x64.size a + S1x1x512x64.size a := by
  show i ∈ ((View.whole main_v10).slice (win1_3.rect t)).set ↔ _
  rw [View.set_slice_whole, Rect.mem_set_unit]
  exact Iff.rfl

/-- Every index of the array is in the tile of the point (batch, position / 512, head). -/
theorem cover1 (i : S2x16x2048x64.Idx) :
    ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto1 ⟨(i 0).val, hi0⟩ ⟨(i 1).val, hi1⟩ ⟨(i 2).val / 512, by omega⟩
  have q0 : win1_3.index t (0 : Fin 4) = (i 0).val := congrFun ht 0
  have q1 : win1_3.index t (1 : Fin 4) = (i 1).val := congrFun ht 1
  have q2 : win1_3.index t (2 : Fin 4) = (i 2).val / 512 := congrFun ht 2
  have q3 : win1_3.index t (3 : Fin 4) = 0 := congrFun ht 3
  refine ⟨t, flush1_3 t, ?_⟩
  rw [mem_blk1]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 512 ≤ (i 2).val ∧ (i 2).val < win1_3.index t (2 : Fin 4) * 512 + 512; omega
  | ⟨3, _⟩ => show win1_3.index t (3 : Fin 4) * 64 ≤ (i 3).val ∧ (i 3).val < win1_3.index t (3 : Fin 4) * 64 + 64; omega

/-- The array the region leaves in its output: the projection of the arrays the region found. -/
theorem final1 (c : Dev nD) :
    (Hand.dat1 (F := Ideal) V c).arrAt 3 cfg1.N = projK (V c main_arg1) (V c main_v4) (V c main_v5) :=
  (Hand.dat1 (F := Ideal) V c).arrAt_eq_of_cover 3 (projK (V c main_arg1) (V c main_v4) (V c main_v5))
    (fun t _ => flushed1_eq V c t) cover1

end Cert.KernelIdeal.Val

end
-- ==== Proof.KI.ValProj2.lean ====
import proofs.«114834_j83013127897754_2_alg».proof.Proof.KI.QkvDefs
import proofs.«114834_j83013127897754_2_alg».proof.Proof.KI.PayProj
import proofs.«114834_j83013127897754_2_alg».proof.Proof.KI.ValProjDef
import Idealize.ShloMosaic.Lib.Pipeline.Value
import Idealize.ShloMosaic.Lib.ValueIdx

/-!
# Projection region 2: from the tiles to the array

The region runs over the grid (batch n, position tile si, head h). At a point it reads the x tile (n, si), the
head's weight and bias, and writes the tile (n, h, si) of the output. Each input tile is the array it was cut from at
the tile's offset; the payload at an index of the output tile is the projection's sum; the 128 output tiles cover the
output array. So the array the region leaves is the projection of the arrays it found.
-/

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The payload at any index of the output block. -/
theorem pay2_at (x : Vec Ideal S1x512x1024 .f32) (w : Vec Ideal S1x1024x64 .f32) (b : Vec Ideal S1x1x64 .f32) (y : S1x1x512x64.Idx) :
    k2_pay1 (F := Ideal) x w b y = (∑ k : Fin 1024, x (ix3 0 (y 2) k) * w (ix3 0 k (y 3))) + b (ix3 0 0 (y 3)) := by
  obtain ⟨r, d, rfl⟩ : ∃ (r : Fin 512) (d : Fin 64), y = ix4 0 0 r d :=
    ⟨y 2, y 3, by
      funext a
      match a with
      | ⟨0, _⟩ => exact Fin.ext (by have h : (y 0).val < 1 := (y 0).isLt; show (y 0).val = 0; omega)
      | ⟨1, _⟩ => exact Fin.ext (by have h : (y 1).val < 1 := (y 1).isLt; show (y 1).val = 0; omega)
      | ⟨2, _⟩ => rfl
      | ⟨3, _⟩ => rfl⟩
  exact Pay.k2_pay1_apply x w b r d

theorem idx_facts2 : ∀ t : Fin cfg2.N,
    win2_0.index t (0 : Fin 3) = win2_3.index t (0 : Fin 4)
    ∧ win2_0.index t (1 : Fin 3) = win2_3.index t (2 : Fin 4)
    ∧ win2_0.index t (2 : Fin 3) = 0
    ∧ win2_1.index t (0 : Fin 3) = win2_3.index t (1 : Fin 4)
    ∧ win2_1.index t (1 : Fin 3) = 0
    ∧ win2_1.index t (2 : Fin 3) = 0
    ∧ win2_2.index t (0 : Fin 3) = win2_3.index t (1 : Fin 4)
    ∧ win2_2.index t (1 : Fin 3) = 0
    ∧ win2_2.index t (2 : Fin 3) = 0
    ∧ win2_3.index t (0 : Fin 4) ≤ 1
    ∧ win2_3.index t (1 : Fin 4) ≤ 15
    ∧ win2_3.index t (2 : Fin 4) ≤ 3
    ∧ win2_3.index t (3 : Fin 4) = 0 :=
  (by decide +kernel : ∀ t : Fin grid2.N, _)

theorem idx_onto2 : ∀ (q0 : Fin 2) (q1 : Fin 16) (q2 : Fin 4), ∃ t : Fin cfg2.N, win2_3.index t = ![q0.val, q1.val, q2.val, 0] :=
  (by decide +kernel : ∀ (q0 : Fin 2) (q1 : Fin 16) (q2 : Fin 4), ∃ t : Fin grid2.N, win2_3.index t = ![q0.val, q1.val, q2.val, 0])

/-- The x tile at a point, read at an index of the tile, is the array at the tile's offset plus that index. -/
theorem iblk2_0_apply (c : Dev nD) (t : Fin cfg2.N) (y : S1x512x1024.Idx) (k : S2x2048x1024.Idx)
    (h0 : (k 0).val = win2_0.index t (0 : Fin 3) * 1 + (y 0).val)
    (h1 : (k 1).val = win2_0.index t (1 : Fin 3) * 512 + (y 1).val)
    (h2 : (k 2).val = win2_0.index t (2 : Fin 3) * 1024 + (y 2).val) :
    (Hand.iblk2 V c 0 t : Vec Ideal S1x512x1024 .f32) y = (V c main_arg2 : S2x2048x1024.Idx → EReal) k := by
  unfold Hand.iblk2
  rw [View.read_apply]
  show V c main_arg2 _ = V c main_arg2 _
  congr 1
  funext a
  apply Fin.ext
  match a with
  | ⟨0, _⟩ => show win2_0.index t (0 : Fin 3) * 1 + 1 * (y 0).val = (k 0).val; omega
  | ⟨1, _⟩ => show win2_0.index t (1 : Fin 3) * 512 + 1 * (y 1).val = (k 1).val; omega
  | ⟨2, _⟩ => show win2_0.index t (2 : Fin 3) * 1024 + 1 * (y 2).val = (k 2).val; omega

/-- The head's weight block at a point. -/
theorem iblk2_1_apply (c : Dev nD) (t : Fin cfg2.N) (y : S1x1024x64.Idx) (k : S16x1024x64.Idx)
    (h0 : (k 0).val = win2_1.index t (0 : Fin 3) * 1 + (y 0).val)
    (h1 : (k 1).val = win2_1.index t (1 : Fin 3) * 1024 + (y 1).val)
    (h2 : (k 2).val = win2_1.index t (2 : Fin 3) * 64 + (y 2).val) :
    (Hand.iblk2 V c 1 t : Vec Ideal S1x1024x64 .f32) y = (V c main_v7 : S16x1024x64.Idx → EReal) k := by
  unfold Hand.iblk2
  rw [View.read_apply]
  show V c main_v7 _ = V c main_v7 _
  congr 1
  funext a
  apply Fin.ext
  match a with
  | ⟨0, _⟩ => show win2_1.index t (0 : Fin 3) * 1 + 1 * (y 0).val = (k 0).val; omega
  | ⟨1, _⟩ => show win2_1.index t (1 : Fin 3) * 1024 + 1 * (y 1).val = (k 1).val; omega
  | ⟨2, _⟩ => show win2_1.index t (2 : Fin 3) * 64 + 1 * (y 2).val = (k 2).val; omega

/-- The head's bias block at a point. -/
theorem iblk2_2_apply (c : Dev nD) (t : Fin cfg2.N) (y : S1x1x64.Idx) (k : S16x1x64.Idx)
    (h0 : (k 0).val = win2_2.index t (0 : Fin 3) * 1 + (y 0).val)
    (h1 : (k 1).val = win2_2.index t (1 : Fin 3) * 1 + (y 1).val)
    (h2 : (k 2).val = win2_2.index t (2 : Fin 3) * 64 + (y 2).val) :
    (Hand.iblk2 V c 2 t : Vec Ideal S1x1x64 .f32) y = (V c main_v8 : S16x1x64.Idx → EReal) k := by
  unfold Hand.iblk2
  rw [View.read_apply]
  show V c main_v8 _ = V c main_v8 _
  congr 1
  funext a
  apply Fin.ext
  match a with
  | ⟨0, _⟩ => show win2_2.index t (0 : Fin 3) * 1 + 1 * (y 0).val = (k 0).val; omega
  | ⟨1, _⟩ => show win2_2.index t (1 : Fin 3) * 1 + 1 * (y 1).val = (k 1).val; omega
  | ⟨2, _⟩ => show win2_2.index t (2 : Fin 3) * 64 + 1 * (y 2).val = (k 2).val; omega

/-- What the body leaves at a point, at an index of the output tile, is the projection at the array index under it. -/
theorem point2 (c : Dev nD) (t : Fin cfg2.N) (y : S1x1x512x64.Idx) (i : S2x16x2048x64.Idx)
    (i0 : (i 0).val = win2_3.index t (0 : Fin 4) * 1 + (y 0).val)
    (i1 : (i 1).val = win2_3.index t (1 : Fin 4) * 1 + (y 1).val)
    (i2 : (i 2).val = win2_3.index t (2 : Fin 4) * 512 + (y 2).val)
    (i3 : (i 3).val = win2_3.index t (3 : Fin 4) * 64 + (y 3).val) :
    k2_pay1 (F := Ideal) (Hand.iblk2 V c 0 t) (Hand.iblk2 V c 1 t) (Hand.iblk2 V c 2 t) y
      = projK (V c main_arg2) (V c main_v7) (V c main_v8) i := by
  obtain ⟨e00, e01, e02, e10, e11, e12, e20, e21, e22, b0, b1, b2, b3⟩ := idx_facts2 t
  have y0 : (y 0).val < 1 := (y 0).isLt
  have y1 : (y 1).val < 1 := (y 1).isLt
  have y2 : (y 2).val < 512 := (y 2).isLt
  have y3 : (y 3).val < 64 := (y 3).isLt
  refine (pay2_at (Hand.iblk2 V c 0 t) (Hand.iblk2 V c 1 t) (Hand.iblk2 V c 2 t) y).trans ?_
  unfold projK
  refine congrArg₂ (· + ·) (Finset.sum_congr rfl fun k _ => congrArg₂ (· * ·) ?_ ?_) ?_
  · exact iblk2_0_apply V c t (ix3 0 (y 2) k) (ix3 (i 0) (i 2) k)
      (by show (i 0).val = _ * 1 + 0; omega) (by show (i 2).val = _ * 512 + (y 2).val; omega) (by show k.val = _ * 1024 + k.val; omega)
  · exact iblk2_1_apply V c t (ix3 0 k (y 3)) (ix3 (i 1) k (i 3))
      (by show (i 1).val = _ * 1 + 0; omega) (by show k.val = _ * 1024 + k.val; omega) (by show (i 3).val = _ * 64 + (y 3).val; omega)
  · exact iblk2_2_apply V c t (ix3 0 0 (y 3)) (ix3 (i 1) 0 (i 3))
      (by show (i 1).val = _ * 1 + 0; omega) (by show 0 = _ * 1 + 0; omega) (by show (i 3).val = _ * 64 + (y 3).val; omega)

theorem flushed2_eq (c : Dev nD) (t : Fin cfg2.N) :
    (Hand.dat2 (F := Ideal) V c).flushed 3 t
      = ((cfg2.win 3).blk t).view.read (Elt Ideal) (projK (V c main_arg2) (V c main_v7) (V c main_v8)) := by
  show (cfg2.win 3).cut (grid2.coords t) ((Hand.dat2 V c).after 3 t) = _
  rw [Hand.after2_3]
  unfold Hand.out2_3
  rw [View.canon_unit_zero hz4]
  simp only [View.ld_unit_zero (S := S1x512x1024) hz3, View.ld_unit_zero (S := S1x1024x64) hz3, View.ld_unit_zero (S := S1x1x64) hz3]
  funext j
  refine point2 V c t j (((cfg2.win 3).blk t).view.emb j) ?_ ?_ ?_ ?_
  · show win2_3.index t (0 : Fin 4) * 1 + 1 * (j 0).val = _; omega
  · show win2_3.index t (1 : Fin 4) * 1 + 1 * (j 1).val = _; omega
  · show win2_3.index t (2 : Fin 4) * 512 + 1 * (j 2).val = _; omega
  · show win2_3.index t (3 : Fin 4) * 64 + 1 * (j 3).val = _; omega

/-- An index of the array is in a point's tile iff each coordinate is in the tile's range on its axis. -/
theorem mem_blk2 (t : Fin cfg2.N) (i : S2x16x2048x64.Idx) :
    i ∈ ((cfg2.win 3).blk t).view.set ↔ ∀ a : Fin 4, win2_3.index t a * S1x1x512x64.size a ≤ (i a).val ∧ (i a).val < win2_3.index t a * S1x1x512x64.size a + S1x1x512x64.size a := by
  show i ∈ ((View.whole main_v11).slice (win2_3.rect t)).set ↔ _
  rw [View.set_slice_whole, Rect.mem_set_unit]
  exact Iff.rfl

/-- Every index of the array is in the tile of the point (batch, position / 512, head). -/
theorem cover2 (i : S2x16x2048x64.Idx) :
    ∃ t : Fin cfg2.N, (cfg2.win 3).flush t = true ∧ i ∈ ((cfg2.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto2 ⟨(i 0).val, hi0⟩ ⟨(i 1).val, hi1⟩ ⟨(i 2).val / 512, by omega⟩
  have q0 : win2_3.index t (0 : Fin 4) = (i 0).val := congrFun ht 0
  have q1 : win2_3.index t (1 : Fin 4) = (i 1).val := congrFun ht 1
  have q2 : win2_3.index t (2 : Fin 4) = (i 2).val / 512 := congrFun ht 2
  have q3 : win2_3.index t (3 : Fin 4) = 0 := congrFun ht 3
  refine ⟨t, flush2_3 t, ?_⟩
  rw [mem_blk2]
  intro a
  match a with
  | ⟨0, _⟩ => show win2_3.index t (0 : Fin 4) * 1 ≤ (i 0).val ∧ (i 0).val < win2_3.index t (0 : Fin 4) * 1 + 1; omega
  | ⟨1, _⟩ => show win2_3.index t (1 : Fin 4) * 1 ≤ (i 1).val ∧ (i 1).val < win2_3.index t (1 : Fin 4) * 1 + 1; omega
  | ⟨2, _⟩ => show win2_3.index t (2 : Fin 4) * 512 ≤ (i 2).val ∧ (i 2).val < win2_3.index t (2 : Fin 4) * 512 + 512; omega
  | ⟨3, _⟩ => show win2_3.index t (3 : Fin 4) * 64 ≤ (i 3).val ∧ (i 3).val < win2_3.index t (3 : Fin 4) * 64 + 64; omega

/-- The array the region leaves in its output: the projection of the arrays the region found. -/
theorem final2 (c : Dev nD) :
    (Hand.dat2 (F := Ideal) V c).arrAt 3 cfg2.N = projK (V c main_arg2) (V c main_v7) (V c main_v8) :=
  (Hand.dat2 (F := Ideal) V c).arrAt_eq_of_cover 3 (projK (V c main_arg2) (V c main_v7) (V c main_v8))
    (fun t _ => flushed2_eq V c t) cover2

end Cert.KernelIdeal.Val

end
-- ==== Proof.KI.ValWeights.lean ====
import proofs.«114834_j83013127897754_2_alg».proof.KernelIdeal
import proofs.«114834_j83013127897754_2_alg».proof.Proof.Spec
import Idealize.ShloMosaic.Lib.Pipeline.Value
import Idealize.ShloMosaic.Lib.ValueIdx

/-!
# The per-head operands the host prepares, read at an index

A [1024, 1024] weight (output feature, input feature) is cut into 16 heads of 64 output features and each head's
[64, 1024] block transposed to [1024, 64]: entry (h, k, d) of the result is the weight's (h * 64 + d, k). A
[1024] bias cut the same way has at (h, 0, d) its entry h * 64 + d. For the output layer the weight's INPUT
features are cut by head and the output feature moved last: entry (h, d, e) is the weight's (e, h * 64 + d).
-/

noncomputable section

open scoped BigOperators

namespace Cert.KernelIdeal.Val

open Idealize.ShloMosaic Idealize.ShloMosaic.ValueIdx
open Cert.KernelIdeal

/-- A weight reshaped to [16, 64, 1024] and its last two axes exchanged, at head h, input feature k, lane d:
    the weight's row h * 64 + d, column k. -/
theorem headWeight_apply (w : Cert.Mha.Wgt) {hc : S1024x1024.ShapeCasts S16x64x1024}
    {ht : S16x64x1024.Transposes [0, 2, 1] S16x1024x64} (h : Fin 16) (k : Fin 1024) (d : Fin 64) :
    (transpose S16x1024x64 [0, 2, 1] (shapeCast S16x64x1024 w hc) ht) (ix3 h k d) = w (ix2 (Cert.Mha.feat h d) k) := by
  refine (transpose_apply [0, 2, 1] (shapeCast S16x64x1024 w hc) ht (ix3 h k d) (ix3 h d k) fun b => ?_).trans ?_
  · match b with
    | ⟨0, _⟩ => rfl
    | ⟨1, _⟩ => rfl
    | ⟨2, _⟩ => rfl
  · refine shapeCast_apply w hc (ix3 h d k) (ix2 (Cert.Mha.feat h d) k) ?_
    rw [Shape.rowMajor_val_two, Shape.rowMajor_val_three]
    show (h.val * 64 + d.val) * 1024 + k.val = (h.val * 64 + d.val) * 1024 + k.val
    rfl

/-- A bias reshaped to [16, 1, 64], at head h, lane d: the bias's entry h * 64 + d. -/
theorem headBias_apply (b : Cert.Mha.Bia) {hc : S1024.ShapeCasts S16x1x64} (h : Fin 16) (d : Fin 64) :
    (shapeCast S16x1x64 b hc) (ix3 h 0 d) = b (ix1 (Cert.Mha.feat h d)) := by
  refine shapeCast_apply b hc (ix3 h 0 d) (ix1 (Cert.Mha.feat h d)) ?_
  rw [Shape.rowMajor_val_one, Shape.rowMajor_val_three]
  show h.val * 64 + d.val = (h.val * 1 + 0) * 64 + d.val
  omega

/-- The output layer's weight reshaped to [1024, 16, 64] and its first axis moved last, at head h, lane d,
    output feature e: the weight's row e, column h * 64 + d. -/
theorem outWeight_apply (w : Cert.Mha.Wgt) {hc : S1024x1024.ShapeCasts S1024x16x64}
    {ht : S1024x16x64.Transposes [1, 2, 0] S16x64x1024} (h : Fin 16) (d : Fin 64) (e : Fin 1024) :
    (transpose S16x64x1024 [1, 2, 0] (shapeCast S1024x16x64 w hc) ht) (ix3 h d e) = w (ix2 e (Cert.Mha.feat h d)) := by
  refine (transpose_apply [1, 2, 0] (shapeCast S1024x16x64 w hc) ht (ix3 h d e) (ix3 e h d) fun b => ?_).trans ?_
  · match b with
    | ⟨0, _⟩ => rfl
    | ⟨1, _⟩ => rfl
    | ⟨2, _⟩ => rfl
  · refine shapeCast_apply w hc (ix3 e h d) (ix2 e (Cert.Mha.feat h d)) ?_
    rw [Shape.rowMajor_val_two, Shape.rowMajor_val_three]
    show e.val * 1024 + (h.val * 64 + d.val) = (e.val * 16 + h.val) * 64 + d.val
    omega

/-- The output layer's bias reshaped to [1, 1024], at output feature e: the bias's entry e. -/
theorem outBias_apply (b : Cert.Mha.Bia) {hc : S1024.ShapeCasts S1x1024} (e : Fin 1024) :
    (shapeCast S1x1024 b hc) (ix2 0 e) = b (ix1 e) := by
  refine shapeCast_apply b hc (ix2 0 e) (ix1 e) ?_
  rw [Shape.rowMajor_val_one, Shape.rowMajor_val_two]
  show e.val = 0 * 1024 + e.val
  omega

end Cert.KernelIdeal.Val

end
-- ==== Proof.KI.ValProjHeads.lean ====
import proofs.«114834_j83013127897754_2_alg».proof.Proof.KI.ValProjDef
import proofs.«114834_j83013127897754_2_alg».proof.Proof.KI.ValWeights

/-!
# The kernel-layout projection on the host-prepared operands is the projection split by head

With the weight cut by head and transposed, and the bias cut by head, the kernel-layout projection reads the
weight's row h * 64 + d and the bias's entry h * 64 + d: the linear layer split by head.
-/

noncomputable section

open scoped BigOperators

namespace Cert.KernelIdeal.Val

open Idealize.ShloMosaic Idealize.ShloMosaic.ValueIdx
open Cert.KernelIdeal

/-- The kernel-layout projection of x on the per-head transposed weight and the per-head bias is the linear layer
    split by head. -/
theorem projK_heads (x : Cert.Mha.Act) (w : Cert.Mha.Wgt) (b : Cert.Mha.Bia)
    {hc : S1024x1024.ShapeCasts S16x64x1024} {ht : S16x64x1024.Transposes [0, 2, 1] S16x1024x64}
    {hb : S1024.ShapeCasts S16x1x64} :
    projK x (transpose S16x1024x64 [0, 2, 1] (shapeCast S16x64x1024 w hc) ht) (shapeCast S16x1x64 b hb)
      = Cert.Mha.proj x w b := by
  funext i
  unfold projK Cert.Mha.proj Cert.Mha.projAt
  exact congrArg₂ (· + ·)
    (Finset.sum_congr rfl fun k _ => congrArg (x (ix3 (i 0) (i 2) k) * ·) (headWeight_apply w (i 1) k (i 3)))
    (headBias_apply b (i 1) (i 3))

end Cert.KernelIdeal.Val

end
-- ==== Proof.KI.ValProj.lean ====
import proofs.«114834_j83013127897754_2_alg».proof.Proof.KI.ValProjDef
import proofs.«114834_j83013127897754_2_alg».proof.Proof.KI.ValProj0
import proofs.«114834_j83013127897754_2_alg».proof.Proof.KI.ValProj1
import proofs.«114834_j83013127897754_2_alg».proof.Proof.KI.ValProj2
import proofs.«114834_j83013127897754_2_alg».proof.Proof.KI.ValWeights
import proofs.«114834_j83013127897754_2_alg».proof.Proof.KI.ValProjHeads

/-!
# The three projection regions' output arrays, and the host-prepared operands

Gathers: the kernel-layout projection and each region's output array as that projection of the arrays the region
found; the host's per-head weight and bias read at an index; the kernel-layout projection on them as the linear
layer split by head.
-/
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«114834_j83013127897754_2_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KI.PayAttn.lean ====
/-
  The attention kernel's tile arithmetic over the extended reals, read at an index.

  One step of the attention kernel holds a tile of 512 query rows `q` (64 lanes each) and all 2048 key rows `k` of
  one head. It forms the scores `q kᵀ` (the keys transposed, then a matrix product started from zero), scales them by
  the dyadic `1/8`, and takes the row softmax: the row maximum folded from `-∞`, the exponentials of the scores shifted
  by it, their row sum, and the quotient. Each intermediate matrix is named here and read at an entry; the tile of
  weights is the function `tileWeight`, and the attended values are its product with the value rows `v`.
-/
import proofs.«114834_j83013127897754_2_alg».proof.Proof.Gen.KernelIdeal.Skeleton
import proofs.«114834_j83013127897754_2_alg».proof.Proof.LibPlainMatmul
import proofs.«114834_j83013127897754_2_alg».proof.Proof.LibLaneSum
import proofs.«114834_j83013127897754_2_alg».proof.Proof.LibLaneMax
import proofs.«114834_j83013127897754_2_alg».proof.Proof.LibColumnCast
import proofs.«114834_j83013127897754_2_alg».proof.Proof.LibColumnBroadcast
import proofs.«114834_j83013127897754_2_alg».proof.Proof.LibTileCast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The tile's functions -/

/-- The scaled score of query row `r` against key row `j`: `(Σ_d q(r, d) · k(j, d)) · 1/8`. -/
def tileScore (q : Vec Ideal S1x1x512x64 .bf16) (k : Vec Ideal S1x1x2048x64 .bf16) (r : Fin 512) (j : Fin 2048) : EReal :=
  (∑ d : Fin 64, q (ix4 0 0 r d) * k (ix4 0 0 j d)) * Ideal.ofBits .f32 0x3E000000#32

/-- The largest score of row `r`, folded from `-∞`. -/
def tileMax (q : Vec Ideal S1x1x512x64 .bf16) (k : Vec Ideal S1x1x2048x64 .bf16) (r : Fin 512) : EReal :=
  Finset.univ.fold max (Ideal.ofBits .f32 0xFF800000#32) (fun j : Fin 2048 => tileScore q k r j)

/-- The exponential of a score shifted by its row's maximum. -/
def tileExp (q : Vec Ideal S1x1x512x64 .bf16) (k : Vec Ideal S1x1x2048x64 .bf16) (r : Fin 512) (j : Fin 2048) : EReal :=
  Ideal.exp (tileScore q k r j - tileMax q k r)

/-- The attention weight: the shifted exponential over its row's sum. -/
def tileWeight (q : Vec Ideal S1x1x512x64 .bf16) (k : Vec Ideal S1x1x2048x64 .bf16) (r : Fin 512) (j : Fin 2048) : EReal :=
  Ideal.div (tileExp q k r j) (∑ j' : Fin 2048, tileExp q k r j')

/-! ## The intermediate matrices of the weights' payload -/

/-- The scaled scores: `q` times the transposed `k` from zero, times the splat `1/8`. -/
def scoreTile (q : Vec Ideal S1x1x512x64 .bf16) (k : Vec Ideal S1x1x2048x64 .bf16) : FVec Ideal S512x2048 .f32 :=
  mulf
    (matmul dot_S512x64_S64x2048_S512x2048_1_0_0_1_n_n none
      (shapeCast S512x64 q shapeCasts_S1x1x512x64_S512x64 : FVec Ideal S512x64 .bf16)
      (transpose S64x2048 [1, 0] (shapeCast S2048x64 k shapeCasts_S1x1x2048x64_S2048x64 : FVec Ideal S2048x64 .bf16)
        transposes_S2048x64_p1_0_S64x2048 : FVec Ideal S64x2048 .bf16)
      (constant S512x2048 .f32 0x00000000#32))
    (broadcast S512x2048 (Scalar.ofBits .f32 0x3E000000#32 : Ideal .f32))

/-- The row maxima of the scaled scores. -/
def maxTile (q : Vec Ideal S1x1x512x64 .bf16) (k : Vec Ideal S1x1x2048x64 .bf16) : FVec Ideal S512 .f32 :=
  multiReduction .maximumf [1] S512 (scoreTile q k) 0xFF800000#32 reduces_S512x2048_S512 (.inl rfl) rfl

/-- The exponentials of the scores shifted by their row's maximum. -/
def expTile (q : Vec Ideal S1x1x512x64 .bf16) (k : Vec Ideal S1x1x2048x64 .bf16) : FVec Ideal S512x2048 .f32 :=
  exp (subf (scoreTile q k)
    (broadcastTo S512x2048 (shapeCast S512x1 (maxTile q k) shapeCasts_S512_S512x1 : FVec Ideal S512x1 .f32)
      broadcasts_S512x1_S512x2048))

/-- The row sums of the exponentials. -/
def sumTile (q : Vec Ideal S1x1x512x64 .bf16) (k : Vec Ideal S1x1x2048x64 .bf16) : FVec Ideal S512 .f32 :=
  multiReduction .add [1] S512 (expTile q k) 0x00000000#32 reduces_S512x2048_S512 (.inl rfl) rfl

/-- The weights' payload is the quotient of the exponentials by their row sums, spread over the columns. -/
theorem k3_pay1_eq (q : Vec Ideal S1x1x512x64 .bf16) (k : Vec Ideal S1x1x2048x64 .bf16) :
    k3_pay1 (F := Ideal) q k
      = divf (expTile q k)
          (broadcastTo S512x2048 (shapeCast S512x1 (sumTile q k) shapeCasts_S512_S512x1 : FVec Ideal S512x1 .f32)
            broadcasts_S512x1_S512x2048) := rfl

/-! ## Each matrix read at an entry -/

/-- The scaled scores at `(r, j)`. -/
theorem scoreTile_apply (q : Vec Ideal S1x1x512x64 .bf16) (k : Vec Ideal S1x1x2048x64 .bf16) (r : Fin 512) (j : Fin 2048) :
    scoreTile q k (ix2 r j) = tileScore q k r j := by
  unfold scoreTile tileScore
  rw [mulf_apply, broadcast_apply]
  refine congrArg (fun x : EReal => x * Ideal.ofBits .f32 0x3E000000#32) ?_
  refine (matmul_plain_zero_apply dot_S512x64_S64x2048_S512x2048_1_0_0_1_n_n_wf none _ _ r j).trans ?_
  refine Finset.sum_congr rfl fun d _ => ?_
  rw [transpose_ix2_apply, shapeCast_11ab_ab_apply, shapeCast_11ab_ab_apply]

/-- The row maxima at `r`. -/
theorem maxTile_apply (q : Vec Ideal S1x1x512x64 .bf16) (k : Vec Ideal S1x1x2048x64 .bf16) (r : Fin 512) :
    maxTile q k (ix1 r) = tileMax q k r := by
  unfold maxTile tileMax
  refine (multiReduction_maximumf_rows_apply (scoreTile q k) _ reduces_S512x2048_S512 (.inl rfl) rfl r).trans ?_
  exact congrArg (fun f => (Finset.univ : Finset (Fin 2048)).fold max (Ideal.ofBits .f32 0xFF800000#32) f)
    (funext fun c => scoreTile_apply q k r c)

/-- The shifted exponentials at `(r, j)`. -/
theorem expTile_apply (q : Vec Ideal S1x1x512x64 .bf16) (k : Vec Ideal S1x1x2048x64 .bf16) (r : Fin 512) (j : Fin 2048) :
    expTile q k (ix2 r j) = tileExp q k r j := by
  unfold expTile tileExp
  refine congrArg Ideal.exp ?_
  rw [subf_apply, broadcastTo_a1_ab_apply, shapeCast_a_a1_apply, scoreTile_apply, maxTile_apply]

/-- The row sums at `r`. -/
theorem sumTile_apply (q : Vec Ideal S1x1x512x64 .bf16) (k : Vec Ideal S1x1x2048x64 .bf16) (r : Fin 512) :
    sumTile q k (ix1 r) = ∑ j : Fin 2048, tileExp q k r j := by
  unfold sumTile
  refine (multiReduction_add_rows_apply (expTile q k) _ reduces_S512x2048_S512 (.inl rfl) rfl r).trans ?_
  exact Finset.sum_congr rfl fun c _ => expTile_apply q k r c

/-! ## The payloads read at an entry -/

/-- The tile of attention weights at `(r, j)`. -/
theorem k3_pay1_apply (q : Vec Ideal S1x1x512x64 .bf16) (k : Vec Ideal S1x1x2048x64 .bf16) (r : Fin 512) (j : Fin 2048) :
    k3_pay1 (F := Ideal) q k (ix2 r j) = tileWeight q k r j := by
  rw [k3_pay1_eq, divf_apply, broadcastTo_a1_ab_apply, shapeCast_a_a1_apply, expTile_apply, sumTile_apply]
  rfl

/-- The same tile under two leading unit axes. -/
theorem k3_pay2_apply (q : Vec Ideal S1x1x512x64 .bf16) (k : Vec Ideal S1x1x2048x64 .bf16) (r : Fin 512) (j : Fin 2048) :
    k3_pay2 (F := Ideal) q k (ix4 0 0 r j) = tileWeight q k r j := by
  unfold k3_pay2
  exact (shapeCast_ab_11ab_apply _ shapeCasts_S512x2048_S1x1x512x2048 0 0 r j).trans (k3_pay1_apply q k r j)

/-- The attended values at `(r, d)`: the weights of row `r` against lane `d` of the value rows. -/
theorem k3_pay3_apply (q : Vec Ideal S1x1x512x64 .bf16) (k : Vec Ideal S1x1x2048x64 .bf16) (v : Vec Ideal S1x1x2048x64 .bf16)
    (r : Fin 512) (d : Fin 64) :
    k3_pay3 (F := Ideal) q k v (ix4 0 0 r d) = ∑ j : Fin 2048, tileWeight q k r j * v (ix4 0 0 j d) := by
  unfold k3_pay3
  refine (shapeCast_ab_11ab_apply _ shapeCasts_S512x64_S1x1x512x64 0 0 r d).trans ?_
  rw [truncf_apply]
  refine (matmul_plain_zero_apply dot_S512x2048_S2048x64_S512x64_1_0_0_1_n_n_wf none _ _ r d).trans ?_
  refine Finset.sum_congr rfl fun j _ => ?_
  rw [truncf_apply, k3_pay1_apply, shapeCast_11ab_ab_apply]

end Cert.KernelIdeal.Pay

end
-- ==== Proof.KI.ValAttnTile.lean ====
/-
  A query tile of the attention region against the whole head.

  The region's body works on one tile of 512 query rows of one head against all 2048 keys and values of that head.
  Its payloads are known at an index as the tile's own scaled scores, row maxima, shifted exponentials and weights.
  Here: when the tile's rows are rows `si * 512 + r` of a head `(n, h)` of whole arrays `q`, `k`, `v`, each tile
  quantity is the head's quantity at that row, and so each payload, at a block index, is the whole-array function
  (the attention weights, the attended values) at the array index with the same coordinates moved into the tile.
-/
import proofs.«114834_j83013127897754_2_alg».proof.Proof.KI.PayAttn
import proofs.«114834_j83013127897754_2_alg».proof.Proof.Spec
import Idealize.ShloMosaic.Lib.ValueIdx

noncomputable section

open scoped BigOperators

namespace Cert.KernelIdeal.Val

open Idealize.ShloMosaic Idealize.ShloMosaic.ValueIdx
open Cert.KernelIdeal Cert.KernelIdeal.Gen

/-- Row `r` of query tile `si` is position `si * 512 + r` of the head. -/
def tileRow (si : Fin 4) (r : Fin 512) : Fin 2048 := ⟨si.val * 512 + r.val, by omega⟩

section Tile

variable (q k v : Cert.Mha.Hds) (qt : Vec Ideal S1x1x512x64 .bf16) (kt vt : Vec Ideal S1x1x2048x64 .bf16)
  (n : Fin 2) (h : Fin 16) (si : Fin 4)
  (hq : ∀ (r : Fin 512) (d : Fin 64), qt (ix4 0 0 r d) = q (ix4 n h (tileRow si r) d))
  (hk : ∀ (j : Fin 2048) (d : Fin 64), kt (ix4 0 0 j d) = k (ix4 n h j d))
  (hv : ∀ (j : Fin 2048) (d : Fin 64), vt (ix4 0 0 j d) = v (ix4 n h j d))

include hq hk in
/-- The tile's scaled score is the head's at the tile's row. -/
theorem tileScore_eq (r : Fin 512) (j : Fin 2048) :
    Pay.tileScore qt kt r j = Cert.Mha.scoreAt q k n h (tileRow si r) j := by
  unfold Pay.tileScore Cert.Mha.scoreAt
  exact congrArg (· * Ideal.ofBits .f32 0x3E000000#32) (Finset.sum_congr rfl fun d _ => by rw [hq r d, hk j d])

include hq hk in
/-- The tile's row maximum is the head's. -/
theorem tileMax_eq (r : Fin 512) : Pay.tileMax qt kt r = Cert.Mha.rowMaxAt q k n h (tileRow si r) := by
  unfold Pay.tileMax Cert.Mha.rowMaxAt
  exact Finset.fold_congr fun j _ => tileScore_eq q k qt kt n h si hq hk r j

include hq hk in
/-- The tile's shifted exponential is the head's. -/
theorem tileExp_eq (r : Fin 512) (j : Fin 2048) :
    Pay.tileExp qt kt r j = Cert.Mha.expAt q k n h (tileRow si r) j := by
  unfold Pay.tileExp Cert.Mha.expAt
  rw [tileScore_eq q k qt kt n h si hq hk r j, tileMax_eq q k qt kt n h si hq hk r]

include hq hk in
/-- The tile's attention weight is the head's: the same exponential over the same normaliser. -/
theorem tileWeight_eq (r : Fin 512) (j : Fin 2048) :
    Pay.tileWeight qt kt r j = Cert.Mha.weightAt q k n h (tileRow si r) j := by
  unfold Pay.tileWeight Cert.Mha.weightAt Cert.Mha.denAt
  rw [tileExp_eq q k qt kt n h si hq hk r j]
  exact congrArg (Ideal.div _) (Finset.sum_congr rfl fun j' _ => tileExp_eq q k qt kt n h si hq hk r j')

include hq hk in
/-- The weights payload of tile `(n, h, si)` at a block index is the head's attention weights at the array index
    with the same coordinates moved into the tile. -/
theorem weights_tile (j : S1x1x512x2048.Idx) (i : (⟨4, ![2, 16, 2048, 2048]⟩ : Shape).Idx)
    (e0 : (i 0).val = n.val) (e1 : (i 1).val = h.val) (e2 : (i 2).val = si.val * 512 + (j 2).val)
    (e3 : (i 3).val = (j 3).val) :
    k3_pay2 (F := Ideal) qt kt j = Cert.Mha.weights q k i := by
  obtain ⟨r, jj, rfl⟩ : ∃ (r : Fin 512) (jj : Fin 2048), j = ix4 (0 : Fin 1) (0 : Fin 1) r jj :=
    ⟨j 2, j 3, funext fun a => by
      match a with
      | ⟨0, _⟩ => exact Fin.ext (Nat.lt_one_iff.mp (j 0).isLt)
      | ⟨1, _⟩ => exact Fin.ext (Nat.lt_one_iff.mp (j 1).isLt)
      | ⟨2, _⟩ => rfl
      | ⟨3, _⟩ => rfl⟩
  have i0 : i 0 = n := Fin.ext e0
  have i1 : i 1 = h := Fin.ext e1
  have i2 : i 2 = tileRow si r := Fin.ext e2
  have i3 : i 3 = jj := Fin.ext e3
  show _ = Cert.Mha.weightAt q k (i 0) (i 1) (i 2) (i 3)
  rw [i0, i1, i2, i3]
  exact (Pay.k3_pay2_apply qt kt r jj).trans (tileWeight_eq q k qt kt n h si hq hk r jj)

include hq hk hv in
/-- The output payload of tile `(n, h, si)` at a block index is the head's attended values at the array index. -/
theorem attend_tile (j : S1x1x512x64.Idx) (i : (⟨4, ![2, 16, 2048, 64]⟩ : Shape).Idx)
    (e0 : (i 0).val = n.val) (e1 : (i 1).val = h.val) (e2 : (i 2).val = si.val * 512 + (j 2).val)
    (e3 : (i 3).val = (j 3).val) :
    k3_pay3 (F := Ideal) qt kt vt j = Cert.Mha.attend (Cert.Mha.weights q k) v i := by
  obtain ⟨r, d, rfl⟩ : ∃ (r : Fin 512) (d : Fin 64), j = ix4 (0 : Fin 1) (0 : Fin 1) r d :=
    ⟨j 2, j 3, funext fun a => by
      match a with
      | ⟨0, _⟩ => exact Fin.ext (Nat.lt_one_iff.mp (j 0).isLt)
      | ⟨1, _⟩ => exact Fin.ext (Nat.lt_one_iff.mp (j 1).isLt)
      | ⟨2, _⟩ => rfl
      | ⟨3, _⟩ => rfl⟩
  have i0 : i 0 = n := Fin.ext e0
  have i1 : i 1 = h := Fin.ext e1
  have i2 : i 2 = tileRow si r := Fin.ext e2
  have i3 : i 3 = d := Fin.ext e3
  show _ = Cert.Mha.attendAt (Cert.Mha.weights q k) v (i 0) (i 1) (i 2) (i 3)
  rw [i0, i1, i2, i3]
  refine (Pay.k3_pay3_apply qt kt vt r d).trans ?_
  unfold Cert.Mha.attendAt
  refine Finset.sum_congr rfl fun jj _ => ?_
  rw [tileWeight_eq q k qt kt n h si hq hk r jj, hv jj d]
  rfl

end Tile

end Cert.KernelIdeal.Val

end
-- ==== Proof.KI.ValAttnIdx.lean ====
/-
  The attention region's index maps over its grid.

  The region's grid is `[2, 16, 4]` = (batch, head, query tile), 128 points. Decided once over the points: the
  query tile and both output tiles sit at block `(n, h, si, 0)` of their arrays, the keys and the values at block
  `(n, h, 0, 0)`; the block indices stay in their ranges; and every block `(n, h, si, 0)` is some point's.
-/
import proofs.«114834_j83013127897754_2_alg».proof.Proof.Gen.KernelIdeal.Launch

set_option maxRecDepth 16384

namespace Cert.KernelIdeal.Val

open Idealize.ShloMosaic
open Cert.KernelIdeal

/-- Four zero offsets, as the constant function. -/
theorem zero4 : (![0, 0, 0, 0] : Fin 4 → Nat) = fun _ => 0 := funext fun a => by fin_cases a <;> rfl

/-- The printed index maps, decided over the grid: the query tile and both output tiles sit at the same block
    `(n, h, si, 0)`, the keys and the values at `(n, h, 0, 0)`, and the block indices stay in their ranges. -/
theorem idx_facts3 : ∀ t : Fin cfg3.N,
    (win3_0.index t (0 : Fin 4) = win3_4.index t (0 : Fin 4) ∧ win3_0.index t (1 : Fin 4) = win3_4.index t (1 : Fin 4)
      ∧ win3_0.index t (2 : Fin 4) = win3_4.index t (2 : Fin 4) ∧ win3_0.index t (3 : Fin 4) = 0)
    ∧ (win3_1.index t (0 : Fin 4) = win3_4.index t (0 : Fin 4) ∧ win3_1.index t (1 : Fin 4) = win3_4.index t (1 : Fin 4)
      ∧ win3_1.index t (2 : Fin 4) = 0 ∧ win3_1.index t (3 : Fin 4) = 0)
    ∧ (win3_2.index t (0 : Fin 4) = win3_4.index t (0 : Fin 4) ∧ win3_2.index t (1 : Fin 4) = win3_4.index t (1 : Fin 4)
      ∧ win3_2.index t (2 : Fin 4) = 0 ∧ win3_2.index t (3 : Fin 4) = 0)
    ∧ (win3_3.index t (0 : Fin 4) = win3_4.index t (0 : Fin 4) ∧ win3_3.index t (1 : Fin 4) = win3_4.index t (1 : Fin 4)
      ∧ win3_3.index t (2 : Fin 4) = win3_4.index t (2 : Fin 4) ∧ win3_3.index t (3 : Fin 4) = 0)
    ∧ (win3_4.index t (0 : Fin 4) ≤ 1 ∧ win3_4.index t (1 : Fin 4) ≤ 15 ∧ win3_4.index t (2 : Fin 4) ≤ 3
      ∧ win3_4.index t (3 : Fin 4) = 0) :=
  (by decide +kernel : ∀ t : Fin grid3.N, _)

/-- Every block `(n, h, si, 0)` is some point's. -/
theorem idx_onto3 : ∀ (q0 : Fin 2) (q1 : Fin 16) (q2 : Fin 4), ∃ t : Fin cfg3.N,
    win3_4.index t = ![q0.val, q1.val, q2.val, 0] :=
  (by decide +kernel : ∀ (q0 : Fin 2) (q1 : Fin 16) (q2 : Fin 4), ∃ t : Fin grid3.N, win3_4.index t = ![q0.val, q1.val, q2.val, 0])

end Cert.KernelIdeal.Val
-- ==== Proof.KI.ValAttn.lean ====
/-
  The attention region's two output arrays as whole-array functions of the arrays the region finds.

  The region runs its body at the 128 points `(n, h, si)` of its grid on a tile of 512 query rows of head `(n, h)`
  against all keys and values of that head, and writes back a `[512, 2048]` tile of attention weights and a
  `[512, 64]` tile of attended values. Each input block is its array read at the block's coordinates (index × size +
  the coordinate inside the block); so what a point writes back is its block of ONE function of the whole arrays —
  the row softmax of the scaled scores, and those weights applied to the values; the blocks cover each output array
  (the point of an index is its batch, its head and its row divided by 512); hence each output array after the
  region is that function.
-/
import proofs.«114834_j83013127897754_2_alg».proof.Proof.KI.AttnDefs
import proofs.«114834_j83013127897754_2_alg».proof.Proof.KI.PayAttn
import proofs.«114834_j83013127897754_2_alg».proof.Proof.KI.ValAttnTile
import proofs.«114834_j83013127897754_2_alg».proof.Proof.KI.ValAttnIdx
import proofs.«114834_j83013127897754_2_alg».proof.Proof.Spec
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.ValueIdx Idealize.ShloMosaic.TcCoe
open Idealize.ShloMosaic.Pipeline (Dat)
open Cert.KernelIdeal Cert.KernelIdeal.Gen

section Region

-- the TensorCore's buffer contents when the region is entered
variable (V : (c : Dev nD) → (b : Ref sig .tc) → Buf (Elt Ideal) ((c : Thread nD τ).loc b))

/-! ## The input blocks as pieces of their arrays -/

/-- The query tile at point `t`, read at `(0, 0, r, d)`, is the query array at the block's coordinates. -/
theorem qtile_apply (c : Dev nD) (t : Fin cfg3.N) (r : Fin 512) (d : Fin 64) (i : S2x16x2048x64.Idx)
    (h0 : (i 0).val = win3_0.index t (0 : Fin 4)) (h1 : (i 1).val = win3_0.index t (1 : Fin 4))
    (h2 : (i 2).val = win3_0.index t (2 : Fin 4) * 512 + r.val) (h3 : (i 3).val = win3_0.index t (3 : Fin 4) * 64 + d.val) :
    (Hand.iblk3 V c 0 t : Vec Ideal S1x1x512x64 .bf16) (ix4 0 0 r d) = (V c main_v9 : S2x16x2048x64.Idx → EReal) i := by
  unfold Hand.iblk3
  rw [View.read_apply]
  show V c main_v9 _ = V c main_v9 _
  congr 1
  funext a
  apply Fin.ext
  match a with
  | ⟨0, _⟩ => show win3_0.index t (0 : Fin 4) * 1 + 1 * 0 = (i 0).val; omega
  | ⟨1, _⟩ => show win3_0.index t (1 : Fin 4) * 1 + 1 * 0 = (i 1).val; omega
  | ⟨2, _⟩ => show win3_0.index t (2 : Fin 4) * 512 + 1 * r.val = (i 2).val; omega
  | ⟨3, _⟩ => show win3_0.index t (3 : Fin 4) * 64 + 1 * d.val = (i 3).val; omega

/-- The keys' block at point `t`, read at `(0, 0, j, d)`, is the key array at the block's coordinates. -/
theorem ktile_apply (c : Dev nD) (t : Fin cfg3.N) (j : Fin 2048) (d : Fin 64) (i : S2x16x2048x64.Idx)
    (h0 : (i 0).val = win3_1.index t (0 : Fin 4)) (h1 : (i 1).val = win3_1.index t (1 : Fin 4))
    (h2 : (i 2).val = win3_1.index t (2 : Fin 4) * 2048 + j.val) (h3 : (i 3).val = win3_1.index t (3 : Fin 4) * 64 + d.val) :
    (Hand.iblk3 V c 1 t : Vec Ideal S1x1x2048x64 .bf16) (ix4 0 0 j d) = (V c main_v10 : S2x16x2048x64.Idx → EReal) i := by
  unfold Hand.iblk3
  rw [View.read_apply]
  show V c main_v10 _ = V c main_v10 _
  congr 1
  funext a
  apply Fin.ext
  match a with
  | ⟨0, _⟩ => show win3_1.index t (0 : Fin 4) * 1 + 1 * 0 = (i 0).val; omega
  | ⟨1, _⟩ => show win3_1.index t (1 : Fin 4) * 1 + 1 * 0 = (i 1).val; omega
  | ⟨2, _⟩ => show win3_1.index t (2 : Fin 4) * 2048 + 1 * j.val = (i 2).val; omega
  | ⟨3, _⟩ => show win3_1.index t (3 : Fin 4) * 64 + 1 * d.val = (i 3).val; omega

/-- The values' block at point `t`, read at `(0, 0, j, d)`, is the value array at the block's coordinates. -/
theorem vtile_apply (c : Dev nD) (t : Fin cfg3.N) (j : Fin 2048) (d : Fin 64) (i : S2x16x2048x64.Idx)
    (h0 : (i 0).val = win3_2.index t (0 : Fin 4)) (h1 : (i 1).val = win3_2.index t (1 : Fin 4))
    (h2 : (i 2).val = win3_2.index t (2 : Fin 4) * 2048 + j.val) (h3 : (i 3).val = win3_2.index t (3 : Fin 4) * 64 + d.val) :
    (Hand.iblk3 V c 2 t : Vec Ideal S1x1x2048x64 .bf16) (ix4 0 0 j d) = (V c main_v11 : S2x16x2048x64.Idx → EReal) i := by
  unfold Hand.iblk3
  rw [View.read_apply]
  show V c main_v11 _ = V c main_v11 _
  congr 1
  funext a
  apply Fin.ext
  match a with
  | ⟨0, _⟩ => show win3_2.index t (0 : Fin 4) * 1 + 1 * 0 = (i 0).val; omega
  | ⟨1, _⟩ => show win3_2.index t (1 : Fin 4) * 1 + 1 * 0 = (i 1).val; omega
  | ⟨2, _⟩ => show win3_2.index t (2 : Fin 4) * 2048 + 1 * j.val = (i 2).val; omega
  | ⟨3, _⟩ => show win3_2.index t (3 : Fin 4) * 64 + 1 * d.val = (i 3).val; omega

/-! ## The attention weights: what a point writes back, the cover, the array -/

/-- What point `t` writes back into the attention-weights array is block `t` of the row softmax of the scaled
    scores of the query and key arrays. -/
theorem flushed_weights (c : Dev nD) (t : Fin cfg3.N) :
    (Hand.dat3 (F := Ideal) V c).flushed 4 t
      = ((cfg3.win 4).blk t).view.read (Elt Ideal) (Cert.Mha.weights (V c main_v9) (V c main_v10)) := by
  show (cfg3.win 4).cut (grid3.coords t) ((Hand.dat3 (F := Ideal) V c).after 4 t) = _
  rw [Hand.after3_4]
  unfold Hand.out3_4
  rw [View.canon_unit_zero zero4]
  simp only [View.ld_unit_zero (S := S1x1x512x64) zero4, View.ld_unit_zero (S := S1x1x2048x64) zero4]
  obtain ⟨⟨a0, a1, a2, a3⟩, ⟨b0, b1, b2, b3⟩, -, -, ⟨l0, l1, l2, l3⟩⟩ := idx_facts3 t
  funext j
  show k3_pay2 (F := Ideal) (Hand.iblk3 V c 0 t) (Hand.iblk3 V c 1 t) j
    = Cert.Mha.weights (V c main_v9) (V c main_v10) (((cfg3.win 4).blk t).view.emb j)
  refine weights_tile (V c main_v9) (V c main_v10) (Hand.iblk3 V c 0 t) (Hand.iblk3 V c 1 t)
    ⟨win3_4.index t (0 : Fin 4), by omega⟩ ⟨win3_4.index t (1 : Fin 4), by omega⟩ ⟨win3_4.index t (2 : Fin 4), by omega⟩
    (fun r d => qtile_apply V c t r d _ ?_ ?_ ?_ ?_) (fun jj d => ktile_apply V c t jj d _ ?_ ?_ ?_ ?_) j _ ?_ ?_ ?_ ?_
  · exact a0.symm
  · exact a1.symm
  · show win3_4.index t (2 : Fin 4) * 512 + r.val = win3_0.index t (2 : Fin 4) * 512 + r.val; rw [a2]
  · show d.val = win3_0.index t (3 : Fin 4) * 64 + d.val; rw [a3]; omega
  · exact b0.symm
  · exact b1.symm
  · show jj.val = win3_1.index t (2 : Fin 4) * 2048 + jj.val; rw [b2]; omega
  · show d.val = win3_1.index t (3 : Fin 4) * 64 + d.val; rw [b3]; omega
  · show win3_4.index t (0 : Fin 4) * 1 + 1 * (j 0).val = win3_4.index t (0 : Fin 4)
    have := Nat.lt_one_iff.mp (j 0).isLt; omega
  · show win3_4.index t (1 : Fin 4) * 1 + 1 * (j 1).val = win3_4.index t (1 : Fin 4)
    have := Nat.lt_one_iff.mp (j 1).isLt; omega
  · show win3_4.index t (2 : Fin 4) * 512 + 1 * (j 2).val = win3_4.index t (2 : Fin 4) * 512 + (j 2).val; omega
  · show win3_4.index t (3 : Fin 4) * 2048 + 1 * (j 3).val = (j 3).val; rw [l3]; omega

/-- An index of the attention-weights array is in point `t`'s block iff each coordinate is in the block's range. -/
theorem mem_blk_weights (t : Fin cfg3.N) (i : S2x16x2048x2048.Idx) :
    i ∈ ((cfg3.win 4).blk t).view.set ↔ ∀ a : Fin 4, win3_4.index t a * S1x1x512x2048.size a ≤ (i a).val
      ∧ (i a).val < win3_4.index t a * S1x1x512x2048.size a + S1x1x512x2048.size a := by
  show i ∈ ((View.whole main_v12_1).slice (win3_4.rect t)).set ↔ _
  rw [View.set_slice_whole, Rect.mem_set_unit]
  exact Iff.rfl

/-- Every index of the attention-weights array is in some point's block: the block of its batch, head and
    query tile. -/
theorem cover_weights (i : S2x16x2048x2048.Idx) :
    ∃ t : Fin cfg3.N, (cfg3.win 4).flush t = true ∧ i ∈ ((cfg3.win 4).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto3 ⟨(i 0).val, hi0⟩ ⟨(i 1).val, hi1⟩ ⟨(i 2).val / 512, by omega⟩
  have q0 : win3_4.index t (0 : Fin 4) = (i 0).val := congrFun ht 0
  have q1 : win3_4.index t (1 : Fin 4) = (i 1).val := congrFun ht 1
  have q2 : win3_4.index t (2 : Fin 4) = (i 2).val / 512 := congrFun ht 2
  have q3 : win3_4.index t (3 : Fin 4) = 0 := congrFun ht 3
  refine ⟨t, flush3_4 t, ?_⟩
  rw [mem_blk_weights]
  intro a
  match a with
  | ⟨0, _⟩ => show win3_4.index t (0 : Fin 4) * 1 ≤ (i 0).val ∧ (i 0).val < win3_4.index t (0 : Fin 4) * 1 + 1; omega
  | ⟨1, _⟩ => show win3_4.index t (1 : Fin 4) * 1 ≤ (i 1).val ∧ (i 1).val < win3_4.index t (1 : Fin 4) * 1 + 1; omega
  | ⟨2, _⟩ => show win3_4.index t (2 : Fin 4) * 512 ≤ (i 2).val ∧ (i 2).val < win3_4.index t (2 : Fin 4) * 512 + 512; omega
  | ⟨3, _⟩ => show win3_4.index t (3 : Fin 4) * 2048 ≤ (i 3).val ∧ (i 3).val < win3_4.index t (3 : Fin 4) * 2048 + 2048; omega

/-- The attention-weights array after the region: the row softmax of the scaled scores of the query and key
    arrays the region finds. -/
theorem final3_weights (c : Dev nD) :
    (Hand.dat3 (F := Ideal) V c).arrAt 4 cfg3.N = Cert.Mha.weights (V c main_v9) (V c main_v10) :=
  (Hand.dat3 (F := Ideal) V c).arrAt_eq_of_cover 4 (Cert.Mha.weights (V c main_v9) (V c main_v10))
    (fun t _ => flushed_weights V c t) cover_weights

/-! ## The attention output: what a point writes back, the cover, the array -/

/-- What point `t` writes back into the attention-output array is block `t` of the attended values: the
    attention weights of the query and key arrays against the value array. -/
theorem flushed_out (c : Dev nD) (t : Fin cfg3.N) :
    (Hand.dat3 (F := Ideal) V c).flushed 3 t
      = ((cfg3.win 3).blk t).view.read (Elt Ideal)
          (Cert.Mha.attend (Cert.Mha.weights (V c main_v9) (V c main_v10)) (V c main_v11)) := by
  show (cfg3.win 3).cut (grid3.coords t) ((Hand.dat3 (F := Ideal) V c).after 3 t) = _
  rw [Hand.after3_3]
  unfold Hand.out3_3
  rw [View.canon_unit_zero zero4]
  simp only [View.ld_unit_zero (S := S1x1x512x64) zero4, View.ld_unit_zero (S := S1x1x2048x64) zero4]
  obtain ⟨⟨a0, a1, a2, a3⟩, ⟨b0, b1, b2, b3⟩, ⟨v0, v1, v2, v3⟩, ⟨o0, o1, o2, o3⟩, ⟨l0, l1, l2, l3⟩⟩ := idx_facts3 t
  funext j
  show k3_pay3 (F := Ideal) (Hand.iblk3 V c 0 t) (Hand.iblk3 V c 1 t) (Hand.iblk3 V c 2 t) j
    = Cert.Mha.attend (Cert.Mha.weights (V c main_v9) (V c main_v10)) (V c main_v11) (((cfg3.win 3).blk t).view.emb j)
  refine attend_tile (V c main_v9) (V c main_v10) (V c main_v11) (Hand.iblk3 V c 0 t) (Hand.iblk3 V c 1 t) (Hand.iblk3 V c 2 t)
    ⟨win3_4.index t (0 : Fin 4), by omega⟩ ⟨win3_4.index t (1 : Fin 4), by omega⟩ ⟨win3_4.index t (2 : Fin 4), by omega⟩
    (fun r d => qtile_apply V c t r d _ ?_ ?_ ?_ ?_) (fun jj d => ktile_apply V c t jj d _ ?_ ?_ ?_ ?_)
    (fun jj d => vtile_apply V c t jj d _ ?_ ?_ ?_ ?_) j _ ?_ ?_ ?_ ?_
  · exact a0.symm
  · exact a1.symm
  · show win3_4.index t (2 : Fin 4) * 512 + r.val = win3_0.index t (2 : Fin 4) * 512 + r.val; rw [a2]
  · show d.val = win3_0.index t (3 : Fin 4) * 64 + d.val; rw [a3]; omega
  · exact b0.symm
  · exact b1.symm
  · show jj.val = win3_1.index t (2 : Fin 4) * 2048 + jj.val; rw [b2]; omega
  · show d.val = win3_1.index t (3 : Fin 4) * 64 + d.val; rw [b3]; omega
  · exact v0.symm
  · exact v1.symm
  · show jj.val = win3_2.index t (2 : Fin 4) * 2048 + jj.val; rw [v2]; omega
  · show d.val = win3_2.index t (3 : Fin 4) * 64 + d.val; rw [v3]; omega
  · show win3_3.index t (0 : Fin 4) * 1 + 1 * (j 0).val = win3_4.index t (0 : Fin 4)
    have := Nat.lt_one_iff.mp (j 0).isLt; omega
  · show win3_3.index t (1 : Fin 4) * 1 + 1 * (j 1).val = win3_4.index t (1 : Fin 4)
    have := Nat.lt_one_iff.mp (j 1).isLt; omega
  · show win3_3.index t (2 : Fin 4) * 512 + 1 * (j 2).val = win3_4.index t (2 : Fin 4) * 512 + (j 2).val; omega
  · show win3_3.index t (3 : Fin 4) * 64 + 1 * (j 3).val = (j 3).val; rw [o3]; omega

/-- An index of the attention-output array is in point `t`'s block iff each coordinate is in the block's range. -/
theorem mem_blk_out (t : Fin cfg3.N) (i : S2x16x2048x64.Idx) :
    i ∈ ((cfg3.win 3).blk t).view.set ↔ ∀ a : Fin 4, win3_3.index t a * S1x1x512x64.size a ≤ (i a).val
      ∧ (i a).val < win3_3.index t a * S1x1x512x64.size a + S1x1x512x64.size a := by
  show i ∈ ((View.whole main_v12_0).slice (win3_3.rect t)).set ↔ _
  rw [View.set_slice_whole, Rect.mem_set_unit]
  exact Iff.rfl

/-- Every index of the attention-output array is in some point's block: the block of its batch, head and
    query tile. -/
theorem cover_out (i : S2x16x2048x64.Idx) :
    ∃ t : Fin cfg3.N, (cfg3.win 3).flush t = true ∧ i ∈ ((cfg3.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto3 ⟨(i 0).val, hi0⟩ ⟨(i 1).val, hi1⟩ ⟨(i 2).val / 512, by omega⟩
  have q0 : win3_4.index t (0 : Fin 4) = (i 0).val := congrFun ht 0
  have q1 : win3_4.index t (1 : Fin 4) = (i 1).val := congrFun ht 1
  have q2 : win3_4.index t (2 : Fin 4) = (i 2).val / 512 := congrFun ht 2
  obtain ⟨-, -, -, ⟨o0, o1, o2, o3⟩, -⟩ := idx_facts3 t
  refine ⟨t, flush3_3 t, ?_⟩
  rw [mem_blk_out]
  intro a
  match a with
  | ⟨0, _⟩ => show win3_3.index t (0 : Fin 4) * 1 ≤ (i 0).val ∧ (i 0).val < win3_3.index t (0 : Fin 4) * 1 + 1; omega
  | ⟨1, _⟩ => show win3_3.index t (1 : Fin 4) * 1 ≤ (i 1).val ∧ (i 1).val < win3_3.index t (1 : Fin 4) * 1 + 1; omega
  | ⟨2, _⟩ => show win3_3.index t (2 : Fin 4) * 512 ≤ (i 2).val ∧ (i 2).val < win3_3.index t (2 : Fin 4) * 512 + 512; omega
  | ⟨3, _⟩ => show win3_3.index t (3 : Fin 4) * 64 ≤ (i 3).val ∧ (i 3).val < win3_3.index t (3 : Fin 4) * 64 + 64; omega

/-- The attention-output array after the region: the attended values — the attention weights of the query and key
    arrays the region finds against the value array it finds. -/
theorem final3_out (c : Dev nD) :
    (Hand.dat3 (F := Ideal) V c).arrAt 3 cfg3.N
      = Cert.Mha.attend (Cert.Mha.weights (V c main_v9) (V c main_v10)) (V c main_v11) :=
  (Hand.dat3 (F := Ideal) V c).arrAt_eq_of_cover 3
    (Cert.Mha.attend (Cert.Mha.weights (V c main_v9) (V c main_v10)) (V c main_v11))
    (fun t _ => flushed_out V c t) cover_out

end Region

end Cert.KernelIdeal.Val

end
-- ==== Proof.KI.ValOutPieces.lean ====
/- The head-accumulating output projection (pipeline 4), for any float instance: what each control case's stores leave
   in the carried accumulator and in the output's buffer as the body's payloads of the blocks, and the blocks the windows
   read at a point in the arrays' own coordinates. -/
import proofs.«114834_j83013127897754_2_alg».proof.Proof.KI.OutProj
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Hand

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What each case's stores leave, as values of the blocks -/

/-- The first head leaves in the accumulator the zero fill plus the head's product. -/
theorem sout_A (c : Dev nD) (i : grid4.Coords) (a3 : Memref sig .tc .vmem S1x1x512x64 .bf16) (h3 : a3.IsWhole) (a4 : Memref sig .tc .vmem S1x64x1024 .f32) (h4 : a4.IsWhole) (a5 : Memref sig .tc .vmem S1x1024 .f32) (h5 : a5.IsWhole) (a6 : Memref sig .tc .vmem S1x512x1024 .f32) (h6 : a6.IsWhole) (a7 : Memref sig .tc .vmem S512x1024 .f32) (h7 : a7.IsWhole) (hc0 : cond4_0 i) (hc1 : ¬cond4_1 i)
    (x0 : Vec F S1x1x512x64 .bf16) (x1 : Vec F S1x64x1024 .f32) (x2 : Vec F S1x1024 .f32) :
    sout4_A_0 c i a3 h3 a4 h4 a5 h5 a6 h6 a7 h7 hc0 hc1 x0 x1 x2 = k4_pay2 x0 x1 (k4_pay1 (F := F)) := by
  unfold sout4_A_0
  rw [View.read_writes_eq_canon _ _ _ (scover4_A_0 c i a3 h3 a4 h4 a5 h5 a6 h6 a7 h7 hc0 hc1 x0 x1 x2)]
  unfold kernelRun4_A
  dsimp only
  sl_unfold_words
  rw [View.canon_cons_unit_zero (S := S512x1024) hz2, View.readCov_unit_zero (S := S512x1024) _ hz2]
  simp only [View.readAt_eq_ld, h3.read_unread, h4.read_unread, h5.read_unread, h7.read_unread,
    View.ld_unit_zero (S := S1x1x512x64) hz4, View.ld_unit_zero (S := S1x64x1024) hz3, View.ld_unit_zero (S := S1x1024) hz2,
    View.ld_unit_zero (S := S512x1024) hz2]

/-- A middle head leaves in the accumulator what it held plus the head's product. -/
theorem sout_B (c : Dev nD) (i : grid4.Coords) (a3 : Memref sig .tc .vmem S1x1x512x64 .bf16) (h3 : a3.IsWhole) (a4 : Memref sig .tc .vmem S1x64x1024 .f32) (h4 : a4.IsWhole) (a5 : Memref sig .tc .vmem S1x1024 .f32) (h5 : a5.IsWhole) (a6 : Memref sig .tc .vmem S1x512x1024 .f32) (h6 : a6.IsWhole) (a7 : Memref sig .tc .vmem S512x1024 .f32) (h7 : a7.IsWhole) (hc0 : ¬cond4_0 i) (hc1 : ¬cond4_1 i)
    (x0 : Vec F S1x1x512x64 .bf16) (x1 : Vec F S1x64x1024 .f32) (x2 : Vec F S1x1024 .f32) (xs0 : Vec F S512x1024 .f32) :
    sout4_B_0 c i a3 h3 a4 h4 a5 h5 a6 h6 a7 h7 hc0 hc1 x0 x1 x2 xs0 = k4_pay2 x0 x1 xs0 := by
  unfold sout4_B_0
  rw [View.read_writes_eq_canon _ _ _ (scover4_B_0 c i a3 h3 a4 h4 a5 h5 a6 h6 a7 h7 hc0 hc1 x0 x1 x2 xs0)]
  unfold kernelRun4_B
  dsimp only
  rw [View.canon_unit_zero hz2]
  simp only [View.readAt_eq_ld, h3.read_unread, h4.read_unread, h5.read_unread, h7.read_unread,
    View.ld_unit_zero (S := S1x1x512x64) hz4, View.ld_unit_zero (S := S1x64x1024) hz3, View.ld_unit_zero (S := S1x1024) hz2,
    View.ld_unit_zero (S := S512x1024) hz2]

/-- The last head leaves the same in the accumulator, -/
theorem sout_C (c : Dev nD) (i : grid4.Coords) (a3 : Memref sig .tc .vmem S1x1x512x64 .bf16) (h3 : a3.IsWhole) (a4 : Memref sig .tc .vmem S1x64x1024 .f32) (h4 : a4.IsWhole) (a5 : Memref sig .tc .vmem S1x1024 .f32) (h5 : a5.IsWhole) (a6 : Memref sig .tc .vmem S1x512x1024 .f32) (h6 : a6.IsWhole) (a7 : Memref sig .tc .vmem S512x1024 .f32) (h7 : a7.IsWhole) (hc0 : ¬cond4_0 i) (hc1 : cond4_1 i)
    (x0 : Vec F S1x1x512x64 .bf16) (x1 : Vec F S1x64x1024 .f32) (x2 : Vec F S1x1024 .f32) (xs0 : Vec F S512x1024 .f32) :
    sout4_C_0 c i a3 h3 a4 h4 a5 h5 a6 h6 a7 h7 hc0 hc1 x0 x1 x2 xs0 = k4_pay2 x0 x1 xs0 := by
  unfold sout4_C_0
  rw [View.read_writes_eq_canon _ _ _ (scover4_C_0 c i a3 h3 a4 h4 a5 h5 a6 h6 a7 h7 hc0 hc1 x0 x1 x2 xs0)]
  unfold kernelRun4_C
  dsimp only
  sl_unfold_words
  rw [View.canon_unit_zero hz2]
  simp only [View.readAt_eq_ld, h3.read_unread, h4.read_unread, h5.read_unread, h7.read_unread,
    View.ld_unit_zero (S := S1x1x512x64) hz4, View.ld_unit_zero (S := S1x64x1024) hz3, View.ld_unit_zero (S := S1x1024) hz2,
    View.ld_unit_zero (S := S512x1024) hz2]

/-- and in the output's buffer the accumulator (read back after the head's product was added) plus the bias row. -/
theorem out_C (c : Dev nD) (i : grid4.Coords) (a3 : Memref sig .tc .vmem S1x1x512x64 .bf16) (h3 : a3.IsWhole) (a4 : Memref sig .tc .vmem S1x64x1024 .f32) (h4 : a4.IsWhole) (a5 : Memref sig .tc .vmem S1x1024 .f32) (h5 : a5.IsWhole) (a6 : Memref sig .tc .vmem S1x512x1024 .f32) (h6 : a6.IsWhole) (a7 : Memref sig .tc .vmem S512x1024 .f32) (h7 : a7.IsWhole) (hc0 : ¬cond4_0 i) (hc1 : cond4_1 i)
    (x0 : Vec F S1x1x512x64 .bf16) (x1 : Vec F S1x64x1024 .f32) (x2 : Vec F S1x1024 .f32) (xs0 : Vec F S512x1024 .f32) :
    out4_C_3 c i a3 h3 a4 h4 a5 h5 a6 h6 a7 h7 hc0 hc1 x0 x1 x2 xs0 = k4_pay3 (k4_pay2 x0 x1 xs0) x2 := by
  unfold out4_C_3
  rw [View.read_writes_eq_canon _ _ _ (cover4_C_3 c i a3 h3 a4 h4 a5 h5 a6 h6 a7 h7 hc0 hc1 x0 x1 x2 xs0)]
  unfold kernelRun4_C
  dsimp only
  sl_unfold_words
  rw [View.canon_unit_zero hz3, View.readCov_unit_zero (S := S512x1024) _ hz2]
  simp only [View.readAt_eq_ld, h3.read_unread, h4.read_unread, h5.read_unread, h7.read_unread,
    View.ld_unit_zero (S := S1x1x512x64) hz4, View.ld_unit_zero (S := S1x64x1024) hz3, View.ld_unit_zero (S := S1x1024) hz2,
    View.ld_unit_zero (S := S512x1024) hz2]

variable (V : (c : Dev nD) → (b : Ref sig .tc) → Buf (Elt F) ((c : Thread nD τ).loc b))

/-! ## The blocks the windows read, in the arrays' coordinates

The grid is [2, 4, 16] = (batch, position tile, head), the head innermost: point `t` is batch `t / 64`, position tile
`t / 16 % 4`, head `t % 16`. -/

/-- The printed index maps, decided over the grid. -/
theorem idx4 : ∀ t : Fin cfg4.N,
    win4_0.index t (0 : Fin 4) = t.val / 64 ∧ win4_0.index t (1 : Fin 4) = t.val % 16
    ∧ win4_0.index t (2 : Fin 4) = t.val / 16 % 4 ∧ win4_0.index t (3 : Fin 4) = 0
    ∧ win4_1.index t (0 : Fin 3) = t.val % 16 ∧ win4_1.index t (1 : Fin 3) = 0 ∧ win4_1.index t (2 : Fin 3) = 0
    ∧ win4_2.index t (0 : Fin 2) = 0 ∧ win4_2.index t (1 : Fin 2) = 0
    ∧ win4_3.index t (0 : Fin 3) = t.val / 64 ∧ win4_3.index t (1 : Fin 3) = t.val / 16 % 4 ∧ win4_3.index t (2 : Fin 3) = 0 :=
  (by decide +kernel : ∀ t : Fin grid4.N, _)

/-- Window 0's block at point `t` is rows `512 · tile … 512 · tile + 511` of the point's batch and head. -/
theorem blk0_apply (c : Dev nD) (t : Fin cfg4.N) (r : Fin 512) (d : Fin 64) (nb : Fin 2) (h : Fin 16) (s : Fin 2048)
    (hn : nb.val = t.val / 64) (hh : h.val = t.val % 16) (hs : s.val = t.val / 16 % 4 * 512 + r.val) :
    (iblk4 V c 0 t : Vec F S1x1x512x64 .bf16) (ix4 0 0 r d) = V c main_v12_0 (ix4 nb h s d) := by
  obtain ⟨e0, e1, e2, e3, -⟩ := idx4 t
  show V c main_v12_0 (((cfg4.win 0).blk t).view.emb (ix4 0 0 r d)) = V c main_v12_0 (ix4 nb h s d)
  refine congrArg _ (funext fun a => Fin.ext ?_)
  match a with
  | ⟨0, _⟩ => show win4_0.index t (0 : Fin 4) * 1 + 1 * 0 = nb.val; omega
  | ⟨1, _⟩ => show win4_0.index t (1 : Fin 4) * 1 + 1 * 0 = h.val; omega
  | ⟨2, _⟩ => show win4_0.index t (2 : Fin 4) * 512 + 1 * r.val = s.val; omega
  | ⟨3, _⟩ => show win4_0.index t (3 : Fin 4) * 64 + 1 * d.val = d.val; omega

/-- Window 1's block at point `t` is the point's head of the weight. -/
theorem blk1_apply (c : Dev nD) (t : Fin cfg4.N) (d : Fin 64) (e : Fin 1024) (h : Fin 16) (hh : h.val = t.val % 16) :
    (iblk4 V c 1 t : Vec F S1x64x1024 .f32) (ix3 0 d e) = V c main_v14 (ix3 h d e) := by
  obtain ⟨-, -, -, -, e0, e1, e2, -⟩ := idx4 t
  show V c main_v14 (((cfg4.win 1).blk t).view.emb (ix3 0 d e)) = V c main_v14 (ix3 h d e)
  refine congrArg _ (funext fun a => Fin.ext ?_)
  match a with
  | ⟨0, _⟩ => show win4_1.index t (0 : Fin 3) * 1 + 1 * 0 = h.val; omega
  | ⟨1, _⟩ => show win4_1.index t (1 : Fin 3) * 64 + 1 * d.val = d.val; omega
  | ⟨2, _⟩ => show win4_1.index t (2 : Fin 3) * 1024 + 1 * e.val = e.val; omega

/-- Window 2's block is the whole bias row. -/
theorem blk2_apply (c : Dev nD) (t : Fin cfg4.N) (e : Fin 1024) :
    (iblk4 V c 2 t : Vec F S1x1024 .f32) (ix2 0 e) = V c main_v15 (ix2 0 e) := by
  obtain ⟨-, -, -, -, -, -, -, e0, e1, -⟩ := idx4 t
  show V c main_v15 (((cfg4.win 2).blk t).view.emb (ix2 0 e)) = V c main_v15 (ix2 0 e)
  refine congrArg _ (funext fun a => Fin.ext ?_)
  match a with
  | ⟨0, _⟩ => show win4_2.index t (0 : Fin 2) * 1 + 1 * 0 = 0; omega
  | ⟨1, _⟩ => show win4_2.index t (1 : Fin 2) * 1024 + 1 * e.val = e.val; omega

end Cert.KernelIdeal.Val

end
-- ==== Proof.KI.HeadSums.lean ====
import proofs.«114834_j83013127897754_2_alg».proof.Proof.Spec

/-!
# Sums over heads and lanes, and a running sum over the sixteen heads

The 1024 features are the pairs (head, lane): a double sum over heads and lanes is the sum over features. A sequence of
partial sums that starts at `0 + f 0` and adds `f (h + 1)` at each step ends, after the last head, at the sum over all
sixteen heads — in any commutative additive monoid (so on the extended reals no finiteness is needed).
-/

noncomputable section

open scoped BigOperators

namespace Cert.KernelIdeal.Val

open Cert.Mha

/-- The head of feature `h * 64 + d` is `h`. -/
theorem headOf_feat (h : Fin 16) (d : Fin 64) : headOf (feat h d) = h := by
  apply Fin.ext; simp only [feat, headOf]; omega

/-- The lane of feature `h * 64 + d` is `d`. -/
theorem laneOf_feat (h : Fin 16) (d : Fin 64) : laneOf (feat h d) = d := by
  apply Fin.ext; simp only [feat, laneOf]; omega

/-- Features are the pairs (head, lane). -/
def featEquiv : Fin 16 × Fin 64 ≃ Fin 1024 where
  toFun p := feat p.1 p.2
  invFun e := (headOf e, laneOf e)
  left_inv p := Prod.ext (headOf_feat p.1 p.2) (laneOf_feat p.1 p.2)
  right_inv e := feat_headOf_laneOf e

/-- A double sum over heads and lanes is the sum over features. -/
theorem sum_heads_lanes {M : Type*} [AddCommMonoid M] (g : Fin 16 → Fin 64 → M) :
    ∑ h : Fin 16, ∑ d : Fin 64, g h d = ∑ e : Fin 1024, g (headOf e) (laneOf e) := by
  rw [← Fintype.sum_prod_type', ← Equiv.sum_comp featEquiv (fun e => g (headOf e) (laneOf e))]
  refine Fintype.sum_congr _ _ fun p => ?_
  show g p.1 p.2 = g (headOf (feat p.1 p.2)) (laneOf (feat p.1 p.2))
  rw [headOf_feat, laneOf_feat]

/-! ## Partial sums over the heads up to a given one -/

/-- The sum of `f` over the heads `≤ k`. -/
def headsUpTo {M : Type*} [AddCommMonoid M] (f : Fin 16 → M) (k : ℕ) : M :=
  ∑ h ∈ (Finset.univ : Finset (Fin 16)).filter (fun h => h.val ≤ k), f h

/-- Up to head 0: the one term. -/
theorem headsUpTo_zero {M : Type*} [AddCommMonoid M] (f : Fin 16 → M) : headsUpTo f 0 = f 0 := by
  unfold headsUpTo
  rw [show (Finset.univ : Finset (Fin 16)).filter (fun h => h.val ≤ 0) = {0} from by
    ext h; simp only [Finset.mem_filter, Finset.mem_univ, true_and, Finset.mem_singleton]
    exact ⟨fun hh => Fin.ext (by simpa using hh), fun hh => by subst hh; simp⟩]
  exact Finset.sum_singleton _ _

/-- One more head: the partial sum so far plus that head's term. -/
theorem headsUpTo_succ {M : Type*} [AddCommMonoid M] (f : Fin 16 → M) (k : ℕ) (hk : k + 1 < 16) :
    headsUpTo f (k + 1) = headsUpTo f k + f ⟨k + 1, hk⟩ := by
  unfold headsUpTo
  rw [show (Finset.univ : Finset (Fin 16)).filter (fun h => h.val ≤ k + 1)
      = insert (⟨k + 1, hk⟩ : Fin 16) ((Finset.univ : Finset (Fin 16)).filter (fun h => h.val ≤ k)) from by
    ext h; simp only [Finset.mem_filter, Finset.mem_univ, true_and, Finset.mem_insert]
    constructor
    · intro hh
      by_cases he : h.val = k + 1
      · exact Or.inl (Fin.ext he)
      · exact Or.inr (by omega)
    · rintro (rfl | hh)
      · exact Nat.le_refl _
      · omega]
  rw [Finset.sum_insert (by simp only [Finset.mem_filter, Finset.mem_univ, true_and]; omega), add_comm]

/-- Up to the last head: the sum over all sixteen. -/
theorem headsUpTo_last {M : Type*} [AddCommMonoid M] (f : Fin 16 → M) : headsUpTo f 15 = ∑ h : Fin 16, f h := by
  unfold headsUpTo
  rw [show (Finset.univ : Finset (Fin 16)).filter (fun h => h.val ≤ 15) = Finset.univ from by
    ext h; simp only [Finset.mem_filter, Finset.mem_univ, true_and, iff_true]; have := h.isLt; omega]

/-- A running sum over the heads: starting at `0 + f 0` and adding `f (h + 1)` at each step, after head `k` it is the
    partial sum up to `k`; -/
theorem acc_eq_headsUpTo {M : Type*} [AddCommMonoid M] (f : Fin 16 → M) (acc : ℕ → M) (h0 : acc 0 = 0 + f 0)
    (hs : ∀ (k : ℕ) (hk : k + 1 < 16), acc (k + 1) = acc k + f ⟨k + 1, hk⟩) :
    ∀ k : ℕ, k < 16 → acc k = headsUpTo f k
  | 0, _ => by rw [h0, zero_add, headsUpTo_zero]
  | k + 1, hk => by rw [hs k hk, acc_eq_headsUpTo f acc h0 hs k (by omega), headsUpTo_succ f k hk]

/-- so after the last head it is the sum over all sixteen. -/
theorem acc_last_eq_sum {M : Type*} [AddCommMonoid M] (f : Fin 16 → M) (acc : ℕ → M) (h0 : acc 0 = 0 + f 0)
    (hs : ∀ (k : ℕ) (hk : k + 1 < 16), acc (k + 1) = acc k + f ⟨k + 1, hk⟩) : acc 15 = ∑ h : Fin 16, f h :=
  (acc_eq_headsUpTo f acc h0 hs 15 (by omega)).trans (headsUpTo_last f)

end Cert.KernelIdeal.Val

end
-- ==== Proof.KI.MergeK.lean ====
import proofs.«114834_j83013127897754_2_alg».proof.Proof.KI.HeadSums
import proofs.«114834_j83013127897754_2_alg».proof.Proof.KI.ValWeights
import proofs.«114834_j83013127897754_2_alg».proof.Proof.Gen.KernelIdeal

/-!
# The output layer as the kernel computes it: a sum over heads, then lanes

The head-accumulating output projection adds, head by head, the product of the head's attended values [position, lane]
with the head's slice [lane, output feature] of the weight, and then the bias row. Over the operands the host prepares —
the weight's input features cut by head with the output feature moved last, the bias as a row — this is the output
layer on the merged heads: the double sum over heads and lanes is the sum over the 1024 input features.
-/

noncomputable section

open scoped BigOperators

namespace Cert.KernelIdeal.Val

open Idealize.ShloMosaic Idealize.ShloMosaic.ValueIdx
open Cert.KernelIdeal

/-- The kernel's output layer: at batch `n`, position `s`, output feature `e`, the sum over heads `h` and lanes `d` of
    the attended value `a (n, h, s, d)` times the per-head weight `wT (h, d, e)`, plus the bias row at `e`. -/
def mergeK (a : Cert.Mha.Hds) (wT : (⟨3, ![16, 64, 1024]⟩ : Shape).Idx → EReal) (b : (⟨2, ![1, 1024]⟩ : Shape).Idx → EReal) :
    Cert.Mha.Act :=
  fun i => (∑ h : Fin 16, ∑ d : Fin 64, a (ix4 (i 0) h (i 1) d) * wT (ix3 h d (i 2))) + b (ix2 0 (i 2))

/-- Over the host's per-head operands it is the output layer on the merged heads. -/
theorem mergeK_heads (a : Cert.Mha.Hds) (w : Cert.Mha.Wgt) (b : Cert.Mha.Bia) :
    mergeK a (transpose S16x64x1024 [1, 2, 0] (shapeCast S1024x16x64 w Gen.shapeCasts_S1024x1024_S1024x16x64) Gen.transposes_S1024x16x64_S16x64x1024_1_2_0)
        (shapeCast S1x1024 b Gen.shapeCasts_S1024_S1x1024)
      = Cert.Mha.merge a w b := by
  funext i
  unfold mergeK Cert.Mha.merge Cert.Mha.mergeAt
  refine congrArg₂ (· + ·) ?_ (outBias_apply b (i 2))
  refine Eq.trans ?_ (sum_heads_lanes fun h d => a (ix4 (i 0) h (i 1) d) * w (ix2 (i 2) (Cert.Mha.feat h d)))
    |>.trans (Finset.sum_congr rfl fun e' _ => by rw [Cert.Mha.feat_headOf_laneOf])
  exact Finset.sum_congr rfl fun h _ => Finset.sum_congr rfl fun d _ =>
    congrArg (a (ix4 (i 0) h (i 1) d) * ·) (outWeight_apply w h d (i 2))

end Cert.KernelIdeal.Val

end
-- ==== Proof.KI.ValOut.lean ====
/- The VALUE of the head-accumulating output projection (pipeline 4) over the extended reals: after the point of
   batch `n`, position tile `si` and head `h` the carried accumulator holds, at row `r` and output feature `e`, the sum
   over the heads `h' ≤ h` of the head's attended values (row `512 · si + r`) against the head's weight slice; at the last
   head the output tile is that sum over all sixteen heads plus the bias row; the tiles written back at the last heads
   cover the result array, which therefore ends holding the output layer `mergeK` of the three argument arrays. -/
import proofs.«114834_j83013127897754_2_alg».proof.Proof.KI.ValOutPieces
import proofs.«114834_j83013127897754_2_alg».proof.Proof.KI.PayProj
import proofs.«114834_j83013127897754_2_alg».proof.Proof.KI.MergeK
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-! ## The accumulator, point by point, over the extended reals -/

/-- Head `h`'s product at row `r` of the position tile and output feature `e`, the batch and tile those of the run of
    sixteen points number `p` (batch `p / 4`, tile `p % 4`): `Σ_d a (batch, h, 512 · tile + r, d) · wT (h, d, e)`. -/
def headTerm (a : Cert.Mha.Hds) (wT : (⟨3, ![16, 64, 1024]⟩ : Shape).Idx → EReal) (p : ℕ) (r : Fin 512) (e : Fin 1024)
    (h : Fin 16) : EReal :=
  ∑ d : Fin 64, a (ix4 (⟨p / 4 % 2, by omega⟩ : Fin 2) h (⟨p % 4 * 512 + r.val, by omega⟩ : Fin 2048) d) * wT (ix3 h d e)

/-- ONE ACCUMULATION STEP, over any blocks: when the attended-values block reads batch `p / 4`, head `k`, rows of tile
    `p % 4` of `a`, and the weight block reads head `k` of `wT`, the accumulating store leaves at `(r, e)` what the
    accumulator held there plus head `k`'s product. -/
theorem step_val (x0 : Vec Ideal S1x1x512x64 .bf16) (x1 : Vec Ideal S1x64x1024 .f32) (acc : Vec Ideal S512x1024 .f32)
    (a : Cert.Mha.Hds) (wT : (⟨3, ![16, 64, 1024]⟩ : Shape).Idx → EReal) (p : ℕ) (r : Fin 512) (e : Fin 1024)
    (k : ℕ) (hk : k < 16)
    (hx0 : ∀ d : Fin 64, x0 (ix4 0 0 r d)
      = a (ix4 (⟨p / 4 % 2, by omega⟩ : Fin 2) (⟨k, hk⟩ : Fin 16) (⟨p % 4 * 512 + r.val, by omega⟩ : Fin 2048) d))
    (hx1 : ∀ d : Fin 64, x1 (ix3 0 d e) = wT (ix3 (⟨k, hk⟩ : Fin 16) d e)) :
    k4_pay2 (F := Ideal) x0 x1 acc (ix2 r e) = acc (ix2 r e) + headTerm a wT p r e ⟨k, hk⟩ :=
  (Pay.k4_pay2_apply x0 x1 acc r e).trans
    (congrArg (acc (ix2 r e) + ·) (Finset.sum_congr rfl fun d _ => congrArg₂ (· * ·) (hx0 d) (hx1 d)))

/-- The step at point `t`: the blocks are the point's batch, head and position tile of the arrays. -/
theorem step_at (c : Dev nD) (t : Fin cfg4.N) (acc : Vec Ideal S512x1024 .f32) (r : Fin 512) (e : Fin 1024)
    (hk : t.val % 16 < 16) :
    k4_pay2 (F := Ideal) (iblk4 V c 0 t) (iblk4 V c 1 t) acc (ix2 r e)
      = acc (ix2 r e) + headTerm (V c main_v12_0) (V c main_v14) (t.val / 16) r e ⟨t.val % 16, hk⟩ := by
  have hN : t.val < 128 := lt_of_lt_of_eq t.isLt (show cfg4.N = 128 from N_4)
  exact step_val (iblk4 V c 0 t) (iblk4 V c 1 t) acc (V c main_v12_0) (V c main_v14) (t.val / 16) r e (t.val % 16) hk
    (fun d => blk0_apply V c t r d _ _ _ (show t.val / 16 / 4 % 2 = t.val / 64 by omega) rfl
      (show t.val / 16 % 4 * 512 + r.val = t.val / 16 % 4 * 512 + r.val from rfl))
    (fun d => blk1_apply V c t d e _ rfl)

/-- One more head, the partial sum indexed by the point's own head. -/
theorem headsUpTo_step {M : Type*} [AddCommMonoid M] (f : Fin 16 → M) (j k : ℕ) (hk : k < 16) (hj : k = j + 1) :
    headsUpTo f j + f ⟨k, hk⟩ = headsUpTo f k := by
  subst hj; exact (headsUpTo_succ f j hk).symm

/-- At a point of head 0 the accumulator is the zero fill plus the head's product: the partial sum up to head 0. -/
theorem scratch_first (c : Dev nD) (t : Fin cfg4.N) (h0 : t.val % 16 = 0) (r : Fin 512) (e : Fin 1024) :
    (outsAt4 V c t.val t.isLt).2 (ix2 r e)
      = headsUpTo (headTerm (V c main_v12_0) (V c main_v14) (t.val / 16) r e) (t.val % 16) := by
  have h1 : ¬t.val % 16 = 15 := by omega
  rw [outsAt4_A V c t h0 h1]
  dsimp only
  rw [sout_A]
  refine (step_at V c t (k4_pay1 (F := Ideal)) r e (by omega)).trans ?_
  refine (congrArg (· + _) (Pay.k4_pay1_apply r e)).trans ?_
  refine (zero_add _).trans ?_
  have e0 : (⟨t.val % 16, by omega⟩ : Fin 16) = 0 := Fin.ext h0
  rw [e0, h0, headsUpTo_zero]

/-- At a point of a later head the accumulator is what the point before left plus the head's product: one more term of
    the partial sum. -/
theorem scratch_step (c : Dev nD) (t : Fin cfg4.N) (h0 : ¬t.val % 16 = 0) (r : Fin 512) (e : Fin 1024)
    (ih : (outsAt4 V c (t.val - 1) (Nat.lt_of_le_of_lt (Nat.sub_le _ _) t.isLt)).2 (ix2 r e)
      = headsUpTo (headTerm (V c main_v12_0) (V c main_v14) ((t.val - 1) / 16) r e) ((t.val - 1) % 16)) :
    (outsAt4 V c t.val t.isLt).2 (ix2 r e)
      = headsUpTo (headTerm (V c main_v12_0) (V c main_v14) (t.val / 16) r e) (t.val % 16) := by
  have e1 : (t.val - 1) / 16 = t.val / 16 := by omega
  have tail : k4_pay2 (F := Ideal) (iblk4 V c 0 t) (iblk4 V c 1 t) (outsAt4 V c (t.val - 1) (Nat.lt_of_le_of_lt (Nat.sub_le _ _) t.isLt)).2 (ix2 r e)
      = headsUpTo (headTerm (V c main_v12_0) (V c main_v14) (t.val / 16) r e) (t.val % 16) := by
    refine (step_at V c t (outsAt4 V c (t.val - 1) (Nat.lt_of_le_of_lt (Nat.sub_le _ _) t.isLt)).2 r e (by omega)).trans ?_
    rw [ih, e1]
    exact headsUpTo_step _ _ _ _ (by omega)
  by_cases h1 : t.val % 16 = 15
  · rw [outsAt4_C V c t h0 h1]
    dsimp only
    rw [sout_C]
    exact tail
  · rw [outsAt4_B V c t h0 h1]
    dsimp only
    rw [sout_B]
    exact tail

/-- THE ACCUMULATOR after every point: the partial sum over the heads up to the point's own, of the point's batch and
    position tile — by induction on the point. -/
theorem scratch_eq (c : Dev nD) : ∀ (n : ℕ) (hn : n < cfg4.N) (r : Fin 512) (e : Fin 1024),
    (outsAt4 V c n hn).2 (ix2 r e) = headsUpTo (headTerm (V c main_v12_0) (V c main_v14) (n / 16) r e) (n % 16)
  | 0, hn, r, e => scratch_first V c ⟨0, hn⟩ (Nat.zero_mod 16) r e
  | n + 1, hn, r, e => by
    by_cases h0 : (n + 1) % 16 = 0
    · exact scratch_first V c ⟨n + 1, hn⟩ h0 r e
    · exact scratch_step V c ⟨n + 1, hn⟩ h0 r e (scratch_eq c n (Nat.lt_of_succ_lt hn) r e)

/-- THE OUTPUT TILE at a point of the last head: the sum over all sixteen heads plus the bias row. -/
theorem out_last (c : Dev nD) (t : Fin cfg4.N) (h1 : t.val % 16 = 15) (r : Fin 512) (e : Fin 1024) :
    (outsAt4 V c t.val t.isLt).1 (ix3 0 r e)
      = (∑ h : Fin 16, headTerm (V c main_v12_0) (V c main_v14) (t.val / 16) r e h) + V c main_v15 (ix2 0 e) := by
  have h0 : ¬t.val % 16 = 0 := by omega
  have hs : (outsAt4 V c t.val t.isLt).2 (ix2 r e)
      = k4_pay2 (F := Ideal) (iblk4 V c 0 t) (iblk4 V c 1 t) (outsAt4 V c (t.val - 1) (Nat.lt_of_le_of_lt (Nat.sub_le _ _) t.isLt)).2 (ix2 r e) := by
    rw [outsAt4_C V c t h0 h1]
    dsimp only
    rw [sout_C]
  rw [outsAt4_C V c t h0 h1]
  dsimp only
  rw [out_C]
  refine (Pay.k4_pay3_apply (k4_pay2 (F := Ideal) (iblk4 V c 0 t) (iblk4 V c 1 t) (outsAt4 V c (t.val - 1) (Nat.lt_of_le_of_lt (Nat.sub_le _ _) t.isLt)).2) (iblk4 V c 2 t) r e).trans ?_
  refine congrArg₂ (· + ·) ?_ (blk2_apply V c t e)
  rw [← hs, scratch_eq V c t.val t.isLt r e, h1, headsUpTo_last]

/-! ## From the tiles to the result array -/

/-- What a point of the last head writes back is its tile of the output layer of the three argument arrays. -/
theorem tile_eq (c : Dev nD) (t : Fin cfg4.N) (h1 : t.val % 16 = 15) (j : S1x512x1024.Idx) :
    (outsAt4 V c t.val t.isLt).1 j
      = mergeK (V c main_v12_0) (V c main_v14) (V c main_v15) (((cfg4.win 3).blk t).view.emb j) := by
  have hN : t.val < 128 := lt_of_lt_of_eq t.isLt (show cfg4.N = 128 from N_4)
  obtain ⟨j0, r, e, rfl⟩ : ∃ (j0 : Fin 1) (r : Fin 512) (e : Fin 1024), j = ix3 j0 r e := ⟨j 0, j 1, j 2, eq_ix3 j⟩
  obtain rfl : j0 = 0 := Subsingleton.elim _ _
  refine (out_last V c t h1 r e).trans ?_
  obtain ⟨-, -, -, -, -, -, -, -, -, e0, e1, e2⟩ := idx4 t
  have hemb : ((cfg4.win 3).blk t).view.emb (ix3 0 r e)
      = ix3 (⟨t.val / 16 / 4 % 2, by omega⟩ : Fin 2) (⟨t.val / 16 % 4 * 512 + r.val, by omega⟩ : Fin 2048) e :=
    funext fun a => Fin.ext (by
      match a with
      | ⟨0, _⟩ => show win4_3.index t (0 : Fin 3) * 1 + 1 * 0 = t.val / 16 / 4 % 2; omega
      | ⟨1, _⟩ => show win4_3.index t (1 : Fin 3) * 512 + 1 * r.val = t.val / 16 % 4 * 512 + r.val; omega
      | ⟨2, _⟩ => show win4_3.index t (2 : Fin 3) * 1024 + 1 * e.val = e.val; omega)
  rw [hemb]
  rfl

/-- What point `t` writes back (only the points of the last head do) is block `t` of the output layer. -/
theorem flushed4_eq (c : Dev nD) (t : Fin cfg4.N) (hf : (cfg4.win 3).flush t = true) :
    (dat4 V c).flushed 3 t
      = ((cfg4.win 3).blk t).view.read (Elt Ideal) (mergeK (V c main_v12_0) (V c main_v14) (V c main_v15)) := by
  have h1 : t.val % 16 = 15 := (flush4_3 t).mp hf
  show (cfg4.win 3).cut (grid4.coords t) ((dat4 V c).after 3 t) = _
  rw [after4_3]
  funext j
  exact tile_eq V c t h1 j

/-- An index of the result array is in point `t`'s block iff each coordinate is in the block's range on its axis. -/
theorem mem_blk3 (t : Fin cfg4.N) (i : S2x2048x1024.Idx) :
    i ∈ ((cfg4.win 3).blk t).view.set ↔ ∀ a : Fin 3, win4_3.index t a * S1x512x1024.size a ≤ (i a).val ∧ (i a).val < win4_3.index t a * S1x512x1024.size a + S1x512x1024.size a := by
  show i ∈ ((View.whole main_v16).slice (win4_3.rect t)).set ↔ _
  rw [View.set_slice_whole, Rect.mem_set_unit]
  exact Iff.rfl

/-- Every index of the result array is in the block of the last head's point of its batch and position tile. -/
theorem cover4 (i : S2x2048x1024.Idx) :
    ∃ t : Fin cfg4.N, (cfg4.win 3).flush t = true ∧ i ∈ ((cfg4.win 3).blk t).view.set := by
  have hi0 : (i 0).val < 2 := (i 0).isLt
  have hi1 : (i 1).val < 2048 := (i 1).isLt
  have hi2 : (i 2).val < 1024 := (i 2).isLt
  have hlt : ((i 0).val * 4 + (i 1).val / 512) * 16 + 15 < cfg4.N := by rw [show cfg4.N = 128 from N_4]; omega
  refine ⟨⟨((i 0).val * 4 + (i 1).val / 512) * 16 + 15, hlt⟩, (flush4_3 _).mpr (by dsimp only; omega), ?_⟩
  rw [mem_blk3]
  obtain ⟨-, -, -, -, -, -, -, -, -, e0, e1, e2⟩ := idx4 ⟨((i 0).val * 4 + (i 1).val / 512) * 16 + 15, hlt⟩
  dsimp only at e0 e1 e2
  intro a
  match a with
  | ⟨0, _⟩ => show win4_3.index _ (0 : Fin 3) * 1 ≤ (i 0).val ∧ (i 0).val < win4_3.index _ (0 : Fin 3) * 1 + 1; omega
  | ⟨1, _⟩ => show win4_3.index _ (1 : Fin 3) * 512 ≤ (i 1).val ∧ (i 1).val < win4_3.index _ (1 : Fin 3) * 512 + 512; omega
  | ⟨2, _⟩ => show win4_3.index _ (2 : Fin 3) * 1024 ≤ (i 2).val ∧ (i 2).val < win4_3.index _ (2 : Fin 3) * 1024 + 1024; omega

/-- THE RESULT ARRAY after the region: the output layer of the attended values, the per-head weight and the bias row as
    the region finds them. -/
theorem final4 (c : Dev nD) :
    (dat4 (F := Ideal) V c).arrAt 3 cfg4.N = mergeK (V c main_v12_0) (V c main_v14) (V c main_v15) :=
  (dat4 V c).arrAt_eq_of_cover 3 (mergeK (V c main_v12_0) (V c main_v14) (V c main_v15)) (flushed4_eq V c) cover4

end Cert.KernelIdeal.Val

end
-- ==== Proof.KI.Link.lean ====
import proofs.«114834_j83013127897754_2_alg».proof.Proof.KI.Run
import proofs.«114834_j83013127897754_2_alg».proof.Proof.KI.HostReads
import proofs.«114834_j83013127897754_2_alg».proof.Proof.KI.ValProj
import proofs.«114834_j83013127897754_2_alg».proof.Proof.KI.ValWeights
import proofs.«114834_j83013127897754_2_alg».proof.Proof.KI.ValAttn
import proofs.«114834_j83013127897754_2_alg».proof.Proof.KI.ValOut
import proofs.«114834_j83013127897754_2_alg».proof.Proof.Spec

/-!
# What the kernel's program leaves in its two result buffers, at the exact extended reals

The run ends with every unscoped buffer at the last boundary's contents. Walking the boundaries back: the output
projection's array is the head-by-head accumulation of the attended values against the regrouped output weight, plus the
bias; the attended values and the attention weights are the attention region's arrays, functions of the three
projections; each projection is its region's array, a function of an activation argument and of the regrouped weight
and bias that the host operations prepared from the layer's parameters. Composed, the two results are the layer's
output and its attention weights as functions of the eleven arguments.
-/

noncomputable section

namespace Cert.KernelIdeal.Val

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg)

/-- The argument array `b` as launched, on core `c`. -/
abbrev arg (c : Dev nD) (b : Ref sig .tc) : Buf (Elt Ideal) ((c : Thread nD τ).loc b) := m ((c : Thread nD τ).loc b)

/-! ## The three projections -/

theorem q_val (c : Dev nD) :
    (dat0 (F := Ideal) (E1 m ρ) c).arrAt 3 cfg0.N = Cert.Mha.proj (arg m c main_arg0) (arg m c main_arg3) (arg m c main_arg4) := by
  have h0 : E1 m ρ c main_arg0 = arg m c main_arg0 := B1_of m ρ c main_arg0 (by decide)
  have h1 := host_v1 (B0 m ρ c)
  have h2 := host_v2 (B0 m ρ c)
  rw [final0, h0, show E1 m ρ c main_v1 = _ from h1, show E1 m ρ c main_v2 = _ from h2]
  exact projK_heads _ _ _

theorem k_val (c : Dev nD) :
    (dat1 (F := Ideal) (E2 m ρ) c).arrAt 3 cfg1.N = Cert.Mha.proj (arg m c main_arg1) (arg m c main_arg5) (arg m c main_arg6) := by
  have h0 : E2 m ρ c main_arg1 = arg m c main_arg1 := (B2_of_ne m ρ c main_arg1 (by decide)).trans (B1_of m ρ c main_arg1 (by decide))
  have h1 : E2 m ρ c main_v4 = _ := (B2_of_ne m ρ c main_v4 (by decide)).trans (host_v4 (B0 m ρ c))
  have h2 : E2 m ρ c main_v5 = _ := (B2_of_ne m ρ c main_v5 (by decide)).trans (host_v5 (B0 m ρ c))
  rw [final1, h0, h1, h2]
  exact projK_heads _ _ _

theorem v_val (c : Dev nD) :
    (dat2 (F := Ideal) (E3 m ρ) c).arrAt 3 cfg2.N = Cert.Mha.proj (arg m c main_arg2) (arg m c main_arg7) (arg m c main_arg8) := by
  have h0 : E3 m ρ c main_arg2 = arg m c main_arg2 :=
    (B3_of_ne m ρ c main_arg2 (by decide)).trans ((B2_of_ne m ρ c main_arg2 (by decide)).trans (B1_of m ρ c main_arg2 (by decide)))
  have h1 : E3 m ρ c main_v7 = _ := (B3_of_ne m ρ c main_v7 (by decide)).trans ((B2_of_ne m ρ c main_v7 (by decide)).trans (host_v7 (B0 m ρ c)))
  have h2 : E3 m ρ c main_v8 = _ := (B3_of_ne m ρ c main_v8 (by decide)).trans ((B2_of_ne m ρ c main_v8 (by decide)).trans (host_v8 (B0 m ρ c)))
  rw [final2, h0, h1, h2]
  exact projK_heads _ _ _

/-! ## The attention region's operands are the three projections -/

theorem e4_q (c : Dev nD) : E4 m ρ c main_v9 = Cert.Mha.proj (arg m c main_arg0) (arg m c main_arg3) (arg m c main_arg4) :=
  ((B4_of_ne m ρ c main_v9 (by decide)).trans ((B3_of_ne m ρ c main_v9 (by decide)).trans (B2_arr m ρ c 3))).trans (q_val m ρ c)
theorem e4_k (c : Dev nD) : E4 m ρ c main_v10 = Cert.Mha.proj (arg m c main_arg1) (arg m c main_arg5) (arg m c main_arg6) :=
  ((B4_of_ne m ρ c main_v10 (by decide)).trans (B3_arr m ρ c 3)).trans (k_val m ρ c)
theorem e4_v (c : Dev nD) : E4 m ρ c main_v11 = Cert.Mha.proj (arg m c main_arg2) (arg m c main_arg7) (arg m c main_arg8) :=
  (B4_arr m ρ c 3).trans (v_val m ρ c)

/-- The attention weights the kernel's program returns. -/
theorem weights_val (c : Dev nD) : B7 m ρ c (Proc.devRef .tc main_v12_1)
    = Cert.Mha.layerWeights (arg m c main_arg0) (arg m c main_arg1) (arg m c main_arg3) (arg m c main_arg4) (arg m c main_arg5) (arg m c main_arg6) := by
  refine ((B7_of_ne m ρ c main_v12_1 (by decide)).trans ((B6_of m ρ c main_v12_1 (by decide)).trans (B5_arr m ρ c 4))).trans ?_
  rw [final3_weights, e4_q, e4_k]
  rfl

/-- The attended values the output projection reads. -/
theorem e6_attended (c : Dev nD) : E6 m ρ c main_v12_0
    = Cert.Mha.attend (Cert.Mha.layerWeights (arg m c main_arg0) (arg m c main_arg1) (arg m c main_arg3) (arg m c main_arg4) (arg m c main_arg5) (arg m c main_arg6))
        (Cert.Mha.proj (arg m c main_arg2) (arg m c main_arg7) (arg m c main_arg8)) := by
  refine ((B6_of m ρ c main_v12_0 (by decide)).trans (B5_arr m ρ c 3)).trans ?_
  rw [final3_out, e4_q, e4_k, e4_v]
  rfl

theorem b5_arg9 (c : Dev nD) : B5 m ρ c (Proc.devRef .tc main_arg9) = arg m c main_arg9 :=
  (B5_of_ne m ρ c main_arg9 (by decide)).trans ((B4_of_ne m ρ c main_arg9 (by decide)).trans ((B3_of_ne m ρ c main_arg9 (by decide)).trans
    ((B2_of_ne m ρ c main_arg9 (by decide)).trans (B1_of m ρ c main_arg9 (by decide)))))
theorem b5_arg10 (c : Dev nD) : B5 m ρ c (Proc.devRef .tc main_arg10) = arg m c main_arg10 :=
  (B5_of_ne m ρ c main_arg10 (by decide)).trans ((B4_of_ne m ρ c main_arg10 (by decide)).trans ((B3_of_ne m ρ c main_arg10 (by decide)).trans
    ((B2_of_ne m ρ c main_arg10 (by decide)).trans (B1_of m ρ c main_arg10 (by decide)))))

/-- The layer's output the kernel's program returns. -/
theorem out_val (c : Dev nD) : B7 m ρ c (Proc.devRef .tc main_v16)
    = Cert.Mha.layerOut (arg m c main_arg0) (arg m c main_arg1) (arg m c main_arg2) (arg m c main_arg3) (arg m c main_arg4) (arg m c main_arg5)
        (arg m c main_arg6) (arg m c main_arg7) (arg m c main_arg8) (arg m c main_arg9) (arg m c main_arg10) := by
  refine (B7_arr m ρ c 3).trans ?_
  have h1 : E6 m ρ c main_v14 = _ := host_v14 (B5 m ρ c)
  have h2 : E6 m ρ c main_v15 = _ := host_v15 (B5 m ρ c)
  rw [final4, e6_attended, h1, h2, b5_arg9, b5_arg10]
  exact mergeK_heads _ _ _

/-- THE KERNEL PROGRAM'S RUN AT THE SPEC: it terminates, its two results are the layer's output and attention weights of
    the arguments, and the arguments are unchanged. -/
theorem run_spec : θ_run defs (onTc (τ := τ) (main (F := Ideal))) ⟨m, fun _ => 0, ρ⟩ (fun r => ∀ c : Dev nD,
      r.2.mem ((c.tc : Thread nD τ).loc main_v16) = Cert.Mha.layerOut (arg m c main_arg0) (arg m c main_arg1) (arg m c main_arg2) (arg m c main_arg3) (arg m c main_arg4) (arg m c main_arg5)
        (arg m c main_arg6) (arg m c main_arg7) (arg m c main_arg8) (arg m c main_arg9) (arg m c main_arg10)
      ∧ r.2.mem ((c.tc : Thread nD τ).loc main_v12_1) = Cert.Mha.layerWeights (arg m c main_arg0) (arg m c main_arg1) (arg m c main_arg3) (arg m c main_arg4) (arg m c main_arg5) (arg m c main_arg6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucH main_v16 (by decide))).trans (out_val m ρ c),
     (h c _ (mem_ucH main_v12_1 (by decide))).trans (weights_val m ρ c),
     (h c _ (mem_ucH main_arg0 (by decide))).trans (B7_main_arg0 m ρ c),
     (h c _ (mem_ucH main_arg1 (by decide))).trans (B7_main_arg1 m ρ c),
     (h c _ (mem_ucH main_arg2 (by decide))).trans (B7_main_arg2 m ρ c),
     (h c _ (mem_ucH main_arg3 (by decide))).trans (B7_main_arg3 m ρ c),
     (h c _ (mem_ucH main_arg4 (by decide))).trans (B7_main_arg4 m ρ c),
     (h c _ (mem_ucH main_arg5 (by decide))).trans (B7_main_arg5 m ρ c),
     (h c _ (mem_ucH main_arg6 (by decide))).trans (B7_main_arg6 m ρ c),
     (h c _ (mem_ucH main_arg7 (by decide))).trans (B7_main_arg7 m ρ c),
     (h c _ (mem_ucH main_arg8 (by decide))).trans (B7_main_arg8 m ρ c),
     (h c _ (mem_ucH main_arg9 (by decide))).trans (B7_main_arg9 m ρ c),
     (h c _ (mem_ucH main_arg10 (by decide))).trans (B7_main_arg10 m ρ c)⟩)
    (run_all m ρ)

end Cert.KernelIdeal.Val

end
-- ==== Proof.Ref.Imports.lean ====
import proofs.«114834_j83013127897754_2_alg».proof.Proof.Gen.ReferenceIdeal.Run
import proofs.«114834_j83013127897754_2_alg».proof.Proof.Gen.ReferenceIdeal.Read

/-! The reference program's run and its stage-by-stage reading, gathered for the modules that state what the
reference computes. -/
-- ==== Proof.Ref.Proj.lean ====
import proofs.«114834_j83013127897754_2_alg».proof.Proof.Ref.Imports
import proofs.«114834_j83013127897754_2_alg».proof.Proof.Spec

/-!
# The reference's three input projections are the specification's `proj`

Each of `q`, `k`, `v` is computed as a `dot_general` of the activations `[2, 2048, 1024]` with the weight
`[1024, 1024]` contracting the feature axis, plus the bias broadcast along batch and position, reshaped to
`[2, 2048, 16, 64]` (feature `h * 64 + d` becomes head `h`, lane `d`) and transposed to `[2, 16, 2048, 64]`.
Read at `(n, h, s, d)` this is `Σ_k x(n, s, k) · W(h * 64 + d, k) + b(h * 64 + d)`.
-/

noncomputable section

open scoped BigOperators

namespace Cert.ReferenceIdeal.RefValue

open Cert.ReferenceIdeal Cert.ReferenceIdeal.Gen Idealize.ShloMosaic Idealize.ShloMosaic.ValueIdx

/-- The left operand's index of the projection's contraction, after the reshape and the transpose:
batch `i 0`, position `i 2`, input feature `k`. -/
theorem proj_lidx (i : S2x16x2048x64.Idx) (k : Fin 1024) :
    Read.lidx_main_v0 (Read.idx_main_v4 (Read.idx_main_v5 i)) k = ix3 (i 0) (i 2) k := by
  have h0 : (i 0).val < 2 := (i 0).isLt
  have h1 : (i 1).val < 16 := (i 1).isLt
  have h2 : (i 2).val < 2048 := (i 2).isLt
  have h3 : (i 3).val < 64 := (i 3).isLt
  refine funext fun a => Fin.ext ?_
  match a with
  | ⟨0, _⟩ =>
    show ((((i 0).val * 2048 + (i 2).val) * 16 + (i 1).val) * 64 + (i 3).val) / 2097152 = (i 0).val
    omega
  | ⟨1, _⟩ =>
    show ((((i 0).val * 2048 + (i 2).val) * 16 + (i 1).val) * 64 + (i 3).val) / 1024 % 2048 = (i 2).val
    omega
  | ⟨2, _⟩ => rfl

/-- The right operand's index: output feature `(i 1) * 64 + (i 3)`, input feature `k`. -/
theorem proj_ridx (i : S2x16x2048x64.Idx) (k : Fin 1024) :
    Read.ridx_main_v0 (Read.idx_main_v4 (Read.idx_main_v5 i)) k = ix2 (Cert.Mha.feat (i 1) (i 3)) k := by
  have h0 : (i 0).val < 2 := (i 0).isLt
  have h1 : (i 1).val < 16 := (i 1).isLt
  have h2 : (i 2).val < 2048 := (i 2).isLt
  have h3 : (i 3).val < 64 := (i 3).isLt
  refine funext fun a => Fin.ext ?_
  match a with
  | ⟨0, _⟩ =>
    show ((((i 0).val * 2048 + (i 2).val) * 16 + (i 1).val) * 64 + (i 3).val) % 1024 = (i 1).val * 64 + (i 3).val
    omega
  | ⟨1, _⟩ => rfl

/-- The bias's index: feature `(i 1) * 64 + (i 3)`. -/
theorem proj_bidx (i : S2x16x2048x64.Idx) :
    Read.idx_main_v1 (Read.idx_main_v2 (Read.idx_main_v4 (Read.idx_main_v5 i))) = ix1 (Cert.Mha.feat (i 1) (i 3)) := by
  have h0 : (i 0).val < 2 := (i 0).isLt
  have h1 : (i 1).val < 16 := (i 1).isLt
  have h2 : (i 2).val < 2048 := (i 2).isLt
  have h3 : (i 3).val < 64 := (i 3).isLt
  refine funext fun a => Fin.ext ?_
  match a with
  | ⟨0, _⟩ =>
    show ((((i 0).val * 2048 + (i 2).val) * 16 + (i 1).val) * 64 + (i 3).val) % 1024 = (i 1).val * 64 + (i 3).val
    omega

/-- The query projection is the specification's `proj`. -/
theorem q_eq (x0 : (⟨S2x2048x1024, .f32⟩ : BufTy).Contents (Elt Ideal)) (x3 : (⟨S1024x1024, .f32⟩ : BufTy).Contents (Elt Ideal))
    (x4 : (⟨S1024, .f32⟩ : BufTy).Contents (Elt Ideal)) :
    Read.val_main_v5 (F := Ideal) x0 x3 x4 = Cert.Mha.proj x0 x3 x4 := by
  funext i
  rw [Read.val_main_v5_apply, Read.val_main_v4_apply, Read.val_main_v3_apply, Read.val_main_v0_apply,
    Read.val_main_v2_apply, Read.val_main_v1_apply]
  simp only [proj_lidx, proj_ridx, proj_bidx]
  rfl

/-- The key projection is the same program text on its own arguments. -/
theorem k_eq (x1 : (⟨S2x2048x1024, .f32⟩ : BufTy).Contents (Elt Ideal)) (x5 : (⟨S1024x1024, .f32⟩ : BufTy).Contents (Elt Ideal))
    (x6 : (⟨S1024, .f32⟩ : BufTy).Contents (Elt Ideal)) :
    Read.val_main_v11 (F := Ideal) x1 x5 x6 = Cert.Mha.proj x1 x5 x6 :=
  q_eq x1 x5 x6

/-- The value projection is the same program text on its own arguments. -/
theorem v_eq (x2 : (⟨S2x2048x1024, .f32⟩ : BufTy).Contents (Elt Ideal)) (x7 : (⟨S1024x1024, .f32⟩ : BufTy).Contents (Elt Ideal))
    (x8 : (⟨S1024, .f32⟩ : BufTy).Contents (Elt Ideal)) :
    Read.val_main_v17 (F := Ideal) x2 x7 x8 = Cert.Mha.proj x2 x7 x8 :=
  q_eq x2 x7 x8

end Cert.ReferenceIdeal.RefValue

end
-- ==== Proof.Ref.Consts.lean ====
import Idealize.ShloMosaic.PureOps.Ideal

/-!
# The float words of the attention layer, as extended reals

The reference divides the scores by `8.0`; the specification multiplies by the dyadic `1/8`. Over the extended
reals the two are the same operation.
-/

noncomputable section

namespace Cert.ReferenceIdeal.RefValue

open Idealize.ShloMosaic

/-- The word `0x41000000` denotes the real `8`. -/
theorem ofBits_eight : Ideal.ofBits .f32 0x41000000#32 = ((8 : ℝ) : EReal) := by
  simp [Ideal.ofBits, Ideal.ieee, -EReal.coe_mul]; norm_num

/-- The word `0x3E000000` denotes the real `1/8`. -/
theorem ofBits_eighth : Ideal.ofBits .f32 0x3E000000#32 = ((1 / 8 : ℝ) : EReal) := by
  simp [Ideal.ofBits, Ideal.ieee, -EReal.coe_mul]; norm_num

/-- Dividing by the word for `8` is multiplying by the word for `1/8`. -/
theorem div_eight (x : EReal) :
    Ideal.div x (Ideal.ofBits .f32 0x41000000#32) = x * Ideal.ofBits .f32 0x3E000000#32 := by
  rw [ofBits_eight, ofBits_eighth]
  exact Ideal.div_coe (by norm_num : (8 : ℝ) ≠ 0) x

end Cert.ReferenceIdeal.RefValue

end
-- ==== Proof.Ref.Score.lean ====
import proofs.«114834_j83013127897754_2_alg».proof.Proof.Ref.Proj
import proofs.«114834_j83013127897754_2_alg».proof.Proof.Ref.Consts

/-!
# The reference's scaled scores are the specification's `scoreAt`

The batched `dot_general` of the query and key projections contracts the lane axis; the result is divided by the
literal `8.0` broadcast to every element. Read at `(n, h, i, j)` this is `(Σ_d q(n, h, i, d) · k(n, h, j, d)) · 1/8`.
-/

noncomputable section

open scoped BigOperators

namespace Cert.ReferenceIdeal.RefValue

open Cert.ReferenceIdeal Cert.ReferenceIdeal.Gen Idealize.ShloMosaic Idealize.ShloMosaic.ValueIdx

/-- The query's index in the score's contraction: `(n, h, i, d)`. -/
theorem score_lidx (n : Fin 2) (h : Fin 16) (s t : Fin 2048) (d : Fin 64) :
    Read.lidx_main_v18 (ix4 n h s t) d = ix4 n h s d :=
  funext fun a => by
    match a with
    | ⟨0, _⟩ => rfl
    | ⟨1, _⟩ => rfl
    | ⟨2, _⟩ => rfl
    | ⟨3, _⟩ => rfl

/-- The key's index in the score's contraction: `(n, h, j, d)`. -/
theorem score_ridx (n : Fin 2) (h : Fin 16) (s t : Fin 2048) (d : Fin 64) :
    Read.ridx_main_v18 (ix4 n h s t) d = ix4 n h t d :=
  funext fun a => by
    match a with
    | ⟨0, _⟩ => rfl
    | ⟨1, _⟩ => rfl
    | ⟨2, _⟩ => rfl
    | ⟨3, _⟩ => rfl

variable (x0 x1 : (⟨S2x2048x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))

/-- The scaled score at `(n, h, i, j)`. -/
theorem score_eq (n : Fin 2) (h : Fin 16) (s t : Fin 2048) :
    Read.val_main_v20 (F := Ideal) x0 x1 x3 x4 x5 x6 (ix4 n h s t)
      = Cert.Mha.scoreAt (Cert.Mha.proj x0 x3 x4) (Cert.Mha.proj x1 x5 x6) n h s t := by
  rw [Read.val_main_v20_apply, Read.val_main_v18_apply, Read.val_main_v19_apply, Read.val_main_cst_apply, q_eq, k_eq]
  simp only [score_lidx, score_ridx, Ideal.hostDivf_def, Ideal.ofBits_def]
  exact div_eight _

end Cert.ReferenceIdeal.RefValue

end
-- ==== Proof.Ref.RowMax.lean ====
import proofs.«114834_j83013127897754_2_alg».proof.Proof.Ref.Score

/-!
# The reference's row maximum is the specification's `rowMaxAt`

The reference reduces the scaled scores over the key axis with a maximum body from `-∞`, then takes the maximum of
a broadcast `-∞` with the result. The first is the fold of `max` from `-∞` over the row; the second leaves it
unchanged, since a fold of `max` is at least its initial value.
-/

noncomputable section

open scoped BigOperators

namespace Cert.ReferenceIdeal.RefValue

open Cert.ReferenceIdeal Cert.ReferenceIdeal.Gen Idealize.ShloMosaic Idealize.ShloMosaic.ValueIdx

/-- The row index `(n, h, i)` with the key position `k` inserted on the last axis is `(n, h, i, k)`. -/
theorem rowmax_lift (hr : S2x16x2048x2048.Reduces [3] S2x16x2048) (n : Fin 2) (h : Fin 16) (s : Fin 2048)
    (k : Fin (S2x16x2048x2048.size 3)) :
    hr.lift (ix3 n h s) k = ix4 n h s (⟨k.val, k.isLt⟩ : Fin 2048) := by
  funext c; apply Fin.ext
  match c with
  | ⟨0, _⟩ => rfl
  | ⟨1, _⟩ => rfl
  | ⟨2, _⟩ => rfl
  | ⟨3, _⟩ => rfl

variable (x0 x1 : (⟨S2x2048x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))

/-- The row's largest scaled score, folded from `-∞`. -/
theorem rowmax_eq (n : Fin 2) (h : Fin 16) (s : Fin 2048) :
    Read.val_main_v23 (F := Ideal) x0 x1 x3 x4 x5 x6 (ix3 n h s)
      = Cert.Mha.rowMaxAt (Cert.Mha.proj x0 x3 x4) (Cert.Mha.proj x1 x5 x6) n h s := by
  have hr : S2x16x2048x2048.Reduces [3] S2x16x2048 := by decide
  have hf : (Read.val_main_v20 (F := Ideal) x0 x1 x3 x4 x5 x6 ∘ hr.lift (ix3 n h s))
      = fun k : Fin 2048 => Cert.Mha.scoreAt (Cert.Mha.proj x0 x3 x4) (Cert.Mha.proj x1 x5 x6) n h s k :=
    funext fun k => by
      show Read.val_main_v20 (F := Ideal) x0 x1 x3 x4 x5 x6 (hr.lift (ix3 n h s) k) = _
      rw [rowmax_lift, score_eq]
      rfl
  rw [Read.val_main_v23_apply, Read.val_main_v22_apply, Read.val_main_cst_1_apply]
  unfold Read.val_main_v21
  rw [Host.reduce_eq_fold_single FloatOps.maximumf _ _ reducesTo_S2x16x2048x2048_S2x16x2048_d3 hr h_S_, hf,
    Read.val_main_cst_0_apply]
  exact max_eq_right ((Finset.le_fold_max _).2 (Or.inl le_rfl))

end Cert.ReferenceIdeal.RefValue

end
-- ==== Proof.Ref.Weights.lean ====
import proofs.«114834_j83013127897754_2_alg».proof.Proof.Ref.RowMax

/-!
# The reference's attention weights are the specification's `layerWeights`

The reference subtracts the row maximum (kept as a column and broadcast along the row), exponentiates, sums the row
from `0`, and divides every element by its row's sum (again kept as a column and broadcast along the row).
-/

noncomputable section

open scoped BigOperators

namespace Cert.ReferenceIdeal.RefValue

open Cert.ReferenceIdeal Cert.ReferenceIdeal.Gen Idealize.ShloMosaic Idealize.ShloMosaic.ValueIdx

/-- The row maximum read through its column and the column's broadcast along the row sits at `(n, h, i)`. -/
theorem max_row_idx (n : Fin 2) (h : Fin 16) (s t : Fin 2048) :
    Read.idx_main_v24 (Read.idx_main_v25 (ix4 n h s t)) = ix3 n h s :=
  funext fun a => by
    match a with
    | ⟨0, _⟩ => rfl
    | ⟨1, _⟩ => rfl
    | ⟨2, _⟩ => rfl

/-- The row sum read through its column and the column's broadcast along the row sits at `(n, h, i)`. -/
theorem sum_row_idx (n : Fin 2) (h : Fin 16) (s t : Fin 2048) :
    Read.idx_main_v29 (Read.idx_main_v30 (ix4 n h s t)) = ix3 n h s :=
  funext fun a => by
    match a with
    | ⟨0, _⟩ => rfl
    | ⟨1, _⟩ => rfl
    | ⟨2, _⟩ => rfl

/-- The row sum's term at key position `k` sits at `(n, h, i, k)`. -/
theorem sum_term_idx (n : Fin 2) (h : Fin 16) (s : Fin 2048) (k : Fin 2048) :
    Read.idx_main_v28 (ix3 n h s) k = ix4 n h s k :=
  funext fun a => by
    match a with
    | ⟨0, _⟩ => rfl
    | ⟨1, _⟩ => rfl
    | ⟨2, _⟩ => rfl
    | ⟨3, _⟩ => rfl

variable (x0 x1 : (⟨S2x2048x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))

/-- The shifted exponential of a score. -/
theorem exp_eq (n : Fin 2) (h : Fin 16) (s t : Fin 2048) :
    Read.val_main_v27 (F := Ideal) x0 x1 x3 x4 x5 x6 (ix4 n h s t)
      = Cert.Mha.expAt (Cert.Mha.proj x0 x3 x4) (Cert.Mha.proj x1 x5 x6) n h s t := by
  rw [Read.val_main_v27_apply, Read.val_main_v26_apply, Read.val_main_v25_apply, Read.val_main_v24_apply, score_eq,
    max_row_idx, rowmax_eq]
  rfl

/-- The row's normaliser. -/
theorem den_eq (n : Fin 2) (h : Fin 16) (s : Fin 2048) :
    Read.val_main_v28 (F := Ideal) x0 x1 x3 x4 x5 x6 (ix3 n h s)
      = Cert.Mha.denAt (Cert.Mha.proj x0 x3 x4) (Cert.Mha.proj x1 x5 x6) n h s := by
  rw [Read.val_main_v28_apply, Read.val_main_cst_2_apply]
  simp only [sum_term_idx, exp_eq, Ideal.ofBits_def]
  rw [Ideal.ofBits_zero_f32, zero_add]
  rfl

/-- The attention weight at `(n, h, i, j)`. -/
theorem weight_eq (n : Fin 2) (h : Fin 16) (s t : Fin 2048) :
    Read.val_main_v31 (F := Ideal) x0 x1 x3 x4 x5 x6 (ix4 n h s t)
      = Cert.Mha.weightAt (Cert.Mha.proj x0 x3 x4) (Cert.Mha.proj x1 x5 x6) n h s t := by
  rw [Read.val_main_v31_apply, Read.val_main_v30_apply, Read.val_main_v29_apply, exp_eq, sum_row_idx, den_eq]
  rfl

/-- The attention weights of the whole layer. -/
theorem weights_eq :
    Read.val_main_v31 (F := Ideal) x0 x1 x3 x4 x5 x6 = Cert.Mha.layerWeights x0 x1 x3 x4 x5 x6 := by
  funext i
  obtain ⟨n, h, s, t, rfl⟩ : ∃ (n : Fin 2) (h : Fin 16) (s t : Fin 2048), i = ix4 n h s t :=
    ⟨i 0, i 1, i 2, i 3, eq_ix4 i⟩
  exact weight_eq x0 x1 x3 x4 x5 x6 n h s t

end Cert.ReferenceIdeal.RefValue

end
-- ==== Proof.Ref.Out.lean ====
import proofs.«114834_j83013127897754_2_alg».proof.Proof.Ref.Weights

/-!
# The reference's output is the specification's `layerOut`

The batched `dot_general` of the attention weights with the value projection contracts the key position; the result
`[2, 16, 2048, 64]` is transposed to `[2, 2048, 16, 64]` and reshaped to `[2, 2048, 1024]` (head `h`, lane `d`
become feature `h * 64 + d`), then projected by the output layer: a `dot_general` with the weight contracting the
feature axis, plus the bias broadcast along batch and position.
-/

noncomputable section

open scoped BigOperators

namespace Cert.ReferenceIdeal.RefValue

open Cert.ReferenceIdeal Cert.ReferenceIdeal.Gen Idealize.ShloMosaic Idealize.ShloMosaic.ValueIdx

/-- The weight's index in the attended sum: `(n, h, i, j)`. -/
theorem attend_lidx (n : Fin 2) (h : Fin 16) (s : Fin 2048) (d : Fin 64) (k : Fin 2048) :
    Read.lidx_main_v32 (ix4 n h s d) k = ix4 n h s k :=
  funext fun a => by
    match a with
    | ⟨0, _⟩ => rfl
    | ⟨1, _⟩ => rfl
    | ⟨2, _⟩ => rfl
    | ⟨3, _⟩ => rfl

/-- The value's index in the attended sum: `(n, h, j, d)`. -/
theorem attend_ridx (n : Fin 2) (h : Fin 16) (s : Fin 2048) (d : Fin 64) (k : Fin 2048) :
    Read.ridx_main_v32 (ix4 n h s d) k = ix4 n h k d :=
  funext fun a => by
    match a with
    | ⟨0, _⟩ => rfl
    | ⟨1, _⟩ => rfl
    | ⟨2, _⟩ => rfl
    | ⟨3, _⟩ => rfl

/-- The merged heads' index in the output layer's contraction, read back through the reshape and the transpose:
feature `e'` of position `(n, s)` is lane `e' % 64` of head `e' / 64`. -/
theorem merge_lidx (n : Fin 2) (s : Fin 2048) (e k : Fin 1024) :
    Read.idx_main_v33 (Read.idx_main_v34 (Read.lidx_main_v35 (ix3 n s e) k))
      = ix4 n (Cert.Mha.headOf k) s (Cert.Mha.laneOf k) := by
  have h0 : n.val < 2 := n.isLt
  have h1 : s.val < 2048 := s.isLt
  have hk : k.val < 1024 := k.isLt
  refine funext fun a => Fin.ext ?_
  match a with
  | ⟨0, _⟩ =>
    show ((n.val * 2048 + s.val) * 1024 + k.val) / 2097152 = n.val
    omega
  | ⟨1, _⟩ =>
    show ((n.val * 2048 + s.val) * 1024 + k.val) / 64 % 16 = k.val / 64
    omega
  | ⟨2, _⟩ =>
    show ((n.val * 2048 + s.val) * 1024 + k.val) / 1024 % 2048 = s.val
    omega
  | ⟨3, _⟩ =>
    show ((n.val * 2048 + s.val) * 1024 + k.val) % 64 = k.val % 64
    omega

/-- The output weight's index: output feature `e`, input feature `k`. -/
theorem merge_ridx (n : Fin 2) (s : Fin 2048) (e k : Fin 1024) :
    Read.ridx_main_v35 (ix3 n s e) k = ix2 e k :=
  funext fun a => by
    match a with
    | ⟨0, _⟩ => rfl
    | ⟨1, _⟩ => rfl

/-- The output bias's index: feature `e`. -/
theorem merge_bidx (n : Fin 2) (s : Fin 2048) (e : Fin 1024) :
    Read.idx_main_v36 (Read.idx_main_v37 (ix3 n s e)) = ix1 e :=
  funext fun a => by
    match a with
    | ⟨0, _⟩ => rfl

variable (x0 x1 x2 : (⟨S2x2048x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))
  (x9 : (⟨S1024x1024, .f32⟩ : BufTy).Contents (Elt Ideal)) (x10 : (⟨S1024, .f32⟩ : BufTy).Contents (Elt Ideal))

/-- The attended values. -/
theorem attend_eq :
    Read.val_main_v32 (F := Ideal) x0 x1 x2 x3 x4 x5 x6 x7 x8
      = Cert.Mha.attend (Cert.Mha.layerWeights x0 x1 x3 x4 x5 x6) (Cert.Mha.proj x2 x7 x8) := by
  funext i
  obtain ⟨n, h, s, d, rfl⟩ : ∃ (n : Fin 2) (h : Fin 16) (s : Fin 2048) (d : Fin 64), i = ix4 n h s d :=
    ⟨i 0, i 1, i 2, i 3, eq_ix4 i⟩
  rw [Read.val_main_v32_apply, weights_eq, v_eq]
  simp only [attend_lidx, attend_ridx]
  rfl

/-- The layer's output. -/
theorem out_eq :
    Read.val_main_v38 (F := Ideal) x0 x1 x2 x3 x4 x5 x6 x7 x8 x9 x10
      = Cert.Mha.layerOut x0 x1 x2 x3 x4 x5 x6 x7 x8 x9 x10 := by
  funext i
  obtain ⟨n, s, e, rfl⟩ : ∃ (n : Fin 2) (s : Fin 2048) (e : Fin 1024), i = ix3 n s e :=
    ⟨i 0, i 1, i 2, eq_ix3 i⟩
  rw [Read.val_main_v38_apply, Read.val_main_v35_apply, Read.val_main_v37_apply, Read.val_main_v36_apply]
  simp only [Read.val_main_v34_apply, Read.val_main_v33_apply, merge_lidx, merge_ridx, merge_bidx, attend_eq]
  rfl

end Cert.ReferenceIdeal.RefValue

end
-- ==== Proof.Ref.RunSpec.lean ====
/-
  What the reference program's run leaves, stated at the specification.

  Every weakly fair execution of the reference's entry function terminates; its first result buffer then holds the
  multi-head attention layer's output `Cert.Mha.layerOut` of the eleven argument buffers' launch contents, its second
  the layer's attention weights `Cert.Mha.layerWeights` of six of them, and the arguments are unchanged. The run itself
  and the operations' composed terms come from the generated modules; the two terms are the specification's functions
  by `out_eq` and `weights_eq`.
-/
import proofs.«114834_j83013127897754_2_alg».proof.Defs
import proofs.«114834_j83013127897754_2_alg».proof.Proof.Gen.Pre_finite_inputs
import proofs.«114834_j83013127897754_2_alg».proof.Proof.Ref.Imports
import proofs.«114834_j83013127897754_2_alg».proof.Proof.Ref.Weights
import proofs.«114834_j83013127897754_2_alg».proof.Proof.Ref.Out
import proofs.«114834_j83013127897754_2_alg».proof.Proof.Spec

noncomputable section

namespace Cert.ReferenceIdeal.RefValue

open Cert.ReferenceIdeal Cert.ReferenceIdeal.Gen Idealize.ShloMosaic Idealize.ShloMosaic.TcCoe Idealize.SL.Sem

/-- The reference's run ends with the layer's output and attention weights of the launch arguments, the arguments
    unchanged. -/
theorem run_spec (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v38) = Cert.Mha.layerOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_v31) = Cert.Mha.layerWeights (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)) :=
  (θ_run Cert.ReferenceIdeal.defs _ _).mono
    (fun _ h c => ⟨((h c).1.trans (Read.val_main_v38_eq (F := Ideal) m' c)).trans (out_eq _ _ _ _ _ _ _ _ _ _ _),
      ((h c).2.1.trans (Read.val_main_v31_eq (F := Ideal) m' c)).trans (weights_eq _ _ _ _ _ _), (h c).2.2⟩)
    (Cert.ReferenceIdeal.Value.run (F := Ideal) m' ρ')

/-- The reference runs and its argument buffers end unchanged. -/
theorem frame_ri : Cert.frame_ReferenceIdeal := fun m ρ _ =>
  (θ_run Cert.ReferenceIdeal.defs _ _).mono (fun _ h c => (h c).2.2) (Cert.ReferenceIdeal.Value.run (F := Ideal) m ρ)

end Cert.ReferenceIdeal.RefValue

end
-- ==== Proof.lean ====
/- Multi-head attention (batch 2, 2048 positions, 16 heads of 64 lanes), computed by five pipelined kernels — three per-head
   projections, attention with a row softmax, an output projection accumulated head by head — against the same layer written
   with whole-array operations. At the exact extended reals both programs return the layer's output and its attention
   weights as ONE function of the eleven arguments (`Cert.Mha.layerOut`, `Cert.Mha.layerWeights`): every matrix product
   is the same finite sum whatever its tiling or its grouping by head (addition on the extended reals is associative and
   commutative), the reference's division of the scores by 8 is the kernel's product with the dyadic 1/8, and the two
   softmaxes are the same operations row by row. Each program's run — it terminates, faults nowhere and leaves its
   arguments unchanged — is assembled from its kernels' runs region by region. -/
import proofs.«114834_j83013127897754_2_alg».proof.Defs
import proofs.«114834_j83013127897754_2_alg».proof.Proof.Gen.Kernel
import proofs.«114834_j83013127897754_2_alg».proof.Proof.Gen.KernelIdeal
import proofs.«114834_j83013127897754_2_alg».proof.Proof.Gen.ReferenceIdeal
import proofs.«114834_j83013127897754_2_alg».proof.Proof.Gen.Pre_finite_inputs
import proofs.«114834_j83013127897754_2_alg».proof.Proof.KB.Run
import proofs.«114834_j83013127897754_2_alg».proof.Proof.KI.Link
import proofs.«114834_j83013127897754_2_alg».proof.Proof.Ref.RunSpec

noncomputable section

namespace Cert.Proof

open Idealize.ShloMosaic Idealize.SL.Sem

/-- The word-level program runs and keeps its arguments. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- Both idealized programs end with the layer's output and attention weights of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Mha.layerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Mha.layerWeights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Val.run_spec m ρ, ?_⟩
  refine (θ_run Cert.ReferenceIdeal.defs _ _).mono (fun r h c => ?_) (Cert.ReferenceIdeal.RefValue.run_spec m' ρ')
  obtain ⟨e0, e1, e2, e3, e4, e5, e6, e7, e8, e9, e10⟩ := hagree c
  obtain ⟨ho, hw, hargs⟩ := h c
  refine ⟨?_, ?_, hargs⟩
  · rw [ho, e0, e1, e2, e3, e4, e5, e6, e7, e8, e9, e10]
  · rw [hw, e0, e1, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
